-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x256 : Shape := ⟨2, ![12288, 256]⟩
abbrev S256x128 : Shape := ⟨2, ![256, 128]⟩
abbrev S128x64 : Shape := ⟨2, ![128, 64]⟩
abbrev S12288x64 : Shape := ⟨2, ![12288, 64]⟩
abbrev S2x393216 : Shape := ⟨2, ![2, 393216]⟩
abbrev S_ : Shape := ⟨0, ![]⟩

class Facts : Prop where
  bcast_S_S12288x256 : S_.BroadcastsInDim S12288x256 (![] : Fin 0 → Fin S12288x256.rank)
  reducesTo_S12288x256_S_d0_1 : S12288x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S12288x64 : S_.BroadcastsInDim S12288x64 (![] : Fin 0 → Fin S12288x64.rank)
  reducesTo_S12288x64_S_d0_1 : S12288x64.ReducesTo [0, 1] S_

variable [Facts]

def fn_part1 {F : FTy → Type} [FloatOps F] (main_arg4 : FVec F S12288x64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S12288x64 .f32 := Host.absf main_arg4
  let main_cst_6 : FVec F S_ .f32 := constant S_ .f32 0x7F800000#32
  let main_v20 : FVec F S12288x64 .f32 := broadcastInDim S12288x64 ![] bcast_S_S12288x64 main_cst_6
  let main_v21 : IVec S12288x64 1 := cmpf .olt main_v19 main_v20
  let main_c_7 : IVec S_ 1 := constantI S_ 1 1#1
  let main_v22 : IVec S_ 1 := (fun x v => Host.reduce IntOp.andi x v reducesTo_S12288x64_S_d0_1 h_S_) main_v21 main_c_7
  let main_v23 : IVec S_ 1 := andi main_v18 main_v22
  main_v23

def fn {F : FTy → Type} [FloatOps F] (main_arg0 : FVec F S12288x256 .f32) (main_arg1 : FVec F S256x128 .f32) (main_arg2 : FVec F S128x64 .f32) (main_arg3 : FVec F S128x64 .f32) (main_arg4 : FVec F S12288x64 .f32) (main_arg5 : IVec S2x393216 32) : IVec S_ 1 :=
  let main_v0 : FVec F S12288x256 .f32 := Host.absf main_arg0
  let main_cst : FVec F S_ .f32 := constant S_ .f32 0x7F800000#32
  let main_v1 : FVec F S12288x256 .f32 := broadcastInDim S12288x256 ![] bcast_S_S12288x256 main_cst
  let main_v2 : IVec S12288x256 1 := cmpf .olt main_v0 main_v1
  let main_c : IVec S_ 1 := constantI S_ 1 1#1
  let main_v3 : IVec S_ 1 := (fun x v => Host.reduce IntOp.andi x v reducesTo_S12288x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S12288x256 : Shape := ⟨2, ![12288, 256]⟩
abbrev S256x128 : Shape := ⟨2, ![256, 128]⟩
abbrev S128x64 : Shape := ⟨2, ![128, 64]⟩
abbrev S12288x64 : Shape := ⟨2, ![12288, 64]⟩
abbrev S2x393216 : Shape := ⟨2, ![2, 393216]⟩
abbrev S1x393216 : Shape := ⟨2, ![1, 393216]⟩
abbrev S393216 : Shape := ⟨1, ![393216]⟩
abbrev S_ : Shape := ⟨0, ![]⟩
abbrev S12288 : Shape := ⟨1, ![12288]⟩
abbrev S393216x1 : Shape := ⟨2, ![393216, 1]⟩
abbrev S12288x1 : Shape := ⟨2, ![12288, 1]⟩
abbrev S12288x128 : Shape := ⟨2, ![12288, 128]⟩
abbrev S1024x256 : Shape := ⟨2, ![1024, 256]⟩
abbrev S1024x1 : Shape := ⟨2, ![1024, 1]⟩
abbrev S1024x128 : Shape := ⟨2, ![1024, 128]⟩
abbrev S393216x128 : Shape := ⟨2, ![393216, 128]⟩
abbrev S1024x64 : Shape := ⟨2, ![1024, 64]⟩
abbrev S393216x64 : Shape := ⟨2, ![393216, 64]⟩
abbrev S12288x12288 : Shape := ⟨2, ![12288, 12288]⟩
abbrev S1024x1024 : Shape := ⟨2, ![1024, 1024]⟩

abbrev nBuf : Space → Nat
  | .hbm => 83
  | .vmem => 27
  | .smem => 0
  | _ => 0

abbrev bufTy : (tb : Table) → Fin (tcTables nBuf tb) → BufTy
  | .hbm, ⟨0, _⟩ => ⟨S12288x256, .f32⟩
  | .hbm, ⟨1, _⟩ => ⟨S256x128, .f32⟩
  | .hbm, ⟨2, _⟩ => ⟨S128x64, .f32⟩
  | .hbm, ⟨3, _⟩ => ⟨S128x64, .f32⟩
  | .hbm, ⟨4, _⟩ => ⟨S12288x64, .f32⟩
  | .hbm, ⟨5, _⟩ => ⟨S2x393216, .i32⟩
  | .hbm, ⟨6, _⟩ => ⟨S1x393216, .i32⟩
  | .hbm, ⟨7, _⟩ => ⟨S393216, .i32⟩
  | .hbm, ⟨8, _⟩ => ⟨S1x393216, .i32⟩
  | .hbm, ⟨9, _⟩ => ⟨S393216, .i32⟩
  | .hbm, ⟨10, _⟩ => ⟨S_, .f32⟩
  | .hbm, ⟨11, _⟩ => ⟨S393216, .f32⟩
  | .hbm, ⟨12, _⟩ => ⟨S_, .f32⟩
  | .hbm, ⟨13, _⟩ => ⟨S12288, .f32⟩
  | .hbm, ⟨14, _⟩ => ⟨S393216x1, .i32⟩
  | .hbm, ⟨15, _⟩ => ⟨S12288, .f32⟩
  | .hbm, ⟨16, _⟩ => ⟨S_, .f32⟩
  | .hbm, ⟨17, _⟩ => ⟨S_, .f32⟩
  | .hbm, ⟨18, _⟩ => ⟨S12288, .f32⟩
  | .hbm, ⟨19, _⟩ => ⟨S12288, .f32⟩
  | .hbm, ⟨20, _⟩ => ⟨S12288, .f32⟩
  | .hbm, ⟨21, _⟩ => ⟨S_, .f32⟩
  | .hbm, ⟨22, _⟩ => ⟨S12288, .f32⟩
  | .hbm, ⟨23, _⟩ => ⟨S12288, .f32⟩
  | .hbm, ⟨24, _⟩ => ⟨S12288x1, .f32⟩
  | .hbm, ⟨25, _⟩ => ⟨S12288x128, .f32⟩
  | .hbm, ⟨26, _⟩ => ⟨S_, .i32⟩
  | .hbm, ⟨27, _⟩ => ⟨S393216, .i32⟩
  | .hbm, ⟨28, _⟩ => ⟨S393216, .i1⟩
  | .hbm, ⟨29, _⟩ => ⟨S_, .i32⟩
  | .hbm, ⟨30, _⟩ => ⟨S393216, .i32⟩
  | .hbm, ⟨31, _⟩ => ⟨S393216, .i32⟩
  | .hbm, ⟨32, _⟩ => ⟨S393216, .i32⟩
  | .hbm, ⟨33, _⟩ => ⟨S393216x1, .i32⟩
  | .hbm, ⟨34, _⟩ => ⟨S393216x128, .f32⟩
  | .hbm, ⟨35, _⟩ => ⟨S_, .f32⟩
  | .hbm, ⟨36, _⟩ => ⟨S12288x128, .f32⟩
  | .hbm, ⟨37, _⟩ => ⟨S393216x1, .i32⟩
  | .hbm, ⟨38, _⟩ => ⟨S12288x128, .f32⟩
  | .hbm, ⟨39, _⟩ => ⟨S12288x128, .f32⟩
  | .hbm, ⟨40, _⟩ => ⟨S12288x128, .f32⟩
  | .hbm, ⟨41, _⟩ => ⟨S12288x64, .f32⟩
  | .hbm, ⟨42, _⟩ => ⟨S_, .i32⟩
  | .hbm, ⟨43, _⟩ => ⟨S393216, .i32⟩
  | .hbm, ⟨44, _⟩ => ⟨S393216, .i1⟩
  | .hbm, ⟨45, _⟩ => ⟨S_, .i32⟩
  | .hbm, ⟨46, _⟩ => ⟨S393216, .i32⟩
  | .hbm, ⟨47, _⟩ => ⟨S393216, .i32⟩
  | .hbm, ⟨48, _⟩ => ⟨S393216, .i32⟩
  | .hbm, ⟨49, _⟩ => ⟨S393216x1, .i32⟩
  | .hbm, ⟨50, _⟩ => ⟨S393216x64, .f32⟩
  | .hbm, ⟨51, _⟩ => ⟨S_, .f32⟩
  | .hbm, ⟨52, _⟩ => ⟨S12288x64, .f32⟩
  | .hbm, ⟨53, _⟩ => ⟨S393216x1, .i32⟩
  | .hbm, ⟨54, _⟩ => ⟨S12288x64, .f32⟩
  | .hbm, ⟨55, _⟩ => ⟨S12288x64, .f32⟩
  | .hbm, ⟨56, _⟩ => ⟨S12288x64, .f32⟩
  | .hbm, ⟨57, _⟩ => ⟨S_, .f32⟩
  | .hbm, ⟨58, _⟩ => ⟨S12288x64, .f32⟩
  | .hbm, ⟨59, _⟩ => ⟨S12288x64, .f32⟩
  | .hbm, ⟨60, _⟩ => ⟨S12288x64, .f32⟩
  | .hbm, ⟨61, _⟩ => ⟨S_, .i32⟩
  | .hbm, ⟨62, _⟩ => ⟨S393216, .i32⟩
  | .hbm, ⟨63, _⟩ => ⟨S393216, .i1⟩
  | .hbm, ⟨64, _⟩ => ⟨S_, .i32⟩
  | .hbm, ⟨65, _⟩ => ⟨S393216, .i32⟩
  | .hbm, ⟨66, _⟩ => ⟨S393216, .i32⟩
  | .hbm, ⟨67, _⟩ => ⟨S393216, .i32⟩
  | .hbm, ⟨68, _⟩ => ⟨S393216x1, .i32⟩
  | .hbm, ⟨69, _⟩ => ⟨S393216x64, .f32⟩
  | .hbm, ⟨70, _⟩ => ⟨S_, .f32⟩
  | .hbm, ⟨71, _⟩ => ⟨S12288x64, .f32⟩
  | .hbm, ⟨72, _⟩ => ⟨S393216x1, .i32⟩
  | .hbm, ⟨73, _⟩ => ⟨S12288x64, .f32⟩
  | .hbm, ⟨74, _⟩ => ⟨S12288x64, .f32⟩
  | .hbm, ⟨75, _⟩ => ⟨S12288x64, .f32⟩
  | .hbm, ⟨76, _⟩ => ⟨S_, .f32⟩
  | .hbm, ⟨77, _⟩ => ⟨S12288x64, .f32⟩
  | .hbm, ⟨78, _⟩ => ⟨S12288x64, .f32⟩
  | .hbm, ⟨79, _⟩ => ⟨S12288x64, .f32⟩
  | .hbm, ⟨80, _⟩ => ⟨S12288x64, .f32⟩
  | .hbm, ⟨81, _⟩ => ⟨S12288x64, .f32⟩
  | .hbm, ⟨82, _⟩ => ⟨S12288x12288, .f32⟩
  | .local _ .vmem, ⟨0, _⟩ => ⟨S1024x256, .f32⟩
  | .local _ .vmem, ⟨1, _⟩ => ⟨S1024x256, .f32⟩
  | .local _ .vmem, ⟨2, _⟩ => ⟨S256x128, .f32⟩
  | .local _ .vmem, ⟨3, _⟩ => ⟨S1024x1, .f32⟩
  | .local _ .vmem, ⟨4, _⟩ => ⟨S1024x1, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S128x64, .f32⟩
  | .local _ .vmem, ⟨10, _⟩ => ⟨S1024x1, .f32⟩
  | .local _ .vmem, ⟨11, _⟩ => ⟨S1024x1, .f32⟩
  | .local _ .vmem, ⟨12, _⟩ => ⟨S1024x64, .f32⟩
  | .local _ .vmem, ⟨13, _⟩ => ⟨S1024x64, .f32⟩
  | .local _ .vmem, ⟨14, _⟩ => ⟨S1024x128, .f32⟩
  | .local _ .vmem, ⟨15, _⟩ => ⟨S1024x128, .f32⟩
  | .local _ .vmem, ⟨16, _⟩ => ⟨S128x64, .f32⟩
  | .local _ .vmem, ⟨17, _⟩ => ⟨S1024x1, .f32⟩
  | .local _ .vmem, ⟨18, _⟩ => ⟨S1024x1, .f32⟩
  | .local _ .vmem, ⟨19, _⟩ => ⟨S1024x64, .f32⟩
  | .local _ .vmem, ⟨20, _⟩ => ⟨S1024x64, .f32⟩
  | .local _ .vmem, ⟨21, _⟩ => ⟨S1024x64, .f32⟩
  | .local _ .vmem, ⟨22, _⟩ => ⟨S1024x64, .f32⟩
  | .local _ .vmem, ⟨23, _⟩ => ⟨S1024x64, .f32⟩
  | .local _ .vmem, ⟨24, _⟩ => ⟨S1024x64, .f32⟩
  | .local _ .vmem, ⟨25, _⟩ => ⟨S1024x1024, .f32⟩
  | .local _ .vmem, ⟨26, _⟩ => ⟨S1024x1024, .f32⟩
  | _, _ => ⟨S12288x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call1_cst : Ref sig .tc := ⟨.hbm, 57, rfl⟩
abbrev main_call1_v0 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call2_cst : Ref sig .tc := ⟨.hbm, 76, rfl⟩
abbrev main_call2_v0 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![12], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1024x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![12, 12], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  slices_S2x393216_S1x393216_0_0 : S2x393216.Slices ![0, 0] S1x393216
  shapeCasts_S1x393216_S393216 : S1x393216.ShapeCasts S393216
  slices_S2x393216_S1x393216_1_0 : S2x393216.Slices ![1, 0] S1x393216
  bcast_S_S393216 : S_.BroadcastsInDim S393216 (![] : Fin 0 → Fin S393216.rank)
  bcast_S_S12288 : S_.BroadcastsInDim S12288 (![] : Fin 0 → Fin S12288.rank)
  bcast_S393216_S393216x1_0 : S393216.BroadcastsInDim S393216x1 (![0] : Fin 1 → Fin S393216x1.rank)
  bcast_S12288_S12288x1_0 : S12288.BroadcastsInDim S12288x1 (![0] : Fin 1 → Fin S12288x1.rank)
  inb_S1024x256_S1024x256_0_0 : ∀ a, (![0, 0] : Fin 2 → Nat) a + S1024x256.size a ≤ S1024x256.size a
  h_S1024x256 : 0 < S1024x256.numel
  inb_S256x128_S256x128_0_0 : ∀ a, (![0, 0] : Fin 2 → Nat) a + S256x128.size a ≤ S256x128.size a
  h_S256x128 : 0 < S256x128.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  inb_S1024x128_S1024x128_0_0 : ∀ a, (![0, 0] : Fin 2 → Nat) a + S1024x128.size a ≤ S1024x128.size a
  h_S1024x128 : 0 < S1024x128.numel
  bcast_S_S12288x128 : S_.BroadcastsInDim S12288x128 (![] : Fin 0 → Fin S12288x128.rank)
  bcast_S12288x1_S12288x128_0_1 : S12288x1.BroadcastsInDim S12288x128 (![0, 1] : Fin 2 → Fin S12288x128.rank)
  shapeCasts_S1024x128_S1024x128 : S1024x128.ShapeCasts S1024x128
  inb_S128x64_S128x64_0_0 : ∀ a, (![0, 0] : Fin 2 → Nat) a + S128x64.size a ≤ S128x64.size a
  h_S128x64 : 0 < S128x64.numel
  broadcasts_S1024x1_S1024x64 : S1024x1.Broadcasts S1024x64
  inb_S1024x64_S1024x64_0_0 : ∀ a, (![0, 0] : Fin 2 → Nat) a + S1024x64.size a ≤ S1024x64.size a
  h_S1024x64 : 0 < S1024x64.numel
  bcast_S_S12288x64 : S_.BroadcastsInDim S12288x64 (![] : Fin 0 → Fin S12288x64.rank)
  bcast_S12288x1_S12288x64_0_1 : S12288x1.BroadcastsInDim S12288x64 (![0, 1] : Fin 2 → Fin S12288x64.rank)
  shapeCasts_S1024x64_S1024x64 : S1024x64.ShapeCasts S1024x64
  inb_S1024x1024_S1024x1024_0_0 : ∀ a, (![0, 0] : Fin 2 → Nat) a + S1024x1024.size a ≤ S1024x1024.size a
  h_S1024x1024 : 0 < S1024x1024.numel
  scatter_S12288_S393216x1_S393216_n_0_0_1_wf : ScatterDims.WF S12288 S393216x1 S393216 [] [0] [0] 1
  dot_S1024x256_S256x128_S1024x128_1_0_0_1_n_n_wf : DotDims.WF S1024x256 S256x128 S1024x128 [1] [0] [0] [1] [] []
  gather_S12288x128_S393216x1_S393216x128_1_0_n_n_0_1_1128_wf : GatherDims.WF S12288x128 S393216x1 S393216x128 [1] [0] [] [0] [] 1 ![1, 128]
  scatter_S12288x128_S393216x1_S393216x128_1_0_0_1_wf : ScatterDims.WF S12288x128 S393216x1 S393216x128 [1] [0] [0] 1
  dot_S1024x128_S128x64_S1024x64_1_0_0_1_n_n_wf : DotDims.WF S1024x128 S128x64 S1024x64 [1] [0] [0] [1] [] []
  gather_S12288x64_S393216x1_S393216x64_1_0_n_n_0_1_164_wf : GatherDims.WF S12288x64 S393216x1 S393216x64 [1] [0] [] [0] [] 1 ![1, 64]
  scatter_S12288x64_S393216x1_S393216x64_1_0_0_1_wf : ScatterDims.WF S12288x64 S393216x1 S393216x64 [1] [0] [0] 1
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S12288x256.size a
  hwx0_0 : ∀ i : grid0.Coords, EltTy.bits .f32 = 32 ∨ (Rect.block (s := S12288x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S12288x1.size a
  hwx0_2 : ∀ i : grid0.Coords, EltTy.bits .f32 = 32 ∨ (Rect.block (s := S12288x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S12288x128.size a
  hwx0_3 : ∀ i : grid0.Coords, EltTy.bits .f32 = 32 ∨ (Rect.block (s := S12288x128) S1024x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S12288x128.size a
  hwx1_0 : ∀ i : grid1.Coords, EltTy.bits .f32 = 32 ∨ (Rect.block (s := S12288x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S12288x1.size a
  hwx1_2 : ∀ i : grid1.Coords, EltTy.bits .f32 = 32 ∨ (Rect.block (s := S12288x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S12288x64.size a
  hwx1_3 : ∀ i : grid1.Coords, EltTy.bits .f32 = 32 ∨ (Rect.block (s := S12288x64) S1024x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S12288x128.size a
  hwx2_0 : ∀ i : grid2.Coords, EltTy.bits .f32 = 32 ∨ (Rect.block (s := S12288x128) S1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S12288x1.size a
  hwx2_2 : ∀ i : grid2.Coords, EltTy.bits .f32 = 32 ∨ (Rect.block (s := S12288x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x64.size a ≤ S12288x64.size a
  hwx2_3 : ∀ i : grid2.Coords, EltTy.bits .f32 = 32 ∨ (Rect.block (s := S12288x64) S1024x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x64.size a ≤ S12288x64.size a
  hwx3_0 : ∀ i : grid3.Coords, EltTy.bits .f32 = 32 ∨ (Rect.block (s := S12288x64) S1024x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x64.size a ≤ S12288x64.size a
  hwx3_1 : ∀ i : grid3.Coords, EltTy.bits .f32 = 32 ∨ (Rect.block (s := S12288x64) S1024x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S12288x12288.size a
  hwx3_2 : ∀ i : grid3.Coords, EltTy.bits .f32 = 32 ∨ (Rect.block (s := S12288x12288) S1024x1024.size (cc3_transform_2 i) (hinb3_2 i)).WholeWords (EltTy.packing .f32)

variable [Facts₀]

def scatter_S12288_S393216x1_S393216_n_0_0_1 : ScatterDims S12288 S393216x1 S393216 where
  updateWindowDims := []
  insertedWindowDims := [0]
  scatterDimsToOperandDims := [0]
  indexVectorDim := 1
  wf := scatter_S12288_S393216x1_S393216_n_0_0_1_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def gather_S12288x128_S393216x1_S393216x128_1_0_n_n_0_1_1128 : GatherDims S12288x128 S393216x1 S393216x128 where
  offsetDims := [1]
  collapsedSliceDims := [0]
  operandBatchingDims := []
  startIndicesBatchingDims := []
  startIndexMap := [0]
  indexVectorDim := 1
  sliceSizes := ![1, 128]
  wf := gather_S12288x128_S393216x1_S393216x128_1_0_n_n_0_1_1128_wf
def scatter_S12288x128_S393216x1_S393216x128_1_0_0_1 : ScatterDims S12288x128 S393216x1 S393216x128 where
  updateWindowDims := [1]
  insertedWindowDims := [0]
  scatterDimsToOperandDims := [0]
  indexVectorDim := 1
  wf := scatter_S12288x128_S393216x1_S393216x128_1_0_0_1_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def gather_S12288x64_S393216x1_S393216x64_1_0_n_n_0_1_164 : GatherDims S12288x64 S393216x1 S393216x64 where
  offsetDims := [1]
  collapsedSliceDims := [0]
  operandBatchingDims := []
  startIndicesBatchingDims := []
  startIndexMap := [0]
  indexVectorDim := 1
  sliceSizes := ![1, 64]
  wf := gather_S12288x64_S393216x1_S393216x64_1_0_n_n_0_1_164_wf
def scatter_S12288x64_S393216x1_S393216x64_1_0_0_1 : ScatterDims S12288x64 S393216x1 S393216x64 where
  updateWindowDims := [1]
  insertedWindowDims := [0]
  scatterDimsToOperandDims := [0]
  indexVectorDim := 1
  wf := scatter_S12288x64_S393216x1_S393216x64_1_0_0_1_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v25) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1024x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v56) S1024x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S1024x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1024x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S12288x256 : Shape := ⟨2, ![12288, 256]⟩
abbrev S256x128 : Shape := ⟨2, ![256, 128]⟩
abbrev S128x64 : Shape := ⟨2, ![128, 64]⟩
abbrev S12288x64 : Shape := ⟨2, ![12288, 64]⟩
abbrev S2x393216 : Shape := ⟨2, ![2, 393216]⟩
abbrev S1x393216 : Shape := ⟨2, ![1, 393216]⟩
abbrev S393216 : Shape := ⟨1, ![393216]⟩
abbrev S_ : Shape := ⟨0, ![]⟩
abbrev S12288 : Shape := ⟨1, ![12288]⟩
abbrev S393216x1 : Shape := ⟨2, ![393216, 1]⟩
abbrev S12288x1 : Shape := ⟨2, ![12288, 1]⟩
abbrev S12288x128 : Shape := ⟨2, ![12288, 128]⟩
abbrev S393216x128 : Shape := ⟨2, ![393216, 128]⟩
abbrev S393216x64 : Shape := ⟨2, ![393216, 64]⟩
abbrev S64x12288 : Shape := ⟨2, ![64, 12288]⟩
abbrev S12288x12288 : Shape := ⟨2, ![12288, 12288]⟩

abbrev nBuf : Space → Nat
  | .hbm => 90
  | .vmem => 0
  | .smem => 0
  | _ => 0

abbrev bufTy : (tb : Table) → Fin (tcTables nBuf tb) → BufTy
  | .hbm, ⟨0, _⟩ => ⟨S12288x256, .f32⟩
  | .hbm, ⟨1, _⟩ => ⟨S256x128, .f32⟩
  | .hbm, ⟨2, _⟩ => ⟨S128x64, .f32⟩
  | .hbm, ⟨3, _⟩ => ⟨S128x64, .f32⟩
  | .hbm, ⟨4, _⟩ => ⟨S12288x64, .f32⟩
  | .hbm, ⟨5, _⟩ => ⟨S2x393216, .i32⟩
  | .hbm, ⟨6, _⟩ => ⟨S1x393216, .i32⟩
  | .hbm, ⟨7, _⟩ => ⟨S393216, .i32⟩
  | .hbm, ⟨8, _⟩ => ⟨S1x393216, .i32⟩
  | .hbm, ⟨9, _⟩ => ⟨S393216, .i32⟩
  | .hbm, ⟨10, _⟩ => ⟨S_, .f32⟩
  | .hbm, ⟨11, _⟩ => ⟨S393216, .f32⟩
  | .hbm, ⟨12, _⟩ => ⟨S_, .f32⟩
  | .hbm, ⟨13, _⟩ => ⟨S12288, .f32⟩
  | .hbm, ⟨14, _⟩ => ⟨S393216x1, .i32⟩
  | .hbm, ⟨15, _⟩ => ⟨S12288, .f32⟩
  | .hbm, ⟨16, _⟩ => ⟨S_, .f32⟩
  | .hbm, ⟨17, _⟩ => ⟨S_, .f32⟩
  | .hbm, ⟨18, _⟩ => ⟨S12288, .f32⟩
  | .hbm, ⟨19, _⟩ => ⟨S12288, .f32⟩
  | .hbm, ⟨20, _⟩ => ⟨S12288, .f32⟩
  | .hbm, ⟨21, _⟩ => ⟨S_, .f32⟩
  | .hbm, ⟨22, _⟩ => ⟨S12288, .f32⟩
  | .hbm, ⟨23, _⟩ => ⟨S12288, .f32⟩
  | .hbm, ⟨24, _⟩ => ⟨S12288x1, .f32⟩
  | .hbm, ⟨25, _⟩ => ⟨S12288x128, .f32⟩
  | .hbm, ⟨26, _⟩ => ⟨S12288x128, .f32⟩
  | .hbm, ⟨27, _⟩ => ⟨S12288x128, .f32⟩
  | .hbm, ⟨28, _⟩ => ⟨S_, .i32⟩
  | .hbm, ⟨29, _⟩ => ⟨S393216, .i32⟩
  | .hbm, ⟨30, _⟩ => ⟨S393216, .i1⟩
  | .hbm, ⟨31, _⟩ => ⟨S_, .i32⟩
  | .hbm, ⟨32, _⟩ => ⟨S393216, .i32⟩
  | .hbm, ⟨33, _⟩ => ⟨S393216, .i32⟩
  | .hbm, ⟨34, _⟩ => ⟨S393216, .i32⟩
  | .hbm, ⟨35, _⟩ => ⟨S393216x1, .i32⟩
  | .hbm, ⟨36, _⟩ => ⟨S393216x128, .f32⟩
  | .hbm, ⟨37, _⟩ => ⟨S_, .f32⟩
  | .hbm, ⟨38, _⟩ => ⟨S12288x128, .f32⟩
  | .hbm, ⟨39, _⟩ => ⟨S393216x1, .i32⟩
  | .hbm, ⟨40, _⟩ => ⟨S12288x128, .f32⟩
  | .hbm, ⟨41, _⟩ => ⟨S12288x128, .f32⟩
  | .hbm, ⟨42, _⟩ => ⟨S12288x128, .f32⟩
  | .hbm, ⟨43, _⟩ => ⟨S12288x64, .f32⟩
  | .hbm, ⟨44, _⟩ => ⟨S12288x64, .f32⟩
  | .hbm, ⟨45, _⟩ => ⟨S12288x64, .f32⟩
  | .hbm, ⟨46, _⟩ => ⟨S_, .i32⟩
  | .hbm, ⟨47, _⟩ => ⟨S393216, .i32⟩
  | .hbm, ⟨48, _⟩ => ⟨S393216, .i1⟩
  | .hbm, ⟨49, _⟩ => ⟨S_, .i32⟩
  | .hbm, ⟨50, _⟩ => ⟨S393216, .i32⟩
  | .hbm, ⟨51, _⟩ => ⟨S393216, .i32⟩
  | .hbm, ⟨52, _⟩ => ⟨S393216, .i32⟩
  | .hbm, ⟨53, _⟩ => ⟨S393216x1, .i32⟩
  | .hbm, ⟨54, _⟩ => ⟨S393216x64, .f32⟩
  | .hbm, ⟨55, _⟩ => ⟨S_, .f32⟩
  | .hbm, ⟨56, _⟩ => ⟨S12288x64, .f32⟩
  | .hbm, ⟨57, _⟩ => ⟨S393216x1, .i32⟩
  | .hbm, ⟨58, _⟩ => ⟨S12288x64, .f32⟩
  | .hbm, ⟨59, _⟩ => ⟨S12288x64, .f32⟩
  | .hbm, ⟨60, _⟩ => ⟨S12288x64, .f32⟩
  | .hbm, ⟨61, _⟩ => ⟨S_, .f32⟩
  | .hbm, ⟨62, _⟩ => ⟨S12288x64, .f32⟩
  | .hbm, ⟨63, _⟩ => ⟨S12288x64, .f32⟩
  | .hbm, ⟨64, _⟩ => ⟨S12288x64, .f32⟩
  | .hbm, ⟨65, _⟩ => ⟨S12288x64, .f32⟩
  | .hbm, ⟨66, _⟩ => ⟨S12288x64, .f32⟩
  | .hbm, ⟨67, _⟩ => ⟨S_, .i32⟩
  | .hbm, ⟨68, _⟩ => ⟨S393216, .i32⟩
  | .hbm, ⟨69, _⟩ => ⟨S393216, .i1⟩
  | .hbm, ⟨70, _⟩ => ⟨S_, .i32⟩
  | .hbm, ⟨71, _⟩ => ⟨S393216, .i32⟩
  | .hbm, ⟨72, _⟩ => ⟨S393216, .i32⟩
  | .hbm, ⟨73, _⟩ => ⟨S393216, .i32⟩
  | .hbm, ⟨74, _⟩ => ⟨S393216x1, .i32⟩
  | .hbm, ⟨75, _⟩ => ⟨S393216x64, .f32⟩
  | .hbm, ⟨76, _⟩ => ⟨S_, .f32⟩
  | .hbm, ⟨77, _⟩ => ⟨S12288x64, .f32⟩
  | .hbm, ⟨78, _⟩ => ⟨S393216x1, .i32⟩
  | .hbm, ⟨79, _⟩ => ⟨S12288x64, .f32⟩
  | .hbm, ⟨80, _⟩ => ⟨S12288x64, .f32⟩
  | .hbm, ⟨81, _⟩ => ⟨S12288x64, .f32⟩
  | .hbm, ⟨82, _⟩ => ⟨S_, .f32⟩
  | .hbm, ⟨83, _⟩ => ⟨S12288x64, .f32⟩
  | .hbm, ⟨84, _⟩ => ⟨S12288x64, .f32⟩
  | .hbm, ⟨85, _⟩ => ⟨S12288x64, .f32⟩
  | .hbm, ⟨86, _⟩ => ⟨S12288x64, .f32⟩
  | .hbm, ⟨87, _⟩ => ⟨S12288x64, .f32⟩
  | .hbm, ⟨88, _⟩ => ⟨S64x12288, .f32⟩
  | .hbm, ⟨89, _⟩ => ⟨S12288x12288, .f32⟩
  | _, _ => ⟨S12288x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call1_cst : Ref sig .tc := ⟨.hbm, 61, rfl⟩
abbrev main_call1_v0 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_8 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call2_cst : Ref sig .tc := ⟨.hbm, 82, rfl⟩
abbrev main_call2_v0 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩

abbrev nD : Nat := 1
abbrev τ : Topo := Topo.v7x

variable {F : FTy → Type} [FloatOps F]

class Facts₀ : Prop where
  slices_S2x393216_S1x393216_0_0 : S2x393216.Slices ![0, 0] S1x393216
  shapeCasts_S1x393216_S393216 : S1x393216.ShapeCasts S393216
  slices_S2x393216_S1x393216_1_0 : S2x393216.Slices ![1, 0] S1x393216
  bcast_S_S393216 : S_.BroadcastsInDim S393216 (![] : Fin 0 → Fin S393216.rank)
  bcast_S_S12288 : S_.BroadcastsInDim S12288 (![] : Fin 0 → Fin S12288.rank)
  bcast_S393216_S393216x1_0 : S393216.BroadcastsInDim S393216x1 (![0] : Fin 1 → Fin S393216x1.rank)
  bcast_S12288_S12288x1_0 : S12288.BroadcastsInDim S12288x1 (![0] : Fin 1 → Fin S12288x1.rank)
  bcast_S12288x1_S12288x128_0_1 : S12288x1.BroadcastsInDim S12288x128 (![0, 1] : Fin 2 → Fin S12288x128.rank)
  bcast_S_S12288x128 : S_.BroadcastsInDim S12288x128 (![] : Fin 0 → Fin S12288x128.rank)
  bcast_S12288x1_S12288x64_0_1 : S12288x1.BroadcastsInDim S12288x64 (![0, 1] : Fin 2 → Fin S12288x64.rank)
  bcast_S_S12288x64 : S_.BroadcastsInDim S12288x64 (![] : Fin 0 → Fin S12288x64.rank)
  transposes_S12288x64_S64x12288_1_0 : S12288x64.Transposes [1, 0] S64x12288
  scatter_S12288_S393216x1_S393216_n_0_0_1_wf : ScatterDims.WF S12288 S393216x1 S393216 [] [0] [0] 1
  dot_S12288x256_S256x128_S12288x128_1_0_0_1_n_n_wf : DotDims.WF S12288x256 S256x128 S12288x128 [1] [0] [0] [1] [] []
  gather_S12288x128_S393216x1_S393216x128_1_0_n_n_0_1_1128_wf : GatherDims.WF S12288x128 S393216x1 S393216x128 [1] [0] [] [0] [] 1 ![1, 128]
  scatter_S12288x128_S393216x1_S393216x128_1_0_0_1_wf : ScatterDims.WF S12288x128 S393216x1 S393216x128 [1] [0] [0] 1
  dot_S12288x128_S128x64_S12288x64_1_0_0_1_n_n_wf : DotDims.WF S12288x128 S128x64 S12288x64 [1] [0] [0] [1] [] []
  gather_S12288x64_S393216x1_S393216x64_1_0_n_n_0_1_164_wf : GatherDims.WF S12288x64 S393216x1 S393216x64 [1] [0] [] [0] [] 1 ![1, 64]
  scatter_S12288x64_S393216x1_S393216x64_1_0_0_1_wf : ScatterDims.WF S12288x64 S393216x1 S393216x64 [1] [0] [0] 1
  dot_S12288x64_S64x12288_S12288x12288_1_0_0_1_n_n_wf : DotDims.WF S12288x64 S64x12288 S12288x12288 [1] [0] [0] [1] [] []

variable [Facts₀]

def scatter_S12288_S393216x1_S393216_n_0_0_1 : ScatterDims S12288 S393216x1 S393216 where
  updateWindowDims := []
  insertedWindowDims := [0]
  scatterDimsToOperandDims := [0]
  indexVectorDim := 1
  wf := scatter_S12288_S393216x1_S393216_n_0_0_1_wf
def dot_S12288x256_S256x128_S12288x128_1_0_0_1_n_n : DotDims S12288x256 S256x128 S12288x128 where
  lhsContracting := [1]
  rhsContracting := [0]
  lhsNonContracting := [0]
  rhsNonContracting := [1]
  lhsBatch := []
  rhsBatch := []
  wf := dot_S12288x256_S256x128_S12288x128_1_0_0_1_n_n_wf
def gather_S12288x128_S393216x1_S393216x128_1_0_n_n_0_1_1128 : GatherDims S12288x128 S393216x1 S393216x128 where
  offsetDims := [1]
  collapsedSliceDims := [0]
  operandBatchingDims := []
  startIndicesBatchingDims := []
  startIndexMap := [0]
  indexVectorDim := 1
  sliceSizes := ![1, 128]
  wf := gather_S12288x128_S393216x1_S393216x128_1_0_n_n_0_1_1128_wf
def scatter_S12288x128_S393216x1_S393216x128_1_0_0_1 : ScatterDims S12288x128 S393216x1 S393216x128 where
  updateWindowDims := [1]
  insertedWindowDims := [0]
  scatterDimsToOperandDims := [0]
  indexVectorDim := 1
  wf := scatter_S12288x128_S393216x1_S393216x128_1_0_0_1_wf
def dot_S12288x128_S128x64_S12288x64_1_0_0_1_n_n : DotDims S12288x128 S128x64 S12288x64 where
  lhsContracting := [1]
  rhsContracting := [0]
  lhsNonContracting := [0]
  rhsNonContracting := [1]
  lhsBatch := []
  rhsBatch := []
  wf := dot_S12288x128_S128x64_S12288x64_1_0_0_1_n_n_wf
def gather_S12288x64_S393216x1_S393216x64_1_0_n_n_0_1_164 : GatherDims S12288x64 S393216x1 S393216x64 where
  offsetDims := [1]
  collapsedSliceDims := [0]
  operandBatchingDims := []
  startIndicesBatchingDims := []
  startIndexMap := [0]
  indexVectorDim := 1
  sliceSizes := ![1, 64]
  wf := gather_S12288x64_S393216x1_S393216x64_1_0_n_n_0_1_164_wf
def scatter_S12288x64_S393216x1_S393216x64_1_0_0_1 : ScatterDims S12288x64 S393216x1 S393216x64 where
  updateWindowDims := [1]
  insertedWindowDims := [0]
  scatterDimsToOperandDims := [0]
  indexVectorDim := 1
  wf := scatter_S12288x64_S393216x1_S393216x64_1_0_0_1_wf
def dot_S12288x64_S64x12288_S12288x12288_1_0_0_1_n_n : DotDims S12288x64 S64x12288 S12288x12288 where
  lhsContracting := [1]
  rhsContracting := [0]
  lhsNonContracting := [0]
  rhsNonContracting := [1]
  lhsBatch := []
  rhsBatch := []
  wf := dot_S12288x64_S64x12288_S12288x12288_1_0_0_1_n_n_wf

class Facts : Prop extends Facts₀ where

variable [Facts]
-- ==== Proof.K.Reg0.lean ====
/-
  Pallas call 0 of the program, at any float instance: the feature matrix [12288,256] times the first weight matrix [256,128], each row scaled by the degree norm.
  One grid point multiplies a 1024-row block of the left operand by the whole right operand and scales each row by that
  row's entry of the norm column; the body reads its three input blocks whole and stores the output block whole, once.
  Stated at a parameter `V`, the contents of the unscoped buffers when the call is entered: each window's block at a
  point, what the body leaves in the output block as a function of the three input blocks, the body's triple, the
  pipeline's proof data and the body obligation at every point.
-/
import proofs.«157120_j31018253811968_1_alg».proof.Proof.Gen.Kernel.Launch
import proofs.«157120_j31018253811968_1_alg».proof.Proof.Gen.Kernel.Skeleton
import proofs.«157120_j31018253811968_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, whether or not the block was
    fetched there (an unfetched block has not moved), for any proof data on these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_0 : Rect S1024x256 := Rect.unit (s := S1024x256) ![0, 0] S1024x256.size inb_S1024x256_S1024x256_0_0
abbrev r0_1 : Rect S256x128 := Rect.unit (s := S256x128) ![0, 0] S256x128.size inb_S256x128_S256x128_0_0
abbrev r0_2 : Rect S1024x1 := Rect.unit (s := S1024x1) ![0, 0] S1024x1.size inb_S1024x1_S1024x1_0_0
abbrev r0_3 : Rect S1024x128 := Rect.unit (s := S1024x128) ![0, 0] S1024x128.size inb_S1024x128_S1024x128_0_0

/-- The output block after the body, from the three input blocks: its one whole-block store of the scaled product. -/
def out0_3 (x0 : Vec F S1024x256 .f32) (x1 : Vec F S256x128 .f32) (x2 : Vec F S1024x1 .f32) : Vec F S1024x128 .f32 :=
  View.canon [⟨r0_3, k0_pay1 (View.ld x0 r0_0) (View.ld x1 r0_1) (View.ld x2 r0_2)⟩]

/-- The one store covers the output block. -/
theorem cover0_3 (p0 : Vec F S1024x128 .f32) (y : S1024x128.Idx) :
    ∃ pc ∈ ([⟨r0_3, p0⟩] : List (View.Piece (Elt F) S1024x128 .f32)), y ∈ pc.1.set :=
  View.cover_of_tiled [⟨r0_3, p0⟩] S1024x128.size (by rfl) y

set_option maxHeartbeats 1000000 in
/-- The body on whole staging buffers, the inputs' at contents `x0 x1 x2` and the output's at anything, runs to the
    continuation with the inputs' as they were and the output's at `out0_3 x0 x1 x2`. -/
theorem sound_kernel0 (c : Dev nD) (E : Set ℕ) (i : grid0.Coords) (arg1 : Memref sig .tc .vmem S1024x256 .f32) (harg1 : arg1.IsWhole) (arg2 : Memref sig .tc .vmem S256x128 .f32) (harg2 : arg2.IsWhole)
    (arg3 : Memref sig .tc .vmem S1024x1 .f32) (harg3 : arg3.IsWhole) (arg4 : Memref sig .tc .vmem S1024x128 .f32) (harg4 : arg4.IsWhole)
    (x0 : Vec F S1024x256 .f32) (x1 : Vec F S256x128 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_norm_kernel i arg1 harg1 arg2 harg2 arg3 harg3 arg4 harg4) K := by
  simp only [cc0__matmul_norm_kernel_eq_skeleton]; unfold cc0__matmul_norm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the call finds them; after the body at point `t` each input's
    buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) V c) (defs₀ (F := F)) Variants.none () Set.univ := fun t => by
  rw [bigSep_W0, bigSep_W0]
  exact sound_body0 V c t

end Cert.Kernel.GenH

end
-- ==== Proof.K.Reg1.lean ====
/-
  Pallas call 1 of the program, at any float instance: the hidden layer [12288,128] times the mean head's weight matrix [128,64], each row scaled by the degree norm.
  One grid point multiplies a 1024-row block of the left operand by the whole right operand and scales each row by that
  row's entry of the norm column; the body reads its three input blocks whole and stores the output block whole, once.
  Stated at a parameter `V`, the contents of the unscoped buffers when the call is entered: each window's block at a
  point, what the body leaves in the output block as a function of the three input blocks, the body's triple, the
  pipeline's proof data and the body obligation at every point.
-/
import proofs.«157120_j31018253811968_1_alg».proof.Proof.Gen.Kernel.Launch
import proofs.«157120_j31018253811968_1_alg».proof.Proof.Gen.Kernel.Skeleton
import proofs.«157120_j31018253811968_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, whether or not the block was
    fetched there (an unfetched block has not moved), for any proof data on these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_0 : Rect S1024x128 := Rect.unit (s := S1024x128) ![0, 0] S1024x128.size inb_S1024x128_S1024x128_0_0
abbrev r1_1 : Rect S128x64 := Rect.unit (s := S128x64) ![0, 0] S128x64.size inb_S128x64_S128x64_0_0
abbrev r1_2 : Rect S1024x1 := Rect.unit (s := S1024x1) ![0, 0] S1024x1.size inb_S1024x1_S1024x1_0_0
abbrev r1_3 : Rect S1024x64 := Rect.unit (s := S1024x64) ![0, 0] S1024x64.size inb_S1024x64_S1024x64_0_0

/-- The output block after the body, from the three input blocks: its one whole-block store of the scaled product. -/
def out1_3 (x0 : Vec F S1024x128 .f32) (x1 : Vec F S128x64 .f32) (x2 : Vec F S1024x1 .f32) : Vec F S1024x64 .f32 :=
  View.canon [⟨r1_3, k1_pay1 (View.ld x0 r1_0) (View.ld x1 r1_1) (View.ld x2 r1_2)⟩]

/-- The one store covers the output block. -/
theorem cover1_3 (p0 : Vec F S1024x64 .f32) (y : S1024x64.Idx) :
    ∃ pc ∈ ([⟨r1_3, p0⟩] : List (View.Piece (Elt F) S1024x64 .f32)), y ∈ pc.1.set :=
  View.cover_of_tiled [⟨r1_3, p0⟩] S1024x64.size (by rfl) y

set_option maxHeartbeats 1000000 in
/-- The body on whole staging buffers, the inputs' at contents `x0 x1 x2` and the output's at anything, runs to the
    continuation with the inputs' as they were and the output's at `out1_3 x0 x1 x2`. -/
theorem sound_kernel1 (c : Dev nD) (E : Set ℕ) (i : grid1.Coords) (arg1 : Memref sig .tc .vmem S1024x128 .f32) (harg1 : arg1.IsWhole) (arg2 : Memref sig .tc .vmem S128x64 .f32) (harg2 : arg2.IsWhole)
    (arg3 : Memref sig .tc .vmem S1024x1 .f32) (harg3 : arg3.IsWhole) (arg4 : Memref sig .tc .vmem S1024x64 .f32) (harg4 : arg4.IsWhole)
    (x0 : Vec F S1024x128 .f32) (x1 : Vec F S128x64 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__matmul_norm_kernel i arg1 harg1 arg2 harg2 arg3 harg3 arg4 harg4) K := by
  simp only [cc1__matmul_norm_kernel_eq_skeleton]; unfold cc1__matmul_norm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the call finds them; after the body at point `t` each input's
    buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.GenH

end
-- ==== Proof.K.Reg2.lean ====
/-
  Pallas call 2 of the program, at any float instance: the hidden layer [12288,128] times the log-deviation head's weight matrix [128,64], each row scaled by the degree norm.
  One grid point multiplies a 1024-row block of the left operand by the whole right operand and scales each row by that
  row's entry of the norm column; the body reads its three input blocks whole and stores the output block whole, once.
  Stated at a parameter `V`, the contents of the unscoped buffers when the call is entered: each window's block at a
  point, what the body leaves in the output block as a function of the three input blocks, the body's triple, the
  pipeline's proof data and the body obligation at every point.
-/
import proofs.«157120_j31018253811968_1_alg».proof.Proof.Gen.Kernel.Launch
import proofs.«157120_j31018253811968_1_alg».proof.Proof.Gen.Kernel.Skeleton
import proofs.«157120_j31018253811968_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds the window's block at every point, whether or not the block was
    fetched there (an unfetched block has not moved), for any proof data on these arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev r2_0 : Rect S1024x128 := Rect.unit (s := S1024x128) ![0, 0] S1024x128.size inb_S1024x128_S1024x128_0_0
abbrev r2_1 : Rect S128x64 := Rect.unit (s := S128x64) ![0, 0] S128x64.size inb_S128x64_S128x64_0_0
abbrev r2_2 : Rect S1024x1 := Rect.unit (s := S1024x1) ![0, 0] S1024x1.size inb_S1024x1_S1024x1_0_0
abbrev r2_3 : Rect S1024x64 := Rect.unit (s := S1024x64) ![0, 0] S1024x64.size inb_S1024x64_S1024x64_0_0

/-- The output block after the body, from the three input blocks: its one whole-block store of the scaled product. -/
def out2_3 (x0 : Vec F S1024x128 .f32) (x1 : Vec F S128x64 .f32) (x2 : Vec F S1024x1 .f32) : Vec F S1024x64 .f32 :=
  View.canon [⟨r2_3, k2_pay1 (View.ld x0 r2_0) (View.ld x1 r2_1) (View.ld x2 r2_2)⟩]

/-- The one store covers the output block. -/
theorem cover2_3 (p0 : Vec F S1024x64 .f32) (y : S1024x64.Idx) :
    ∃ pc ∈ ([⟨r2_3, p0⟩] : List (View.Piece (Elt F) S1024x64 .f32)), y ∈ pc.1.set :=
  View.cover_of_tiled [⟨r2_3, p0⟩] S1024x64.size (by rfl) y

set_option maxHeartbeats 1000000 in
/-- The body on whole staging buffers, the inputs' at contents `x0 x1 x2` and the output's at anything, runs to the
    continuation with the inputs' as they were and the output's at `out2_3 x0 x1 x2`. -/
theorem sound_kernel2 (c : Dev nD) (E : Set ℕ) (i : grid2.Coords) (arg1 : Memref sig .tc .vmem S1024x128 .f32) (harg1 : arg1.IsWhole) (arg2 : Memref sig .tc .vmem S128x64 .f32) (harg2 : arg2.IsWhole)
    (arg3 : Memref sig .tc .vmem S1024x1 .f32) (harg3 : arg3.IsWhole) (arg4 : Memref sig .tc .vmem S1024x64 .f32) (harg4 : arg4.IsWhole)
    (x0 : Vec F S1024x128 .f32) (x1 : Vec F S128x64 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__matmul_norm_kernel i arg1 harg1 arg2 harg2 arg3 harg3 arg4 harg4) K := by
  simp only [cc2__matmul_norm_kernel_eq_skeleton]; unfold cc2__matmul_norm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the call finds them; after the body at point `t` each input's
    buffer at its block and the output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation2 (c : Dev nD) : BodyObligation (dat2 (F := F) V c) (defs₀ (F := F)) Variants.none () Set.univ := fun t => by
  rw [bigSep_W2, bigSep_W2]
  exact sound_body2 V c t

end Cert.Kernel.GenH

end
-- ==== Proof.K.Reg3.lean ====
/-
  The last Pallas call of the program, at any float instance: the latent matrix Z [12288,64] times its own transpose,
  into the [12288,12288] result. One grid point (i, j) multiplies the i-th 1024-row block of Z by the transpose of the
  j-th; the body reads its two input blocks whole and stores the output block whole, once. Both input windows stand on
  the SAME array, so the core holds that array once at the full share on entry and must hand each window a share of
  it: the left half to the first window, the right half to the second, joined again on exit.
  Stated at a parameter `V`, the contents of the unscoped buffers when the call is entered.
-/
import proofs.«157120_j31018253811968_1_alg».proof.Proof.Gen.Kernel.Launch
import proofs.«157120_j31018253811968_1_alg».proof.Proof.Gen.Kernel.Skeleton
import proofs.«157120_j31018253811968_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds the window's block at every point, whether or not the block was
    fetched there (an unfetched block has not moved), for any proof data on these arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through. -/
abbrev r3_0 : Rect S1024x64 := Rect.unit (s := S1024x64) ![0, 0] S1024x64.size inb_S1024x64_S1024x64_0_0
abbrev r3_2 : Rect S1024x1024 := Rect.unit (s := S1024x1024) ![0, 0] S1024x1024.size inb_S1024x1024_S1024x1024_0_0

/-- The output block after the body, from the two input blocks: its one whole-block store of their product. -/
def out3_2 (x0 : Vec F S1024x64 .f32) (x1 : Vec F S1024x64 .f32) : Vec F S1024x1024 .f32 :=
  View.canon [⟨r3_2, k3_pay1 (View.ld x0 r3_0) (View.ld x1 r3_0)⟩]

/-- The one store covers the output block. -/
theorem cover3_2 (p0 : Vec F S1024x1024 .f32) (y : S1024x1024.Idx) :
    ∃ pc ∈ ([⟨r3_2, p0⟩] : List (View.Piece (Elt F) S1024x1024 .f32)), y ∈ pc.1.set :=
  View.cover_of_tiled [⟨r3_2, p0⟩] S1024x1024.size (by rfl) y

set_option maxHeartbeats 1000000 in
/-- The body on whole staging buffers, the inputs' at contents `x0 x1` and the output's at anything, runs to the
    continuation with the inputs' as they were and the output's at `out3_2 x0 x1`. -/
theorem sound_kernel3 (c : Dev nD) (E : Set ℕ) (i : grid3.Coords) (arg2 : Memref sig .tc .vmem S1024x64 .f32) (harg2 : arg2.IsWhole) (arg3 : Memref sig .tc .vmem S1024x64 .f32) (harg3 : arg3.IsWhole)
    (arg4 : Memref sig .tc .vmem S1024x1024 .f32) (harg4 : arg4.IsWhole)
    (x0 : Vec F S1024x64 .f32) (x1 : Vec F S1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out3_2 x0 x1)) -∗ K ⟨⟩))
      ⊢ wp frame (wpE (defs₀ (F := F)) Variants.none c none) E (cc3__zzt_kernel i arg2 harg2 arg3 harg3 arg4 harg4) K := by
  simp only [cc3__zzt_kernel_eq_skeleton]; unfold cc3__zzt_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core `c`: the arrays as the call finds them; after the body at point `t` each input's
    buffer at its block and the output's at `out3_2` of the input blocks; nothing owed; the shared input array held by
    the first window at the left half of the full share and by the second at the right half. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation3 (c : Dev nD) : BodyObligation (dat3 (F := F) V c) (defs₀ (F := F)) Variants.none () Set.univ := fun t => by
  rw [bigSep_W3, bigSep_W3]
  exact sound_body3 V c t

/-! ## The shared input array at entry and at exit -/

/-- The call's three windows stand on two arrays: the latent matrix (twice) and the result. -/
theorem arrs3 : Finset.univ.image (Pipeline.arrRef spec3) = ([main_v56, main_v57] : List (Ref sig .tc)).toFinset := by decide

/-- The buffers behind the windows' arrays, one by one. -/
theorem bigSep_A3 {M : Type} [URA M] (Φ : Ref sig .tc → sProp M) :
    bigSep (Finset.univ.image (Pipeline.arrRef (cfgs 3).spec)) Φ = iprop(Φ main_v56 ∗ Φ main_v57) :=
  bigSep_eq_bigSepL_of_eq [main_v56, main_v57] arrs3 (by decide) Φ

set_option maxHeartbeats 1600000 in
/-- ENTRY: the core's unscoped buffers at `V` are the pipeline's arrays at the proof data's entry contents — the latent
    matrix split along the share between the two input windows — and the unscoped rest. -/
theorem entry3 (c : Dev nD) :
    (unscopedBufs c (V c) : sProp 𝕄) ⊢ iprop((dat3 V c).arrays ((dat3 V c).arrAt · 0) ∗ Pipeline.unscopedRest spec3 c (V c)) := by
  rw [Pipeline.unscopedBufs_split₀ cfgs 3 winFacts₀3.arr_unscoped c (V c)]
  refine sep_mono ?_ .rfl
  unfold Pipeline.arrBufs Dat.arrays
  rw [bigSep_W3, bigSep_A3]
  rw [(arr_whole3 0).set_eq_univ, (arr_whole3 2).set_eq_univ]
  beta_reduce
  rw [show (dat3 V c).share 0 = fullShare.left from rfl, show (dat3 V c).share 1 = fullShare.right from rfl,
    show (dat3 V c).share 2 = fullShare from rfl,
    show (dat3 V c).arrAt 0 0 = V c main_v56 from rfl, show (dat3 V c).arrAt 1 0 = V c main_v56 from rfl,
    show (dat3 V c).arrAt 2 0 = V c main_v57 from rfl]
  have hs : (((c : Thread nD τ).loc main_v56) ↦{fullShare} V c main_v56 : sProp 𝕄)
      ⊢ iprop((((c : Thread nD τ).loc main_v56) ↦{fullShare.left} V c main_v56) ∗ (((c : Thread nD τ).loc main_v56) ↦{fullShare.right} V c main_v56)) :=
    (pointsTo_share (PosShare.mem_left_op_right fullShare)).1
  iintro ⟨H56, H57⟩
  ihave H := hs $$ H56
  icases H with ⟨HL, HR⟩
  isplitl [HL]; · iexact HL
  isplitl [HR]; · iexact HR
  iexact H57

set_option maxHeartbeats 1600000 in
/-- EXIT: the pipeline's arrays at their final contents — the two shares of the latent matrix, which no write-back
    touched, joined again; the result at what the write-backs leave — and the unscoped rest are the core's unscoped
    buffers at any contents `V'` that have the result there and agree with `V` elsewhere. -/
theorem exit3 (c : Dev nD) (V' : (b : Ref sig .tc) → Buf (Elt F) ((c : Thread nD τ).loc b))
    (hres : V' main_v57 = (dat3 V c).arrAt 2 cfg3.N) (hrest : ∀ b, b ≠ main_v57 → V' b = V c b) :
    iprop((dat3 V c).arrays ((dat3 V c).arrAt · cfg3.N) ∗ Pipeline.unscopedRest spec3 c (V c)) ⊢ (unscopedBufs c V' : sProp 𝕄) := by
  rw [Pipeline.unscopedBufs_split₀ cfgs 3 winFacts₀3.arr_unscoped c V']
  refine sep_mono ?_ (Entails.of_eq ?_)
  · unfold Pipeline.arrBufs Dat.arrays
    rw [bigSep_W3, bigSep_A3]
    rw [(arr_whole3 0).set_eq_univ, (arr_whole3 2).set_eq_univ]
    beta_reduce
    rw [(dat3 V c).arrAt_in 0 rfl, (dat3 V c).arrAt_in 1 rfl, hrest main_v56 (by decide), hres,
      show (dat3 V c).share 0 = fullShare.left from rfl, show (dat3 V c).share 1 = fullShare.right from rfl,
      show (dat3 V c).share 2 = fullShare from rfl,
      show (dat3 V c).A 0 = V c main_v56 from rfl, show (dat3 V c).A 1 = V c main_v56 from rfl]
    have hs : iprop((((c : Thread nD τ).loc main_v56) ↦{fullShare.left} V c main_v56) ∗ (((c : Thread nD τ).loc main_v56) ↦{fullShare.right} V c main_v56))
        ⊢ (((c : Thread nD τ).loc main_v56) ↦{fullShare} V c main_v56 : sProp 𝕄) :=
      (pointsTo_share (PosShare.mem_left_op_right fullShare)).2
    iintro ⟨HL, HR, H57⟩
    isplitl [HL HR]
    · iapply hs
      isplitl [HL] <;> iassumption
    iexact H57
  · unfold Pipeline.unscopedRest
    refine bigSep_congr fun b hb => ?_
    rw [hrest b (fun e => (Finset.mem_sdiff.mp hb).2 (e ▸ Finset.mem_image.mpr ⟨2, Finset.mem_univ _, rfl⟩))]

end Cert.Kernel.GenH

end
-- ==== Proof.K.Run.lean ====
/-
  The whole run of the program, at any float instance: @main is thirteen items — stretches of host operations and the
  four Pallas calls — and the contents of the core's unscoped buffers are followed from the launch memory through every
  item: a host stretch applies its operations, a Pallas call replaces its result array by what its grid's write-backs
  leave and changes nothing else. Every weakly fair execution terminates without a fault, the final memory holds the
  last result at the last item's contents, and each argument array as launched.
-/
import proofs.«157120_j31018253811968_1_alg».proof.Proof.Gen.Kernel.Launch
import proofs.«157120_j31018253811968_1_alg».proof.Proof.Gen.Kernel.Skeleton
import proofs.«157120_j31018253811968_1_alg».proof.Proof.Gen.Kernel.Points
import proofs.«157120_j31018253811968_1_alg».proof.Proof.Gen.Kernel.Regions
import proofs.«157120_j31018253811968_1_alg».proof.Proof.K.Reg0
import proofs.«157120_j31018253811968_1_alg».proof.Proof.K.Reg1
import proofs.«157120_j31018253811968_1_alg».proof.Proof.K.Reg2
import proofs.«157120_j31018253811968_1_alg».proof.Proof.K.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between items -/

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
/-- When call 0 is entered: after the degree and the norm column have been computed. -/
abbrev W3 : Dev nD → Valuation τ sig (Elt F) := fun c => StableHlo.after hostOps0_2 (W2 m ρ c)
abbrev W3r : (c : Dev nD) → (b : Ref sig .tc) → Buf (Elt F) ((c : Thread nD τ).loc b) := fun c b => W3 m ρ c b
/-- When call 0 returns: its arrays at what the pipeline leaves (the inputs as entered, the result's write-backs folded),
    every other buffer as entered. -/
def W4 (c : Dev nD) : Valuation τ sig (Elt F) :=
  Pipeline.withArrays spec0 c (W3 m ρ c) fun w => (dat0 (W3r m ρ) c).arrAt w cfg0.N
theorem W4_arr (c : Dev nD) (w : Fin cfg0.W) :
    W4 m ρ c (Proc.devRef .tc (Pipeline.arrRef spec0 w)) = (dat0 (W3r m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev W4r : (c : Dev nD) → (b : Ref sig .tc) → Buf (Elt F) ((c : Thread nD τ).loc b) := fun c b => W4 m ρ c b
theorem hF0 (c : Dev nD) (w : Fin cfg0.W) : (dat0 (W3r m ρ) c).arrAt w cfg0.N = W4r m ρ c (Pipeline.arrRef spec0 w) :=
  (W4_arr m ρ c w).symm
theorem hrest0 (c : Dev nD) : ∀ b, b ∉ Finset.univ.image (Pipeline.arrRef spec0) → W4r m ρ c b = W3r m ρ c b :=
  fun b hb => W4_of_ne m ρ c b fun w e => hb (Finset.mem_image.mpr ⟨w, Finset.mem_univ _, e⟩)
/-- A buffer that is not the call's result keeps its contents: an input array is never written, any other buffer bypasses the call. -/
theorem W4_keeps (c : Dev nD) (b : Ref sig .tc) (hb : b ≠ Pipeline.arrRef spec0 3) : W4 m ρ c (Proc.devRef .tc b) = W3 m ρ c (Proc.devRef .tc b) := by
  by_cases h : ∃ w, Pipeline.arrRef spec0 w = b
  · obtain ⟨w, rfl⟩ := h
    have hw : (cfg0.win w).isOut = false := by
      match w with
      | ⟨0, _⟩ => rfl
      | ⟨1, _⟩ => rfl
      | ⟨2, _⟩ => rfl
      | ⟨3, _⟩ => exact absurd rfl hb
    exact (W4_arr m ρ c w).trans (((dat0 (W3r m ρ) c).arrAt_in w hw _).trans (A_eq0 (W3r m ρ) c w))
  · exact W4_of_ne m ρ c b fun w e => h ⟨w, e⟩

/-- When call 1 is entered: after the first neighbour aggregation. -/
abbrev W5 : Dev nD → Valuation τ sig (Elt F) := fun c => StableHlo.after hostOps1 (W4 m ρ c)
abbrev W5r : (c : Dev nD) → (b : Ref sig .tc) → Buf (Elt F) ((c : Thread nD τ).loc b) := fun c b => W5 m ρ c b
/-- When call 1 returns: its arrays at what the pipeline leaves (the inputs as entered, the result's write-backs folded),
    every other buffer as entered. -/
def W6 (c : Dev nD) : Valuation τ sig (Elt F) :=
  Pipeline.withArrays spec1 c (W5 m ρ c) fun w => (dat1 (W5r m ρ) c).arrAt w cfg1.N
theorem W6_arr (c : Dev nD) (w : Fin cfg1.W) :
    W6 m ρ c (Proc.devRef .tc (Pipeline.arrRef spec1 w)) = (dat1 (W5r m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev W6r : (c : Dev nD) → (b : Ref sig .tc) → Buf (Elt F) ((c : Thread nD τ).loc b) := fun c b => W6 m ρ c b
theorem hF1 (c : Dev nD) (w : Fin cfg1.W) : (dat1 (W5r m ρ) c).arrAt w cfg1.N = W6r m ρ c (Pipeline.arrRef spec1 w) :=
  (W6_arr m ρ c w).symm
theorem hrest1 (c : Dev nD) : ∀ b, b ∉ Finset.univ.image (Pipeline.arrRef spec1) → W6r m ρ c b = W5r m ρ c b :=
  fun b hb => W6_of_ne m ρ c b fun w e => hb (Finset.mem_image.mpr ⟨w, Finset.mem_univ _, e⟩)
/-- A buffer that is not the call's result keeps its contents: an input array is never written, any other buffer bypasses the call. -/
theorem W6_keeps (c : Dev nD) (b : Ref sig .tc) (hb : b ≠ Pipeline.arrRef spec1 3) : W6 m ρ c (Proc.devRef .tc b) = W5 m ρ c (Proc.devRef .tc b) := by
  by_cases h : ∃ w, Pipeline.arrRef spec1 w = b
  · obtain ⟨w, rfl⟩ := h
    have hw : (cfg1.win w).isOut = false := by
      match w with
      | ⟨0, _⟩ => rfl
      | ⟨1, _⟩ => rfl
      | ⟨2, _⟩ => rfl
      | ⟨3, _⟩ => exact absurd rfl hb
    exact (W6_arr m ρ c w).trans (((dat1 (W5r m ρ) c).arrAt_in w hw _).trans (A_eq1 (W5r m ρ) c w))
  · exact W6_of_ne m ρ c b fun w e => h ⟨w, e⟩

abbrev W7 : Dev nD → Valuation τ sig (Elt F) := fun c => StableHlo.after hostOps2 (W6 m ρ c)
/-- When call 2 is entered: after the mean head's aggregation and rectifier. -/
abbrev W8 : Dev nD → Valuation τ sig (Elt F) := fun c => StableHlo.after hostOps2_1 (W7 m ρ c)
abbrev W8r : (c : Dev nD) → (b : Ref sig .tc) → Buf (Elt F) ((c : Thread nD τ).loc b) := fun c b => W8 m ρ c b
/-- When call 2 returns: its arrays at what the pipeline leaves (the inputs as entered, the result's write-backs folded),
    every other buffer as entered. -/
def W9 (c : Dev nD) : Valuation τ sig (Elt F) :=
  Pipeline.withArrays spec2 c (W8 m ρ c) fun w => (dat2 (W8r m ρ) c).arrAt w cfg2.N
theorem W9_arr (c : Dev nD) (w : Fin cfg2.W) :
    W9 m ρ c (Proc.devRef .tc (Pipeline.arrRef spec2 w)) = (dat2 (W8r m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
abbrev W9r : (c : Dev nD) → (b : Ref sig .tc) → Buf (Elt F) ((c : Thread nD τ).loc b) := fun c b => W9 m ρ c b
theorem hF2 (c : Dev nD) (w : Fin cfg2.W) : (dat2 (W8r m ρ) c).arrAt w cfg2.N = W9r m ρ c (Pipeline.arrRef spec2 w) :=
  (W9_arr m ρ c w).symm
theorem hrest2 (c : Dev nD) : ∀ b, b ∉ Finset.univ.image (Pipeline.arrRef spec2) → W9r m ρ c b = W8r m ρ c b :=
  fun b hb => W9_of_ne m ρ c b fun w e => hb (Finset.mem_image.mpr ⟨w, Finset.mem_univ _, e⟩)
/-- A buffer that is not the call's result keeps its contents: an input array is never written, any other buffer bypasses the call. -/
theorem W9_keeps (c : Dev nD) (b : Ref sig .tc) (hb : b ≠ Pipeline.arrRef spec2 3) : W9 m ρ c (Proc.devRef .tc b) = W8 m ρ c (Proc.devRef .tc b) := by
  by_cases h : ∃ w, Pipeline.arrRef spec2 w = b
  · obtain ⟨w, rfl⟩ := h
    have hw : (cfg2.win w).isOut = false := by
      match w with
      | ⟨0, _⟩ => rfl
      | ⟨1, _⟩ => rfl
      | ⟨2, _⟩ => rfl
      | ⟨3, _⟩ => exact absurd rfl hb
    exact (W9_arr m ρ c w).trans (((dat2 (W8r m ρ) c).arrAt_in w hw _).trans (A_eq2 (W8r m ρ) c w))
  · exact W9_of_ne m ρ c b fun w e => h ⟨w, e⟩

abbrev W10 : Dev nD → Valuation τ sig (Elt F) := fun c => StableHlo.after hostOps3 (W9 m ρ c)
abbrev W11 : Dev nD → Valuation τ sig (Elt F) := fun c => StableHlo.after hostOps3_1 (W10 m ρ c)
/-- When the last call is entered: after the latent matrix has been formed. -/
abbrev W12 : Dev nD → Valuation τ sig (Elt F) := fun c => StableHlo.after hostOps3_2 (W11 m ρ c)
abbrev W12r : (c : Dev nD) → (b : Ref sig .tc) → Buf (Elt F) ((c : Thread nD τ).loc b) := fun c b => W12 m ρ c b
/-- When the last call returns: its result array at what its 144 write-backs leave, every other buffer as entered
    (both its input windows read the one latent matrix, which no write-back touches). -/
def W13 (c : Dev nD) : Valuation τ sig (Elt F) :=
  Function.update (W12 m ρ c) (Proc.devRef .tc main_v57) ((dat3 (W12r m ρ) c).arrAt 2 cfg3.N)
theorem W13_res (c : Dev nD) : W13 m ρ c (Proc.devRef .tc main_v57) = (dat3 (W12r m ρ) c).arrAt 2 cfg3.N := by
  unfold W13; exact Function.update_self ..
theorem W13_of_ne (c : Dev nD) (b : Ref sig .tc) (hb : b ≠ main_v57) :
    W13 m ρ c (Proc.devRef .tc b) = W12 m ρ c (Proc.devRef .tc b) := by
  unfold W13; exact Function.update_of_ne (StableHlo.devRef_ne_of_ne hb) ..
abbrev W13r : (c : Dev nD) → (b : Ref sig .tc) → Buf (Elt F) ((c : Thread nD τ).loc b) := fun c b => W13 m ρ c b

/-! ### The arguments end as launched: no host operation writes one and no call's result is one -/

theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := W13_of_ne m ρ c main_arg0 (by decide)
    _ = W11 m ρ c (Proc.devRef .tc main_arg0) := StableHlo.after_of_writes_sub hostOps3_2 _ hostOps3_2_writes (by decide : main_arg0 ∉ hostOps3_2_W)
    _ = W10 m ρ c (Proc.devRef .tc main_arg0) := StableHlo.after_of_writes_sub hostOps3_1 _ hostOps3_1_writes (by decide : main_arg0 ∉ hostOps3_1_W)
    _ = W9 m ρ c (Proc.devRef .tc main_arg0) := StableHlo.after_of_writes_sub hostOps3 _ hostOps3_writes (by decide : main_arg0 ∉ hostOps3_W)
    _ = W8 m ρ c (Proc.devRef .tc main_arg0) := W9_keeps m ρ c main_arg0 (by decide)
    _ = W7 m ρ c (Proc.devRef .tc main_arg0) := StableHlo.after_of_writes_sub hostOps2_1 _ hostOps2_1_writes (by decide : main_arg0 ∉ hostOps2_1_W)
    _ = W6 m ρ c (Proc.devRef .tc main_arg0) := StableHlo.after_of_writes_sub hostOps2 _ hostOps2_writes (by decide : main_arg0 ∉ hostOps2_W)
    _ = W5 m ρ c (Proc.devRef .tc main_arg0) := W6_keeps m ρ c main_arg0 (by decide)
    _ = W4 m ρ c (Proc.devRef .tc main_arg0) := StableHlo.after_of_writes_sub hostOps1 _ hostOps1_writes (by decide : main_arg0 ∉ hostOps1_W)
    _ = W3 m ρ c (Proc.devRef .tc main_arg0) := W4_keeps m ρ c main_arg0 (by decide)
    _ = W2 m ρ c (Proc.devRef .tc main_arg0) := StableHlo.after_of_writes_sub hostOps0_2 _ hostOps0_2_writes (by decide : main_arg0 ∉ hostOps0_2_W)
    _ = W1 m ρ c (Proc.devRef .tc main_arg0) := StableHlo.after_of_writes_sub hostOps0_1 _ hostOps0_1_writes (by decide : main_arg0 ∉ hostOps0_1_W)
    _ = W0 m ρ c (Proc.devRef .tc main_arg0) := StableHlo.after_of_writes_sub hostOps0 _ hostOps0_writes (by decide : main_arg0 ∉ hostOps0_W)
    _ = m ((c : Thread nD τ).loc main_arg0) := rfl
theorem W13_main_arg1 (c : Dev nD) : W13 m ρ c (Proc.devRef .tc main_arg1) = m ((c : Thread nD τ).loc main_arg1) :=
  calc W13 m ρ c (Proc.devRef .tc main_arg1)
    _ = W12 m ρ c (Proc.devRef .tc main_arg1) := W13_of_ne m ρ c main_arg1 (by decide)
    _ = W11 m ρ c (Proc.devRef .tc main_arg1) := StableHlo.after_of_writes_sub hostOps3_2 _ hostOps3_2_writes (by decide : main_arg1 ∉ hostOps3_2_W)
    _ = W10 m ρ c (Proc.devRef .tc main_arg1) := StableHlo.after_of_writes_sub hostOps3_1 _ hostOps3_1_writes (by decide : main_arg1 ∉ hostOps3_1_W)
    _ = W9 m ρ c (Proc.devRef .tc main_arg1) := StableHlo.after_of_writes_sub hostOps3 _ hostOps3_writes (by decide : main_arg1 ∉ hostOps3_W)
    _ = W8 m ρ c (Proc.devRef .tc main_arg1) := W9_keeps m ρ c main_arg1 (by decide)
    _ = W7 m ρ c (Proc.devRef .tc main_arg1) := StableHlo.after_of_writes_sub hostOps2_1 _ hostOps2_1_writes (by decide : main_arg1 ∉ hostOps2_1_W)
    _ = W6 m ρ c (Proc.devRef .tc main_arg1) := StableHlo.after_of_writes_sub hostOps2 _ hostOps2_writes (by decide : main_arg1 ∉ hostOps2_W)
    _ = W5 m ρ c (Proc.devRef .tc main_arg1) := W6_keeps m ρ c main_arg1 (by decide)
    _ = W4 m ρ c (Proc.devRef .tc main_arg1) := StableHlo.after_of_writes_sub hostOps1 _ hostOps1_writes (by decide : main_arg1 ∉ hostOps1_W)
    _ = W3 m ρ c (Proc.devRef .tc main_arg1) := W4_keeps m ρ c main_arg1 (by decide)
    _ = W2 m ρ c (Proc.devRef .tc main_arg1) := StableHlo.after_of_writes_sub hostOps0_2 _ hostOps0_2_writes (by decide : main_arg1 ∉ hostOps0_2_W)
    _ = W1 m ρ c (Proc.devRef .tc main_arg1) := StableHlo.after_of_writes_sub hostOps0_1 _ hostOps0_1_writes (by decide : main_arg1 ∉ hostOps0_1_W)
    _ = W0 m ρ c (Proc.devRef .tc main_arg1) := StableHlo.after_of_writes_sub hostOps0 _ hostOps0_writes (by decide : main_arg1 ∉ hostOps0_W)
    _ = m ((c : Thread nD τ).loc main_arg1) := rfl
theorem W13_main_arg2 (c : Dev nD) : W13 m ρ c (Proc.devRef .tc main_arg2) = m ((c : Thread nD τ).loc main_arg2) :=
  calc W13 m ρ c (Proc.devRef .tc main_arg2)
    _ = W12 m ρ c (Proc.devRef .tc main_arg2) := W13_of_ne m ρ c main_arg2 (by decide)
    _ = W11 m ρ c (Proc.devRef .tc main_arg2) := StableHlo.after_of_writes_sub hostOps3_2 _ hostOps3_2_writes (by decide : main_arg2 ∉ hostOps3_2_W)
    _ = W10 m ρ c (Proc.devRef .tc main_arg2) := StableHlo.after_of_writes_sub hostOps3_1 _ hostOps3_1_writes (by decide : main_arg2 ∉ hostOps3_1_W)
    _ = W9 m ρ c (Proc.devRef .tc main_arg2) := StableHlo.after_of_writes_sub hostOps3 _ hostOps3_writes (by decide : main_arg2 ∉ hostOps3_W)
    _ = W8 m ρ c (Proc.devRef .tc main_arg2) := W9_keeps m ρ c main_arg2 (by decide)
    _ = W7 m ρ c (Proc.devRef .tc main_arg2) := StableHlo.after_of_writes_sub hostOps2_1 _ hostOps2_1_writes (by decide : main_arg2 ∉ hostOps2_1_W)
    _ = W6 m ρ c (Proc.devRef .tc main_arg2) := StableHlo.after_of_writes_sub hostOps2 _ hostOps2_writes (by decide : main_arg2 ∉ hostOps2_W)
    _ = W5 m ρ c (Proc.devRef .tc main_arg2) := W6_keeps m ρ c main_arg2 (by decide)
    _ = W4 m ρ c (Proc.devRef .tc main_arg2) := StableHlo.after_of_writes_sub hostOps1 _ hostOps1_writes (by decide : main_arg2 ∉ hostOps1_W)
    _ = W3 m ρ c (Proc.devRef .tc main_arg2) := W4_keeps m ρ c main_arg2 (by decide)
    _ = W2 m ρ c (Proc.devRef .tc main_arg2) := StableHlo.after_of_writes_sub hostOps0_2 _ hostOps0_2_writes (by decide : main_arg2 ∉ hostOps0_2_W)
    _ = W1 m ρ c (Proc.devRef .tc main_arg2) := StableHlo.after_of_writes_sub hostOps0_1 _ hostOps0_1_writes (by decide : main_arg2 ∉ hostOps0_1_W)
    _ = W0 m ρ c (Proc.devRef .tc main_arg2) := StableHlo.after_of_writes_sub hostOps0 _ hostOps0_writes (by decide : main_arg2 ∉ hostOps0_W)
    _ = m ((c : Thread nD τ).loc main_arg2) := rfl
theorem W13_main_arg3 (c : Dev nD) : W13 m ρ c (Proc.devRef .tc main_arg3) = m ((c : Thread nD τ).loc main_arg3) :=
  calc W13 m ρ c (Proc.devRef .tc main_arg3)
    _ = W12 m ρ c (Proc.devRef .tc main_arg3) := W13_of_ne m ρ c main_arg3 (by decide)
    _ = W11 m ρ c (Proc.devRef .tc main_arg3) := StableHlo.after_of_writes_sub hostOps3_2 _ hostOps3_2_writes (by decide : main_arg3 ∉ hostOps3_2_W)
    _ = W10 m ρ c (Proc.devRef .tc main_arg3) := StableHlo.after_of_writes_sub hostOps3_1 _ hostOps3_1_writes (by decide : main_arg3 ∉ hostOps3_1_W)
    _ = W9 m ρ c (Proc.devRef .tc main_arg3) := StableHlo.after_of_writes_sub hostOps3 _ hostOps3_writes (by decide : main_arg3 ∉ hostOps3_W)
    _ = W8 m ρ c (Proc.devRef .tc main_arg3) := W9_keeps m ρ c main_arg3 (by decide)
    _ = W7 m ρ c (Proc.devRef .tc main_arg3) := StableHlo.after_of_writes_sub hostOps2_1 _ hostOps2_1_writes (by decide : main_arg3 ∉ hostOps2_1_W)
    _ = W6 m ρ c (Proc.devRef .tc main_arg3) := StableHlo.after_of_writes_sub hostOps2 _ hostOps2_writes (by decide : main_arg3 ∉ hostOps2_W)
    _ = W5 m ρ c (Proc.devRef .tc main_arg3) := W6_keeps m ρ c main_arg3 (by decide)
    _ = W4 m ρ c (Proc.devRef .tc main_arg3) := StableHlo.after_of_writes_sub hostOps1 _ hostOps1_writes (by decide : main_arg3 ∉ hostOps1_W)
    _ = W3 m ρ c (Proc.devRef .tc main_arg3) := W4_keeps m ρ c main_arg3 (by decide)
    _ = W2 m ρ c (Proc.devRef .tc main_arg3) := StableHlo.after_of_writes_sub hostOps0_2 _ hostOps0_2_writes (by decide : main_arg3 ∉ hostOps0_2_W)
    _ = W1 m ρ c (Proc.devRef .tc main_arg3) := StableHlo.after_of_writes_sub hostOps0_1 _ hostOps0_1_writes (by decide : main_arg3 ∉ hostOps0_1_W)
    _ = W0 m ρ c (Proc.devRef .tc main_arg3) := StableHlo.after_of_writes_sub hostOps0 _ hostOps0_writes (by decide : main_arg3 ∉ hostOps0_W)
    _ = m ((c : Thread nD τ).loc main_arg3) := rfl
theorem W13_main_arg4 (c : Dev nD) : W13 m ρ c (Proc.devRef .tc main_arg4) = m ((c : Thread nD τ).loc main_arg4) :=
  calc W13 m ρ c (Proc.devRef .tc main_arg4)
    _ = W12 m ρ c (Proc.devRef .tc main_arg4) := W13_of_ne m ρ c main_arg4 (by decide)
    _ = W11 m ρ c (Proc.devRef .tc main_arg4) := StableHlo.after_of_writes_sub hostOps3_2 _ hostOps3_2_writes (by decide : main_arg4 ∉ hostOps3_2_W)
    _ = W10 m ρ c (Proc.devRef .tc main_arg4) := StableHlo.after_of_writes_sub hostOps3_1 _ hostOps3_1_writes (by decide : main_arg4 ∉ hostOps3_1_W)
    _ = W9 m ρ c (Proc.devRef .tc main_arg4) := StableHlo.after_of_writes_sub hostOps3 _ hostOps3_writes (by decide : main_arg4 ∉ hostOps3_W)
    _ = W8 m ρ c (Proc.devRef .tc main_arg4) := W9_keeps m ρ c main_arg4 (by decide)
    _ = W7 m ρ c (Proc.devRef .tc main_arg4) := StableHlo.after_of_writes_sub hostOps2_1 _ hostOps2_1_writes (by decide : main_arg4 ∉ hostOps2_1_W)
    _ = W6 m ρ c (Proc.devRef .tc main_arg4) := StableHlo.after_of_writes_sub hostOps2 _ hostOps2_writes (by decide : main_arg4 ∉ hostOps2_W)
    _ = W5 m ρ c (Proc.devRef .tc main_arg4) := W6_keeps m ρ c main_arg4 (by decide)
    _ = W4 m ρ c (Proc.devRef .tc main_arg4) := StableHlo.after_of_writes_sub hostOps1 _ hostOps1_writes (by decide : main_arg4 ∉ hostOps1_W)
    _ = W3 m ρ c (Proc.devRef .tc main_arg4) := W4_keeps m ρ c main_arg4 (by decide)
    _ = W2 m ρ c (Proc.devRef .tc main_arg4) := StableHlo.after_of_writes_sub hostOps0_2 _ hostOps0_2_writes (by decide : main_arg4 ∉ hostOps0_2_W)
    _ = W1 m ρ c (Proc.devRef .tc main_arg4) := StableHlo.after_of_writes_sub hostOps0_1 _ hostOps0_1_writes (by decide : main_arg4 ∉ hostOps0_1_W)
    _ = W0 m ρ c (Proc.devRef .tc main_arg4) := StableHlo.after_of_writes_sub hostOps0 _ hostOps0_writes (by decide : main_arg4 ∉ hostOps0_W)
    _ = m ((c : Thread nD τ).loc main_arg4) := rfl
theorem W13_main_arg5 (c : Dev nD) : W13 m ρ c (Proc.devRef .tc main_arg5) = m ((c : Thread nD τ).loc main_arg5) :=
  calc W13 m ρ c (Proc.devRef .tc main_arg5)
    _ = W12 m ρ c (Proc.devRef .tc main_arg5) := W13_of_ne m ρ c main_arg5 (by decide)
    _ = W11 m ρ c (Proc.devRef .tc main_arg5) := StableHlo.after_of_writes_sub hostOps3_2 _ hostOps3_2_writes (by decide : main_arg5 ∉ hostOps3_2_W)
    _ = W10 m ρ c (Proc.devRef .tc main_arg5) := StableHlo.after_of_writes_sub hostOps3_1 _ hostOps3_1_writes (by decide : main_arg5 ∉ hostOps3_1_W)
    _ = W9 m ρ c (Proc.devRef .tc main_arg5) := StableHlo.after_of_writes_sub hostOps3 _ hostOps3_writes (by decide : main_arg5 ∉ hostOps3_W)
    _ = W8 m ρ c (Proc.devRef .tc main_arg5) := W9_keeps m ρ c main_arg5 (by decide)
    _ = W7 m ρ c (Proc.devRef .tc main_arg5) := StableHlo.after_of_writes_sub hostOps2_1 _ hostOps2_1_writes (by decide : main_arg5 ∉ hostOps2_1_W)
    _ = W6 m ρ c (Proc.devRef .tc main_arg5) := StableHlo.after_of_writes_sub hostOps2 _ hostOps2_writes (by decide : main_arg5 ∉ hostOps2_W)
    _ = W5 m ρ c (Proc.devRef .tc main_arg5) := W6_keeps m ρ c main_arg5 (by decide)
    _ = W4 m ρ c (Proc.devRef .tc main_arg5) := StableHlo.after_of_writes_sub hostOps1 _ hostOps1_writes (by decide : main_arg5 ∉ hostOps1_W)
    _ = W3 m ρ c (Proc.devRef .tc main_arg5) := W4_keeps m ρ c main_arg5 (by decide)
    _ = W2 m ρ c (Proc.devRef .tc main_arg5) := StableHlo.after_of_writes_sub hostOps0_2 _ hostOps0_2_writes (by decide : main_arg5 ∉ hostOps0_2_W)
    _ = W1 m ρ c (Proc.devRef .tc main_arg5) := StableHlo.after_of_writes_sub hostOps0_1 _ hostOps0_1_writes (by decide : main_arg5 ∉ hostOps0_1_W)
    _ = W0 m ρ c (Proc.devRef .tc main_arg5) := StableHlo.after_of_writes_sub hostOps0 _ hostOps0_writes (by decide : main_arg5 ∉ hostOps0_W)
    _ = m ((c : Thread nD τ).loc main_arg5) := rfl

/-! ## The proof data family and the thread state -/

abbrev admH : (p : Fin 4) → (pcfgs (F := F) p).Adm := fun p => (cfgs p).toPCfg_adm
/-- Every pipeline's proof data, each at its call's entry contents. -/
def pdats : (p : Fin 4) → (c : Dev nD) → Dat τ (Elt F) Unit ℕ (UR sig nD τ) ℕ (Pipeline.pin (pcfgs (F := F)) admH p) c
  | ⟨0, _⟩ => fun c => dat0 (W3r m ρ) c
  | ⟨1, _⟩ => fun c => dat1 (W5r m ρ) c
  | ⟨2, _⟩ => fun c => dat2 (W8r m ρ) c
  | ⟨3, _⟩ => fun c => dat3 (W12r m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W13 m ρ c) ∗ ∃ r, prngReg c r)

/-! ## The Pallas calls as segments -/

set_option backward.isDefEq.respectTransparency.types false in
/-- Pallas call 0 over the thread state: entered with every unscoped buffer at `W3`, left with them at `W4`. Its
    arrays are split out of the unscoped buffers on entry and put back at their final contents on exit; the generator
    register goes into the pipeline's invariant and comes back; nothing is owed; the kernel has no semaphore of its own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (W3r m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (W3r m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (W3r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (W3r m ρ c) (W4r m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered with every unscoped buffer at `W5`, left with them at `W6`. Its
    arrays are split out of the unscoped buffers on entry and put back at their final contents on exit; the generator
    register goes into the pipeline's invariant and comes back; nothing is owed; the kernel has no semaphore of its own. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (W5r m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (W5r m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (W5r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (W5r m ρ c) (W6r m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 over the thread state: entered with every unscoped buffer at `W8`, left with them at `W9`. Its
    arrays are split out of the unscoped buffers on entry and put back at their final contents on exit; the generator
    register goes into the pipeline's invariant and comes back; nothing is owed; the kernel has no semaphore of its own. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (W8r m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec2 c (W8r m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (W8r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (W8r m ρ c) (W9r m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The last Pallas call over the thread state: entered with every unscoped buffer at `W12`, left with them at `W13`. The
    latent matrix is split along the share between the two input windows on entry and joined again on exit. -/
def reg3 : Pipeline.RegionSeg (pcfgs (F := F)) admH (pdats m ρ) () defs₀ 𝒱₀ L lv 3 where
  win := winFacts₀3
  block_pos := block_pos3
  stage_whole := stage_whole3
  K := PEmpty
  osem k := k.elim
  ho := Pipeline.OwnSemFacts.none _
  hbody c := (body_obligation3 (W12r m ρ) c).loose
  hwaits := Pipeline.hwaits_of_owed_zero _ _ _ _ L lv 3 fun _ _ => rfl
  pre c := iprop(StableHlo.held (c : Thread nD τ) (Pipeline.ucRefs τ sig) (W12 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (W12r m ρ c)
  hentry c := by
    rw [Pipeline.ownSems0_none]
    have hsplit := entry3 (W12r m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m ρ 3 c).arrays ((pdats m ρ 3 c).arrAt · cfg3.N) ∗ Pipeline.unscopedRest (Ix := Unit) (Name := ℕ) (U := UR sig nD τ) (Lvl := ℕ) spec3 c (W12r m ρ c))
        ⊢ (unscopedBufs c (W13r m ρ c) : sProp 𝕄) :=
      exit3 (W12r m ρ) c (W13r m ρ c) (W13_res m ρ c) (fun b hb => W13_of_ne m ρ c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's thirteen items in order. -/
abbrev segsH : List (Pipeline.Seg (pcfgs (F := F)) admH (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .host (hseg hostOps2_1 hostOps2_1_sub hostOps2_1_fresh (W7 m ρ)),
    .region (reg2 m ρ),
    .host (hseg hostOps3 hostOps3_sub hostOps3_fresh (W9 m ρ)),
    .host (hseg hostOps3_1 hostOps3_1_sub hostOps3_1_fresh (W10 m ρ)),
    .host (hseg hostOps3_2 hostOps3_2_sub hostOps3_2_fresh (W11 m ρ)),
    .region (reg3 m ρ) ]
/-- @main is the run of the segments. -/
theorem main_run (c : Dev nD) : main (F := F) c = Pipeline.Seg.run (segsH m ρ) := by
  rw [main_chain c, Pipeline.Seg.run_eq_chain]; rfl

set_option backward.isDefEq.respectTransparency.types false in
/-- THE RUN: at the compiled mesh, from any memory with zero counters, every weakly fair execution of @main on the
    TensorCores terminates, nothing faulting, and every final state has the last result array at the last item's
    contents and each argument array as launched. -/
theorem run_main : θ_run defs (onTc (τ := τ) (main (F := F))) ⟨m, fun _ => 0, ρ⟩ (fun r => ∀ c : Dev nD,
      r.2.mem ((c.tc : Thread nD τ).loc main_v57) = W13 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) admH (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v57 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c)⟩)

/-- THE FRAME: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.Kernel.GenH

end
-- ==== Proof.KI.Reg0.lean ====
/-
  Pallas call 0 of the program, at any float instance: the feature matrix [12288,256] times the first weight matrix [256,128], each row scaled by the degree norm.
  One grid point multiplies a 1024-row block of the left operand by the whole right operand and scales each row by that
  row's entry of the norm column; the body reads its three input blocks whole and stores the output block whole, once.
  Stated at a parameter `V`, the contents of the unscoped buffers when the call is entered: each window's block at a
  point, what the body leaves in the output block as a function of the three input blocks, the body's triple, the
  pipeline's proof data and the body obligation at every point.
-/
import proofs.«157120_j31018253811968_1_alg».proof.Proof.Gen.KernelIdeal.Launch
import proofs.«157120_j31018253811968_1_alg».proof.Proof.Gen.KernelIdeal.Skeleton
import proofs.«157120_j31018253811968_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, whether or not the block was
    fetched there (an unfetched block has not moved), for any proof data on these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_0 : Rect S1024x256 := Rect.unit (s := S1024x256) ![0, 0] S1024x256.size inb_S1024x256_S1024x256_0_0
abbrev r0_1 : Rect S256x128 := Rect.unit (s := S256x128) ![0, 0] S256x128.size inb_S256x128_S256x128_0_0
abbrev r0_2 : Rect S1024x1 := Rect.unit (s := S1024x1) ![0, 0] S1024x1.size inb_S1024x1_S1024x1_0_0
abbrev r0_3 : Rect S1024x128 := Rect.unit (s := S1024x128) ![0, 0] S1024x128.size inb_S1024x128_S1024x128_0_0

/-- The output block after the body, from the three input blocks: its one whole-block store of the scaled product. -/
def out0_3 (x0 : Vec F S1024x256 .f32) (x1 : Vec F S256x128 .f32) (x2 : Vec F S1024x1 .f32) : Vec F S1024x128 .f32 :=
  View.canon [⟨r0_3, k0_pay1 (View.ld x0 r0_0) (View.ld x1 r0_1) (View.ld x2 r0_2)⟩]

/-- The one store covers the output block. -/
theorem cover0_3 (p0 : Vec F S1024x128 .f32) (y : S1024x128.Idx) :
    ∃ pc ∈ ([⟨r0_3, p0⟩] : List (View.Piece (Elt F) S1024x128 .f32)), y ∈ pc.1.set :=
  View.cover_of_tiled [⟨r0_3, p0⟩] S1024x128.size (by rfl) y

set_option maxHeartbeats 1000000 in
/-- The body on whole staging buffers, the inputs' at contents `x0 x1 x2` and the output's at anything, runs to the
    continuation with the inputs' as they were and the output's at `out0_3 x0 x1 x2`. -/
theorem sound_kernel0 (c : Dev nD) (E : Set ℕ) (i : grid0.Coords) (arg1 : Memref sig .tc .vmem S1024x256 .f32) (harg1 : arg1.IsWhole) (arg2 : Memref sig .tc .vmem S256x128 .f32) (harg2 : arg2.IsWhole)
    (arg3 : Memref sig .tc .vmem S1024x1 .f32) (harg3 : arg3.IsWhole) (arg4 : Memref sig .tc .vmem S1024x128 .f32) (harg4 : arg4.IsWhole)
    (x0 : Vec F S1024x256 .f32) (x1 : Vec F S256x128 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_norm_kernel i arg1 harg1 arg2 harg2 arg3 harg3 arg4 harg4) K := by
  simp only [cc0__matmul_norm_kernel_eq_skeleton]; unfold cc0__matmul_norm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the call finds them; after the body at point `t` each input's
    buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.GenH

end
-- ==== Proof.KI.Reg1.lean ====
/-
  Pallas call 1 of the program, at any float instance: the hidden layer [12288,128] times the mean head's weight matrix [128,64], each row scaled by the degree norm.
  One grid point multiplies a 1024-row block of the left operand by the whole right operand and scales each row by that
  row's entry of the norm column; the body reads its three input blocks whole and stores the output block whole, once.
  Stated at a parameter `V`, the contents of the unscoped buffers when the call is entered: each window's block at a
  point, what the body leaves in the output block as a function of the three input blocks, the body's triple, the
  pipeline's proof data and the body obligation at every point.
-/
import proofs.«157120_j31018253811968_1_alg».proof.Proof.Gen.KernelIdeal.Launch
import proofs.«157120_j31018253811968_1_alg».proof.Proof.Gen.KernelIdeal.Skeleton
import proofs.«157120_j31018253811968_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, whether or not the block was
    fetched there (an unfetched block has not moved), for any proof data on these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_0 : Rect S1024x128 := Rect.unit (s := S1024x128) ![0, 0] S1024x128.size inb_S1024x128_S1024x128_0_0
abbrev r1_1 : Rect S128x64 := Rect.unit (s := S128x64) ![0, 0] S128x64.size inb_S128x64_S128x64_0_0
abbrev r1_2 : Rect S1024x1 := Rect.unit (s := S1024x1) ![0, 0] S1024x1.size inb_S1024x1_S1024x1_0_0
abbrev r1_3 : Rect S1024x64 := Rect.unit (s := S1024x64) ![0, 0] S1024x64.size inb_S1024x64_S1024x64_0_0

/-- The output block after the body, from the three input blocks: its one whole-block store of the scaled product. -/
def out1_3 (x0 : Vec F S1024x128 .f32) (x1 : Vec F S128x64 .f32) (x2 : Vec F S1024x1 .f32) : Vec F S1024x64 .f32 :=
  View.canon [⟨r1_3, k1_pay1 (View.ld x0 r1_0) (View.ld x1 r1_1) (View.ld x2 r1_2)⟩]

/-- The one store covers the output block. -/
theorem cover1_3 (p0 : Vec F S1024x64 .f32) (y : S1024x64.Idx) :
    ∃ pc ∈ ([⟨r1_3, p0⟩] : List (View.Piece (Elt F) S1024x64 .f32)), y ∈ pc.1.set :=
  View.cover_of_tiled [⟨r1_3, p0⟩] S1024x64.size (by rfl) y

set_option maxHeartbeats 1000000 in
/-- The body on whole staging buffers, the inputs' at contents `x0 x1 x2` and the output's at anything, runs to the
    continuation with the inputs' as they were and the output's at `out1_3 x0 x1 x2`. -/
theorem sound_kernel1 (c : Dev nD) (E : Set ℕ) (i : grid1.Coords) (arg1 : Memref sig .tc .vmem S1024x128 .f32) (harg1 : arg1.IsWhole) (arg2 : Memref sig .tc .vmem S128x64 .f32) (harg2 : arg2.IsWhole)
    (arg3 : Memref sig .tc .vmem S1024x1 .f32) (harg3 : arg3.IsWhole) (arg4 : Memref sig .tc .vmem S1024x64 .f32) (harg4 : arg4.IsWhole)
    (x0 : Vec F S1024x128 .f32) (x1 : Vec F S128x64 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__matmul_norm_kernel i arg1 harg1 arg2 harg2 arg3 harg3 arg4 harg4) K := by
  simp only [cc1__matmul_norm_kernel_eq_skeleton]; unfold cc1__matmul_norm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the call finds them; after the body at point `t` each input's
    buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.GenH

end
-- ==== Proof.KI.Reg2.lean ====
/-
  Pallas call 2 of the program, at any float instance: the hidden layer [12288,128] times the log-deviation head's weight matrix [128,64], each row scaled by the degree norm.
  One grid point multiplies a 1024-row block of the left operand by the whole right operand and scales each row by that
  row's entry of the norm column; the body reads its three input blocks whole and stores the output block whole, once.
  Stated at a parameter `V`, the contents of the unscoped buffers when the call is entered: each window's block at a
  point, what the body leaves in the output block as a function of the three input blocks, the body's triple, the
  pipeline's proof data and the body obligation at every point.
-/
import proofs.«157120_j31018253811968_1_alg».proof.Proof.Gen.KernelIdeal.Launch
import proofs.«157120_j31018253811968_1_alg».proof.Proof.Gen.KernelIdeal.Skeleton
import proofs.«157120_j31018253811968_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds the window's block at every point, whether or not the block was
    fetched there (an unfetched block has not moved), for any proof data on these arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev r2_0 : Rect S1024x128 := Rect.unit (s := S1024x128) ![0, 0] S1024x128.size inb_S1024x128_S1024x128_0_0
abbrev r2_1 : Rect S128x64 := Rect.unit (s := S128x64) ![0, 0] S128x64.size inb_S128x64_S128x64_0_0
abbrev r2_2 : Rect S1024x1 := Rect.unit (s := S1024x1) ![0, 0] S1024x1.size inb_S1024x1_S1024x1_0_0
abbrev r2_3 : Rect S1024x64 := Rect.unit (s := S1024x64) ![0, 0] S1024x64.size inb_S1024x64_S1024x64_0_0

/-- The output block after the body, from the three input blocks: its one whole-block store of the scaled product. -/
def out2_3 (x0 : Vec F S1024x128 .f32) (x1 : Vec F S128x64 .f32) (x2 : Vec F S1024x1 .f32) : Vec F S1024x64 .f32 :=
  View.canon [⟨r2_3, k2_pay1 (View.ld x0 r2_0) (View.ld x1 r2_1) (View.ld x2 r2_2)⟩]

/-- The one store covers the output block. -/
theorem cover2_3 (p0 : Vec F S1024x64 .f32) (y : S1024x64.Idx) :
    ∃ pc ∈ ([⟨r2_3, p0⟩] : List (View.Piece (Elt F) S1024x64 .f32)), y ∈ pc.1.set :=
  View.cover_of_tiled [⟨r2_3, p0⟩] S1024x64.size (by rfl) y

set_option maxHeartbeats 1000000 in
/-- The body on whole staging buffers, the inputs' at contents `x0 x1 x2` and the output's at anything, runs to the
    continuation with the inputs' as they were and the output's at `out2_3 x0 x1 x2`. -/
theorem sound_kernel2 (c : Dev nD) (E : Set ℕ) (i : grid2.Coords) (arg1 : Memref sig .tc .vmem S1024x128 .f32) (harg1 : arg1.IsWhole) (arg2 : Memref sig .tc .vmem S128x64 .f32) (harg2 : arg2.IsWhole)
    (arg3 : Memref sig .tc .vmem S1024x1 .f32) (harg3 : arg3.IsWhole) (arg4 : Memref sig .tc .vmem S1024x64 .f32) (harg4 : arg4.IsWhole)
    (x0 : Vec F S1024x128 .f32) (x1 : Vec F S128x64 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__matmul_norm_kernel i arg1 harg1 arg2 harg2 arg3 harg3 arg4 harg4) K := by
  simp only [cc2__matmul_norm_kernel_eq_skeleton]; unfold cc2__matmul_norm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the call finds them; after the body at point `t` each input's
    buffer at its block and the output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation2 (c : Dev nD) : BodyObligation (dat2 (F := F) V c) (defs₀ (F := F)) Variants.none () Set.univ := fun t => by
  rw [bigSep_W2, bigSep_W2]
  exact sound_body2 V c t

end Cert.KernelIdeal.GenH

end
-- ==== Proof.KI.Reg3.lean ====
/-
  The last Pallas call of the program, at any float instance: the latent matrix Z [12288,64] times its own transpose,
  into the [12288,12288] result. One grid point (i, j) multiplies the i-th 1024-row block of Z by the transpose of the
  j-th; the body reads its two input blocks whole and stores the output block whole, once. Both input windows stand on
  the SAME array, so the core holds that array once at the full share on entry and must hand each window a share of
  it: the left half to the first window, the right half to the second, joined again on exit.
  Stated at a parameter `V`, the contents of the unscoped buffers when the call is entered.
-/
import proofs.«157120_j31018253811968_1_alg».proof.Proof.Gen.KernelIdeal.Launch
import proofs.«157120_j31018253811968_1_alg».proof.Proof.Gen.KernelIdeal.Skeleton
import proofs.«157120_j31018253811968_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds the window's block at every point, whether or not the block was
    fetched there (an unfetched block has not moved), for any proof data on these arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through. -/
abbrev r3_0 : Rect S1024x64 := Rect.unit (s := S1024x64) ![0, 0] S1024x64.size inb_S1024x64_S1024x64_0_0
abbrev r3_2 : Rect S1024x1024 := Rect.unit (s := S1024x1024) ![0, 0] S1024x1024.size inb_S1024x1024_S1024x1024_0_0

/-- The output block after the body, from the two input blocks: its one whole-block store of their product. -/
def out3_2 (x0 : Vec F S1024x64 .f32) (x1 : Vec F S1024x64 .f32) : Vec F S1024x1024 .f32 :=
  View.canon [⟨r3_2, k3_pay1 (View.ld x0 r3_0) (View.ld x1 r3_0)⟩]

/-- The one store covers the output block. -/
theorem cover3_2 (p0 : Vec F S1024x1024 .f32) (y : S1024x1024.Idx) :
    ∃ pc ∈ ([⟨r3_2, p0⟩] : List (View.Piece (Elt F) S1024x1024 .f32)), y ∈ pc.1.set :=
  View.cover_of_tiled [⟨r3_2, p0⟩] S1024x1024.size (by rfl) y

set_option maxHeartbeats 1000000 in
/-- The body on whole staging buffers, the inputs' at contents `x0 x1` and the output's at anything, runs to the
    continuation with the inputs' as they were and the output's at `out3_2 x0 x1`. -/
theorem sound_kernel3 (c : Dev nD) (E : Set ℕ) (i : grid3.Coords) (arg2 : Memref sig .tc .vmem S1024x64 .f32) (harg2 : arg2.IsWhole) (arg3 : Memref sig .tc .vmem S1024x64 .f32) (harg3 : arg3.IsWhole)
    (arg4 : Memref sig .tc .vmem S1024x1024 .f32) (harg4 : arg4.IsWhole)
    (x0 : Vec F S1024x64 .f32) (x1 : Vec F S1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out3_2 x0 x1)) -∗ K ⟨⟩))
      ⊢ wp frame (wpE (defs₀ (F := F)) Variants.none c none) E (cc3__zzt_kernel i arg2 harg2 arg3 harg3 arg4 harg4) K := by
  simp only [cc3__zzt_kernel_eq_skeleton]; unfold cc3__zzt_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core `c`: the arrays as the call finds them; after the body at point `t` each input's
    buffer at its block and the output's at `out3_2` of the input blocks; nothing owed; the shared input array held by
    the first window at the left half of the full share and by the second at the right half. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation3 (c : Dev nD) : BodyObligation (dat3 (F := F) V c) (defs₀ (F := F)) Variants.none () Set.univ := fun t => by
  rw [bigSep_W3, bigSep_W3]
  exact sound_body3 V c t

/-! ## The shared input array at entry and at exit -/

/-- The call's three windows stand on two arrays: the latent matrix (twice) and the result. -/
theorem arrs3 : Finset.univ.image (Pipeline.arrRef spec3) = ([main_v56, main_v57] : List (Ref sig .tc)).toFinset := by decide

/-- The buffers behind the windows' arrays, one by one. -/
theorem bigSep_A3 {M : Type} [URA M] (Φ : Ref sig .tc → sProp M) :
    bigSep (Finset.univ.image (Pipeline.arrRef (cfgs 3).spec)) Φ = iprop(Φ main_v56 ∗ Φ main_v57) :=
  bigSep_eq_bigSepL_of_eq [main_v56, main_v57] arrs3 (by decide) Φ

set_option maxHeartbeats 1600000 in
/-- ENTRY: the core's unscoped buffers at `V` are the pipeline's arrays at the proof data's entry contents — the latent
    matrix split along the share between the two input windows — and the unscoped rest. -/
theorem entry3 (c : Dev nD) :
    (unscopedBufs c (V c) : sProp 𝕄) ⊢ iprop((dat3 V c).arrays ((dat3 V c).arrAt · 0) ∗ Pipeline.unscopedRest spec3 c (V c)) := by
  rw [Pipeline.unscopedBufs_split₀ cfgs 3 winFacts₀3.arr_unscoped c (V c)]
  refine sep_mono ?_ .rfl
  unfold Pipeline.arrBufs Dat.arrays
  rw [bigSep_W3, bigSep_A3]
  rw [(arr_whole3 0).set_eq_univ, (arr_whole3 2).set_eq_univ]
  beta_reduce
  rw [show (dat3 V c).share 0 = fullShare.left from rfl, show (dat3 V c).share 1 = fullShare.right from rfl,
    show (dat3 V c).share 2 = fullShare from rfl,
    show (dat3 V c).arrAt 0 0 = V c main_v56 from rfl, show (dat3 V c).arrAt 1 0 = V c main_v56 from rfl,
    show (dat3 V c).arrAt 2 0 = V c main_v57 from rfl]
  have hs : (((c : Thread nD τ).loc main_v56) ↦{fullShare} V c main_v56 : sProp 𝕄)
      ⊢ iprop((((c : Thread nD τ).loc main_v56) ↦{fullShare.left} V c main_v56) ∗ (((c : Thread nD τ).loc main_v56) ↦{fullShare.right} V c main_v56)) :=
    (pointsTo_share (PosShare.mem_left_op_right fullShare)).1
  iintro ⟨H56, H57⟩
  ihave H := hs $$ H56
  icases H with ⟨HL, HR⟩
  isplitl [HL]; · iexact HL
  isplitl [HR]; · iexact HR
  iexact H57

set_option maxHeartbeats 1600000 in
/-- EXIT: the pipeline's arrays at their final contents — the two shares of the latent matrix, which no write-back
    touched, joined again; the result at what the write-backs leave — and the unscoped rest are the core's unscoped
    buffers at any contents `V'` that have the result there and agree with `V` elsewhere. -/
theorem exit3 (c : Dev nD) (V' : (b : Ref sig .tc) → Buf (Elt F) ((c : Thread nD τ).loc b))
    (hres : V' main_v57 = (dat3 V c).arrAt 2 cfg3.N) (hrest : ∀ b, b ≠ main_v57 → V' b = V c b) :
    iprop((dat3 V c).arrays ((dat3 V c).arrAt · cfg3.N) ∗ Pipeline.unscopedRest spec3 c (V c)) ⊢ (unscopedBufs c V' : sProp 𝕄) := by
  rw [Pipeline.unscopedBufs_split₀ cfgs 3 winFacts₀3.arr_unscoped c V']
  refine sep_mono ?_ (Entails.of_eq ?_)
  · unfold Pipeline.arrBufs Dat.arrays
    rw [bigSep_W3, bigSep_A3]
    rw [(arr_whole3 0).set_eq_univ, (arr_whole3 2).set_eq_univ]
    beta_reduce
    rw [(dat3 V c).arrAt_in 0 rfl, (dat3 V c).arrAt_in 1 rfl, hrest main_v56 (by decide), hres,
      show (dat3 V c).share 0 = fullShare.left from rfl, show (dat3 V c).share 1 = fullShare.right from rfl,
      show (dat3 V c).share 2 = fullShare from rfl,
      show (dat3 V c).A 0 = V c main_v56 from rfl, show (dat3 V c).A 1 = V c main_v56 from rfl]
    have hs : iprop((((c : Thread nD τ).loc main_v56) ↦{fullShare.left} V c main_v56) ∗ (((c : Thread nD τ).loc main_v56) ↦{fullShare.right} V c main_v56))
        ⊢ (((c : Thread nD τ).loc main_v56) ↦{fullShare} V c main_v56 : sProp 𝕄) :=
      (pointsTo_share (PosShare.mem_left_op_right fullShare)).2
    iintro ⟨HL, HR, H57⟩
    isplitl [HL HR]
    · iapply hs
      isplitl [HL] <;> iassumption
    iexact H57
  · unfold Pipeline.unscopedRest
    refine bigSep_congr fun b hb => ?_
    rw [hrest b (fun e => (Finset.mem_sdiff.mp hb).2 (e ▸ Finset.mem_image.mpr ⟨2, Finset.mem_univ _, rfl⟩))]

end Cert.KernelIdeal.GenH

end
-- ==== Proof.KI.Run.lean ====
/-
  The whole run of the program, at any float instance: @main is thirteen items — stretches of host operations and the
  four Pallas calls — and the contents of the core's unscoped buffers are followed from the launch memory through every
  item: a host stretch applies its operations, a Pallas call replaces its result array by what its grid's write-backs
  leave and changes nothing else. Every weakly fair execution terminates without a fault, the final memory holds the
  last result at the last item's contents, and each argument array as launched.
-/
import proofs.«157120_j31018253811968_1_alg».proof.Proof.Gen.KernelIdeal.Launch
import proofs.«157120_j31018253811968_1_alg».proof.Proof.Gen.KernelIdeal.Skeleton
import proofs.«157120_j31018253811968_1_alg».proof.Proof.Gen.KernelIdeal.Points
import proofs.«157120_j31018253811968_1_alg».proof.Proof.Gen.KernelIdeal.Regions
import proofs.«157120_j31018253811968_1_alg».proof.Proof.KI.Reg0
import proofs.«157120_j31018253811968_1_alg».proof.Proof.KI.Reg1
import proofs.«157120_j31018253811968_1_alg».proof.Proof.KI.Reg2
import proofs.«157120_j31018253811968_1_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between items -/

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
/-- When call 0 is entered: after the degree and the norm column have been computed. -/
abbrev W3 : Dev nD → Valuation τ sig (Elt F) := fun c => StableHlo.after hostOps0_2 (W2 m ρ c)
abbrev W3r : (c : Dev nD) → (b : Ref sig .tc) → Buf (Elt F) ((c : Thread nD τ).loc b) := fun c b => W3 m ρ c b
/-- When call 0 returns: its arrays at what the pipeline leaves (the inputs as entered, the result's write-backs folded),
    every other buffer as entered. -/
def W4 (c : Dev nD) : Valuation τ sig (Elt F) :=
  Pipeline.withArrays spec0 c (W3 m ρ c) fun w => (dat0 (W3r m ρ) c).arrAt w cfg0.N
theorem W4_arr (c : Dev nD) (w : Fin cfg0.W) :
    W4 m ρ c (Proc.devRef .tc (Pipeline.arrRef spec0 w)) = (dat0 (W3r m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev W4r : (c : Dev nD) → (b : Ref sig .tc) → Buf (Elt F) ((c : Thread nD τ).loc b) := fun c b => W4 m ρ c b
theorem hF0 (c : Dev nD) (w : Fin cfg0.W) : (dat0 (W3r m ρ) c).arrAt w cfg0.N = W4r m ρ c (Pipeline.arrRef spec0 w) :=
  (W4_arr m ρ c w).symm
theorem hrest0 (c : Dev nD) : ∀ b, b ∉ Finset.univ.image (Pipeline.arrRef spec0) → W4r m ρ c b = W3r m ρ c b :=
  fun b hb => W4_of_ne m ρ c b fun w e => hb (Finset.mem_image.mpr ⟨w, Finset.mem_univ _, e⟩)
/-- A buffer that is not the call's result keeps its contents: an input array is never written, any other buffer bypasses the call. -/
theorem W4_keeps (c : Dev nD) (b : Ref sig .tc) (hb : b ≠ Pipeline.arrRef spec0 3) : W4 m ρ c (Proc.devRef .tc b) = W3 m ρ c (Proc.devRef .tc b) := by
  by_cases h : ∃ w, Pipeline.arrRef spec0 w = b
  · obtain ⟨w, rfl⟩ := h
    have hw : (cfg0.win w).isOut = false := by
      match w with
      | ⟨0, _⟩ => rfl
      | ⟨1, _⟩ => rfl
      | ⟨2, _⟩ => rfl
      | ⟨3, _⟩ => exact absurd rfl hb
    exact (W4_arr m ρ c w).trans (((dat0 (W3r m ρ) c).arrAt_in w hw _).trans (A_eq0 (W3r m ρ) c w))
  · exact W4_of_ne m ρ c b fun w e => h ⟨w, e⟩

/-- When call 1 is entered: after the first neighbour aggregation. -/
abbrev W5 : Dev nD → Valuation τ sig (Elt F) := fun c => StableHlo.after hostOps1 (W4 m ρ c)
abbrev W5r : (c : Dev nD) → (b : Ref sig .tc) → Buf (Elt F) ((c : Thread nD τ).loc b) := fun c b => W5 m ρ c b
/-- When call 1 returns: its arrays at what the pipeline leaves (the inputs as entered, the result's write-backs folded),
    every other buffer as entered. -/
def W6 (c : Dev nD) : Valuation τ sig (Elt F) :=
  Pipeline.withArrays spec1 c (W5 m ρ c) fun w => (dat1 (W5r m ρ) c).arrAt w cfg1.N
theorem W6_arr (c : Dev nD) (w : Fin cfg1.W) :
    W6 m ρ c (Proc.devRef .tc (Pipeline.arrRef spec1 w)) = (dat1 (W5r m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev W6r : (c : Dev nD) → (b : Ref sig .tc) → Buf (Elt F) ((c : Thread nD τ).loc b) := fun c b => W6 m ρ c b
theorem hF1 (c : Dev nD) (w : Fin cfg1.W) : (dat1 (W5r m ρ) c).arrAt w cfg1.N = W6r m ρ c (Pipeline.arrRef spec1 w) :=
  (W6_arr m ρ c w).symm
theorem hrest1 (c : Dev nD) : ∀ b, b ∉ Finset.univ.image (Pipeline.arrRef spec1) → W6r m ρ c b = W5r m ρ c b :=
  fun b hb => W6_of_ne m ρ c b fun w e => hb (Finset.mem_image.mpr ⟨w, Finset.mem_univ _, e⟩)
/-- A buffer that is not the call's result keeps its contents: an input array is never written, any other buffer bypasses the call. -/
theorem W6_keeps (c : Dev nD) (b : Ref sig .tc) (hb : b ≠ Pipeline.arrRef spec1 3) : W6 m ρ c (Proc.devRef .tc b) = W5 m ρ c (Proc.devRef .tc b) := by
  by_cases h : ∃ w, Pipeline.arrRef spec1 w = b
  · obtain ⟨w, rfl⟩ := h
    have hw : (cfg1.win w).isOut = false := by
      match w with
      | ⟨0, _⟩ => rfl
      | ⟨1, _⟩ => rfl
      | ⟨2, _⟩ => rfl
      | ⟨3, _⟩ => exact absurd rfl hb
    exact (W6_arr m ρ c w).trans (((dat1 (W5r m ρ) c).arrAt_in w hw _).trans (A_eq1 (W5r m ρ) c w))
  · exact W6_of_ne m ρ c b fun w e => h ⟨w, e⟩

abbrev W7 : Dev nD → Valuation τ sig (Elt F) := fun c => StableHlo.after hostOps2 (W6 m ρ c)
/-- When call 2 is entered: after the mean head's aggregation and rectifier. -/
abbrev W8 : Dev nD → Valuation τ sig (Elt F) := fun c => StableHlo.after hostOps2_1 (W7 m ρ c)
abbrev W8r : (c : Dev nD) → (b : Ref sig .tc) → Buf (Elt F) ((c : Thread nD τ).loc b) := fun c b => W8 m ρ c b
/-- When call 2 returns: its arrays at what the pipeline leaves (the inputs as entered, the result's write-backs folded),
    every other buffer as entered. -/
def W9 (c : Dev nD) : Valuation τ sig (Elt F) :=
  Pipeline.withArrays spec2 c (W8 m ρ c) fun w => (dat2 (W8r m ρ) c).arrAt w cfg2.N
theorem W9_arr (c : Dev nD) (w : Fin cfg2.W) :
    W9 m ρ c (Proc.devRef .tc (Pipeline.arrRef spec2 w)) = (dat2 (W8r m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
abbrev W9r : (c : Dev nD) → (b : Ref sig .tc) → Buf (Elt F) ((c : Thread nD τ).loc b) := fun c b => W9 m ρ c b
theorem hF2 (c : Dev nD) (w : Fin cfg2.W) : (dat2 (W8r m ρ) c).arrAt w cfg2.N = W9r m ρ c (Pipeline.arrRef spec2 w) :=
  (W9_arr m ρ c w).symm
theorem hrest2 (c : Dev nD) : ∀ b, b ∉ Finset.univ.image (Pipeline.arrRef spec2) → W9r m ρ c b = W8r m ρ c b :=
  fun b hb => W9_of_ne m ρ c b fun w e => hb (Finset.mem_image.mpr ⟨w, Finset.mem_univ _, e⟩)
/-- A buffer that is not the call's result keeps its contents: an input array is never written, any other buffer bypasses the call. -/
theorem W9_keeps (c : Dev nD) (b : Ref sig .tc) (hb : b ≠ Pipeline.arrRef spec2 3) : W9 m ρ c (Proc.devRef .tc b) = W8 m ρ c (Proc.devRef .tc b) := by
  by_cases h : ∃ w, Pipeline.arrRef spec2 w = b
  · obtain ⟨w, rfl⟩ := h
    have hw : (cfg2.win w).isOut = false := by
      match w with
      | ⟨0, _⟩ => rfl
      | ⟨1, _⟩ => rfl
      | ⟨2, _⟩ => rfl
      | ⟨3, _⟩ => exact absurd rfl hb
    exact (W9_arr m ρ c w).trans (((dat2 (W8r m ρ) c).arrAt_in w hw _).trans (A_eq2 (W8r m ρ) c w))
  · exact W9_of_ne m ρ c b fun w e => h ⟨w, e⟩

abbrev W10 : Dev nD → Valuation τ sig (Elt F) := fun c => StableHlo.after hostOps3 (W9 m ρ c)
abbrev W11 : Dev nD → Valuation τ sig (Elt F) := fun c => StableHlo.after hostOps3_1 (W10 m ρ c)
/-- When the last call is entered: after the latent matrix has been formed. -/
abbrev W12 : Dev nD → Valuation τ sig (Elt F) := fun c => StableHlo.after hostOps3_2 (W11 m ρ c)
abbrev W12r : (c : Dev nD) → (b : Ref sig .tc) → Buf (Elt F) ((c : Thread nD τ).loc b) := fun c b => W12 m ρ c b
/-- When the last call returns: its result array at what its 144 write-backs leave, every other buffer as entered
    (both its input windows read the one latent matrix, which no write-back touches). -/
def W13 (c : Dev nD) : Valuation τ sig (Elt F) :=
  Function.update (W12 m ρ c) (Proc.devRef .tc main_v57) ((dat3 (W12r m ρ) c).arrAt 2 cfg3.N)
theorem W13_res (c : Dev nD) : W13 m ρ c (Proc.devRef .tc main_v57) = (dat3 (W12r m ρ) c).arrAt 2 cfg3.N := by
  unfold W13; exact Function.update_self ..
theorem W13_of_ne (c : Dev nD) (b : Ref sig .tc) (hb : b ≠ main_v57) :
    W13 m ρ c (Proc.devRef .tc b) = W12 m ρ c (Proc.devRef .tc b) := by
  unfold W13; exact Function.update_of_ne (StableHlo.devRef_ne_of_ne hb) ..
abbrev W13r : (c : Dev nD) → (b : Ref sig .tc) → Buf (Elt F) ((c : Thread nD τ).loc b) := fun c b => W13 m ρ c b

/-! ### The arguments end as launched: no host operation writes one and no call's result is one -/

theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := W13_of_ne m ρ c main_arg0 (by decide)
    _ = W11 m ρ c (Proc.devRef .tc main_arg0) := StableHlo.after_of_writes_sub hostOps3_2 _ hostOps3_2_writes (by decide : main_arg0 ∉ hostOps3_2_W)
    _ = W10 m ρ c (Proc.devRef .tc main_arg0) := StableHlo.after_of_writes_sub hostOps3_1 _ hostOps3_1_writes (by decide : main_arg0 ∉ hostOps3_1_W)
    _ = W9 m ρ c (Proc.devRef .tc main_arg0) := StableHlo.after_of_writes_sub hostOps3 _ hostOps3_writes (by decide : main_arg0 ∉ hostOps3_W)
    _ = W8 m ρ c (Proc.devRef .tc main_arg0) := W9_keeps m ρ c main_arg0 (by decide)
    _ = W7 m ρ c (Proc.devRef .tc main_arg0) := StableHlo.after_of_writes_sub hostOps2_1 _ hostOps2_1_writes (by decide : main_arg0 ∉ hostOps2_1_W)
    _ = W6 m ρ c (Proc.devRef .tc main_arg0) := StableHlo.after_of_writes_sub hostOps2 _ hostOps2_writes (by decide : main_arg0 ∉ hostOps2_W)
    _ = W5 m ρ c (Proc.devRef .tc main_arg0) := W6_keeps m ρ c main_arg0 (by decide)
    _ = W4 m ρ c (Proc.devRef .tc main_arg0) := StableHlo.after_of_writes_sub hostOps1 _ hostOps1_writes (by decide : main_arg0 ∉ hostOps1_W)
    _ = W3 m ρ c (Proc.devRef .tc main_arg0) := W4_keeps m ρ c main_arg0 (by decide)
    _ = W2 m ρ c (Proc.devRef .tc main_arg0) := StableHlo.after_of_writes_sub hostOps0_2 _ hostOps0_2_writes (by decide : main_arg0 ∉ hostOps0_2_W)
    _ = W1 m ρ c (Proc.devRef .tc main_arg0) := StableHlo.after_of_writes_sub hostOps0_1 _ hostOps0_1_writes (by decide : main_arg0 ∉ hostOps0_1_W)
    _ = W0 m ρ c (Proc.devRef .tc main_arg0) := StableHlo.after_of_writes_sub hostOps0 _ hostOps0_writes (by decide : main_arg0 ∉ hostOps0_W)
    _ = m ((c : Thread nD τ).loc main_arg0) := rfl
theorem W13_main_arg1 (c : Dev nD) : W13 m ρ c (Proc.devRef .tc main_arg1) = m ((c : Thread nD τ).loc main_arg1) :=
  calc W13 m ρ c (Proc.devRef .tc main_arg1)
    _ = W12 m ρ c (Proc.devRef .tc main_arg1) := W13_of_ne m ρ c main_arg1 (by decide)
    _ = W11 m ρ c (Proc.devRef .tc main_arg1) := StableHlo.after_of_writes_sub hostOps3_2 _ hostOps3_2_writes (by decide : main_arg1 ∉ hostOps3_2_W)
    _ = W10 m ρ c (Proc.devRef .tc main_arg1) := StableHlo.after_of_writes_sub hostOps3_1 _ hostOps3_1_writes (by decide : main_arg1 ∉ hostOps3_1_W)
    _ = W9 m ρ c (Proc.devRef .tc main_arg1) := StableHlo.after_of_writes_sub hostOps3 _ hostOps3_writes (by decide : main_arg1 ∉ hostOps3_W)
    _ = W8 m ρ c (Proc.devRef .tc main_arg1) := W9_keeps m ρ c main_arg1 (by decide)
    _ = W7 m ρ c (Proc.devRef .tc main_arg1) := StableHlo.after_of_writes_sub hostOps2_1 _ hostOps2_1_writes (by decide : main_arg1 ∉ hostOps2_1_W)
    _ = W6 m ρ c (Proc.devRef .tc main_arg1) := StableHlo.after_of_writes_sub hostOps2 _ hostOps2_writes (by decide : main_arg1 ∉ hostOps2_W)
    _ = W5 m ρ c (Proc.devRef .tc main_arg1) := W6_keeps m ρ c main_arg1 (by decide)
    _ = W4 m ρ c (Proc.devRef .tc main_arg1) := StableHlo.after_of_writes_sub hostOps1 _ hostOps1_writes (by decide : main_arg1 ∉ hostOps1_W)
    _ = W3 m ρ c (Proc.devRef .tc main_arg1) := W4_keeps m ρ c main_arg1 (by decide)
    _ = W2 m ρ c (Proc.devRef .tc main_arg1) := StableHlo.after_of_writes_sub hostOps0_2 _ hostOps0_2_writes (by decide : main_arg1 ∉ hostOps0_2_W)
    _ = W1 m ρ c (Proc.devRef .tc main_arg1) := StableHlo.after_of_writes_sub hostOps0_1 _ hostOps0_1_writes (by decide : main_arg1 ∉ hostOps0_1_W)
    _ = W0 m ρ c (Proc.devRef .tc main_arg1) := StableHlo.after_of_writes_sub hostOps0 _ hostOps0_writes (by decide : main_arg1 ∉ hostOps0_W)
    _ = m ((c : Thread nD τ).loc main_arg1) := rfl
theorem W13_main_arg2 (c : Dev nD) : W13 m ρ c (Proc.devRef .tc main_arg2) = m ((c : Thread nD τ).loc main_arg2) :=
  calc W13 m ρ c (Proc.devRef .tc main_arg2)
    _ = W12 m ρ c (Proc.devRef .tc main_arg2) := W13_of_ne m ρ c main_arg2 (by decide)
    _ = W11 m ρ c (Proc.devRef .tc main_arg2) := StableHlo.after_of_writes_sub hostOps3_2 _ hostOps3_2_writes (by decide : main_arg2 ∉ hostOps3_2_W)
    _ = W10 m ρ c (Proc.devRef .tc main_arg2) := StableHlo.after_of_writes_sub hostOps3_1 _ hostOps3_1_writes (by decide : main_arg2 ∉ hostOps3_1_W)
    _ = W9 m ρ c (Proc.devRef .tc main_arg2) := StableHlo.after_of_writes_sub hostOps3 _ hostOps3_writes (by decide : main_arg2 ∉ hostOps3_W)
    _ = W8 m ρ c (Proc.devRef .tc main_arg2) := W9_keeps m ρ c main_arg2 (by decide)
    _ = W7 m ρ c (Proc.devRef .tc main_arg2) := StableHlo.after_of_writes_sub hostOps2_1 _ hostOps2_1_writes (by decide : main_arg2 ∉ hostOps2_1_W)
    _ = W6 m ρ c (Proc.devRef .tc main_arg2) := StableHlo.after_of_writes_sub hostOps2 _ hostOps2_writes (by decide : main_arg2 ∉ hostOps2_W)
    _ = W5 m ρ c (Proc.devRef .tc main_arg2) := W6_keeps m ρ c main_arg2 (by decide)
    _ = W4 m ρ c (Proc.devRef .tc main_arg2) := StableHlo.after_of_writes_sub hostOps1 _ hostOps1_writes (by decide : main_arg2 ∉ hostOps1_W)
    _ = W3 m ρ c (Proc.devRef .tc main_arg2) := W4_keeps m ρ c main_arg2 (by decide)
    _ = W2 m ρ c (Proc.devRef .tc main_arg2) := StableHlo.after_of_writes_sub hostOps0_2 _ hostOps0_2_writes (by decide : main_arg2 ∉ hostOps0_2_W)
    _ = W1 m ρ c (Proc.devRef .tc main_arg2) := StableHlo.after_of_writes_sub hostOps0_1 _ hostOps0_1_writes (by decide : main_arg2 ∉ hostOps0_1_W)
    _ = W0 m ρ c (Proc.devRef .tc main_arg2) := StableHlo.after_of_writes_sub hostOps0 _ hostOps0_writes (by decide : main_arg2 ∉ hostOps0_W)
    _ = m ((c : Thread nD τ).loc main_arg2) := rfl
theorem W13_main_arg3 (c : Dev nD) : W13 m ρ c (Proc.devRef .tc main_arg3) = m ((c : Thread nD τ).loc main_arg3) :=
  calc W13 m ρ c (Proc.devRef .tc main_arg3)
    _ = W12 m ρ c (Proc.devRef .tc main_arg3) := W13_of_ne m ρ c main_arg3 (by decide)
    _ = W11 m ρ c (Proc.devRef .tc main_arg3) := StableHlo.after_of_writes_sub hostOps3_2 _ hostOps3_2_writes (by decide : main_arg3 ∉ hostOps3_2_W)
    _ = W10 m ρ c (Proc.devRef .tc main_arg3) := StableHlo.after_of_writes_sub hostOps3_1 _ hostOps3_1_writes (by decide : main_arg3 ∉ hostOps3_1_W)
    _ = W9 m ρ c (Proc.devRef .tc main_arg3) := StableHlo.after_of_writes_sub hostOps3 _ hostOps3_writes (by decide : main_arg3 ∉ hostOps3_W)
    _ = W8 m ρ c (Proc.devRef .tc main_arg3) := W9_keeps m ρ c main_arg3 (by decide)
    _ = W7 m ρ c (Proc.devRef .tc main_arg3) := StableHlo.after_of_writes_sub hostOps2_1 _ hostOps2_1_writes (by decide : main_arg3 ∉ hostOps2_1_W)
    _ = W6 m ρ c (Proc.devRef .tc main_arg3) := StableHlo.after_of_writes_sub hostOps2 _ hostOps2_writes (by decide : main_arg3 ∉ hostOps2_W)
    _ = W5 m ρ c (Proc.devRef .tc main_arg3) := W6_keeps m ρ c main_arg3 (by decide)
    _ = W4 m ρ c (Proc.devRef .tc main_arg3) := StableHlo.after_of_writes_sub hostOps1 _ hostOps1_writes (by decide : main_arg3 ∉ hostOps1_W)
    _ = W3 m ρ c (Proc.devRef .tc main_arg3) := W4_keeps m ρ c main_arg3 (by decide)
    _ = W2 m ρ c (Proc.devRef .tc main_arg3) := StableHlo.after_of_writes_sub hostOps0_2 _ hostOps0_2_writes (by decide : main_arg3 ∉ hostOps0_2_W)
    _ = W1 m ρ c (Proc.devRef .tc main_arg3) := StableHlo.after_of_writes_sub hostOps0_1 _ hostOps0_1_writes (by decide : main_arg3 ∉ hostOps0_1_W)
    _ = W0 m ρ c (Proc.devRef .tc main_arg3) := StableHlo.after_of_writes_sub hostOps0 _ hostOps0_writes (by decide : main_arg3 ∉ hostOps0_W)
    _ = m ((c : Thread nD τ).loc main_arg3) := rfl
theorem W13_main_arg4 (c : Dev nD) : W13 m ρ c (Proc.devRef .tc main_arg4) = m ((c : Thread nD τ).loc main_arg4) :=
  calc W13 m ρ c (Proc.devRef .tc main_arg4)
    _ = W12 m ρ c (Proc.devRef .tc main_arg4) := W13_of_ne m ρ c main_arg4 (by decide)
    _ = W11 m ρ c (Proc.devRef .tc main_arg4) := StableHlo.after_of_writes_sub hostOps3_2 _ hostOps3_2_writes (by decide : main_arg4 ∉ hostOps3_2_W)
    _ = W10 m ρ c (Proc.devRef .tc main_arg4) := StableHlo.after_of_writes_sub hostOps3_1 _ hostOps3_1_writes (by decide : main_arg4 ∉ hostOps3_1_W)
    _ = W9 m ρ c (Proc.devRef .tc main_arg4) := StableHlo.after_of_writes_sub hostOps3 _ hostOps3_writes (by decide : main_arg4 ∉ hostOps3_W)
    _ = W8 m ρ c (Proc.devRef .tc main_arg4) := W9_keeps m ρ c main_arg4 (by decide)
    _ = W7 m ρ c (Proc.devRef .tc main_arg4) := StableHlo.after_of_writes_sub hostOps2_1 _ hostOps2_1_writes (by decide : main_arg4 ∉ hostOps2_1_W)
    _ = W6 m ρ c (Proc.devRef .tc main_arg4) := StableHlo.after_of_writes_sub hostOps2 _ hostOps2_writes (by decide : main_arg4 ∉ hostOps2_W)
    _ = W5 m ρ c (Proc.devRef .tc main_arg4) := W6_keeps m ρ c main_arg4 (by decide)
    _ = W4 m ρ c (Proc.devRef .tc main_arg4) := StableHlo.after_of_writes_sub hostOps1 _ hostOps1_writes (by decide : main_arg4 ∉ hostOps1_W)
    _ = W3 m ρ c (Proc.devRef .tc main_arg4) := W4_keeps m ρ c main_arg4 (by decide)
    _ = W2 m ρ c (Proc.devRef .tc main_arg4) := StableHlo.after_of_writes_sub hostOps0_2 _ hostOps0_2_writes (by decide : main_arg4 ∉ hostOps0_2_W)
    _ = W1 m ρ c (Proc.devRef .tc main_arg4) := StableHlo.after_of_writes_sub hostOps0_1 _ hostOps0_1_writes (by decide : main_arg4 ∉ hostOps0_1_W)
    _ = W0 m ρ c (Proc.devRef .tc main_arg4) := StableHlo.after_of_writes_sub hostOps0 _ hostOps0_writes (by decide : main_arg4 ∉ hostOps0_W)
    _ = m ((c : Thread nD τ).loc main_arg4) := rfl
theorem W13_main_arg5 (c : Dev nD) : W13 m ρ c (Proc.devRef .tc main_arg5) = m ((c : Thread nD τ).loc main_arg5) :=
  calc W13 m ρ c (Proc.devRef .tc main_arg5)
    _ = W12 m ρ c (Proc.devRef .tc main_arg5) := W13_of_ne m ρ c main_arg5 (by decide)
    _ = W11 m ρ c (Proc.devRef .tc main_arg5) := StableHlo.after_of_writes_sub hostOps3_2 _ hostOps3_2_writes (by decide : main_arg5 ∉ hostOps3_2_W)
    _ = W10 m ρ c (Proc.devRef .tc main_arg5) := StableHlo.after_of_writes_sub hostOps3_1 _ hostOps3_1_writes (by decide : main_arg5 ∉ hostOps3_1_W)
    _ = W9 m ρ c (Proc.devRef .tc main_arg5) := StableHlo.after_of_writes_sub hostOps3 _ hostOps3_writes (by decide : main_arg5 ∉ hostOps3_W)
    _ = W8 m ρ c (Proc.devRef .tc main_arg5) := W9_keeps m ρ c main_arg5 (by decide)
    _ = W7 m ρ c (Proc.devRef .tc main_arg5) := StableHlo.after_of_writes_sub hostOps2_1 _ hostOps2_1_writes (by decide : main_arg5 ∉ hostOps2_1_W)
    _ = W6 m ρ c (Proc.devRef .tc main_arg5) := StableHlo.after_of_writes_sub hostOps2 _ hostOps2_writes (by decide : main_arg5 ∉ hostOps2_W)
    _ = W5 m ρ c (Proc.devRef .tc main_arg5) := W6_keeps m ρ c main_arg5 (by decide)
    _ = W4 m ρ c (Proc.devRef .tc main_arg5) := StableHlo.after_of_writes_sub hostOps1 _ hostOps1_writes (by decide : main_arg5 ∉ hostOps1_W)
    _ = W3 m ρ c (Proc.devRef .tc main_arg5) := W4_keeps m ρ c main_arg5 (by decide)
    _ = W2 m ρ c (Proc.devRef .tc main_arg5) := StableHlo.after_of_writes_sub hostOps0_2 _ hostOps0_2_writes (by decide : main_arg5 ∉ hostOps0_2_W)
    _ = W1 m ρ c (Proc.devRef .tc main_arg5) := StableHlo.after_of_writes_sub hostOps0_1 _ hostOps0_1_writes (by decide : main_arg5 ∉ hostOps0_1_W)
    _ = W0 m ρ c (Proc.devRef .tc main_arg5) := StableHlo.after_of_writes_sub hostOps0 _ hostOps0_writes (by decide : main_arg5 ∉ hostOps0_W)
    _ = m ((c : Thread nD τ).loc main_arg5) := rfl

/-! ## The proof data family and the thread state -/

abbrev admH : (p : Fin 4) → (pcfgs (F := F) p).Adm := fun p => (cfgs p).toPCfg_adm
/-- Every pipeline's proof data, each at its call's entry contents. -/
def pdats : (p : Fin 4) → (c : Dev nD) → Dat τ (Elt F) Unit ℕ (UR sig nD τ) ℕ (Pipeline.pin (pcfgs (F := F)) admH p) c
  | ⟨0, _⟩ => fun c => dat0 (W3r m ρ) c
  | ⟨1, _⟩ => fun c => dat1 (W5r m ρ) c
  | ⟨2, _⟩ => fun c => dat2 (W8r m ρ) c
  | ⟨3, _⟩ => fun c => dat3 (W12r m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W13 m ρ c) ∗ ∃ r, prngReg c r)

/-! ## The Pallas calls as segments -/

set_option backward.isDefEq.respectTransparency.types false in
/-- Pallas call 0 over the thread state: entered with every unscoped buffer at `W3`, left with them at `W4`. Its
    arrays are split out of the unscoped buffers on entry and put back at their final contents on exit; the generator
    register goes into the pipeline's invariant and comes back; nothing is owed; the kernel has no semaphore of its own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (W3r m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (W3r m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (W3r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (W3r m ρ c) (W4r m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered with every unscoped buffer at `W5`, left with them at `W6`. Its
    arrays are split out of the unscoped buffers on entry and put back at their final contents on exit; the generator
    register goes into the pipeline's invariant and comes back; nothing is owed; the kernel has no semaphore of its own. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (W5r m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (W5r m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (W5r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (W5r m ρ c) (W6r m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 over the thread state: entered with every unscoped buffer at `W8`, left with them at `W9`. Its
    arrays are split out of the unscoped buffers on entry and put back at their final contents on exit; the generator
    register goes into the pipeline's invariant and comes back; nothing is owed; the kernel has no semaphore of its own. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (W8r m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec2 c (W8r m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (W8r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (W8r m ρ c) (W9r m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The last Pallas call over the thread state: entered with every unscoped buffer at `W12`, left with them at `W13`. The
    latent matrix is split along the share between the two input windows on entry and joined again on exit. -/
def reg3 : Pipeline.RegionSeg (pcfgs (F := F)) admH (pdats m ρ) () defs₀ 𝒱₀ L lv 3 where
  win := winFacts₀3
  block_pos := block_pos3
  stage_whole := stage_whole3
  K := PEmpty
  osem k := k.elim
  ho := Pipeline.OwnSemFacts.none _
  hbody c := (body_obligation3 (W12r m ρ) c).loose
  hwaits := Pipeline.hwaits_of_owed_zero _ _ _ _ L lv 3 fun _ _ => rfl
  pre c := iprop(StableHlo.held (c : Thread nD τ) (Pipeline.ucRefs τ sig) (W12 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (W12r m ρ c)
  hentry c := by
    rw [Pipeline.ownSems0_none]
    have hsplit := entry3 (W12r m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m ρ 3 c).arrays ((pdats m ρ 3 c).arrAt · cfg3.N) ∗ Pipeline.unscopedRest (Ix := Unit) (Name := ℕ) (U := UR sig nD τ) (Lvl := ℕ) spec3 c (W12r m ρ c))
        ⊢ (unscopedBufs c (W13r m ρ c) : sProp 𝕄) :=
      exit3 (W12r m ρ) c (W13r m ρ c) (W13_res m ρ c) (fun b hb => W13_of_ne m ρ c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's thirteen items in order. -/
abbrev segsH : List (Pipeline.Seg (pcfgs (F := F)) admH (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .host (hseg hostOps2_1 hostOps2_1_sub hostOps2_1_fresh (W7 m ρ)),
    .region (reg2 m ρ),
    .host (hseg hostOps3 hostOps3_sub hostOps3_fresh (W9 m ρ)),
    .host (hseg hostOps3_1 hostOps3_1_sub hostOps3_1_fresh (W10 m ρ)),
    .host (hseg hostOps3_2 hostOps3_2_sub hostOps3_2_fresh (W11 m ρ)),
    .region (reg3 m ρ) ]
/-- @main is the run of the segments. -/
theorem main_run (c : Dev nD) : main (F := F) c = Pipeline.Seg.run (segsH m ρ) := by
  rw [main_chain c, Pipeline.Seg.run_eq_chain]; rfl

set_option backward.isDefEq.respectTransparency.types false in
/-- THE RUN: at the compiled mesh, from any memory with zero counters, every weakly fair execution of @main on the
    TensorCores terminates, nothing faulting, and every final state has the last result array at the last item's
    contents and each argument array as launched. -/
theorem run_main : θ_run defs (onTc (τ := τ) (main (F := F))) ⟨m, fun _ => 0, ρ⟩ (fun r => ∀ c : Dev nD,
      r.2.mem ((c.tc : Thread nD τ).loc main_v57) = W13 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) admH (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v57 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c)⟩)

/-- THE FRAME: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.KernelIdeal.GenH

end
-- ==== Proof.LibPlainMatmul.lean ====
import Idealize.ShloMosaic.PureOps.Ideal.Laws
import Idealize.ShloMosaic.Lib.ValueIdx
import Idealize.ShloMosaic.Lib.Pipeline.Value

noncomputable section

namespace Idealize.ShloMosaic.PlainMatmul

open Idealize.ShloMosaic Idealize.ShloMosaic.ValueIdx

variable {M K N : Nat} {φ₁ φ₂ : FTy}

/-- The dimension numbers of a plain matrix product, rows × contraction by contraction × columns, for any witness of their
    side conditions. -/
abbrev dims (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

/-- Over the extended reals a plain matrix product into a zero accumulator is, at row `p` and column `q`, the sum over
    the contracted coordinate `k` of the left operand at `(p, k)` times the right operand at `(k, q)`. -/
theorem matmul_zero_apply (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    FloatOps.matmul (dims wf) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, h0⟩ =>
      unfold DotDims.lhsIdx
      rw [dif_neg (List.not_mem_nil : ¬(⟨0, h0⟩ : Fin 2) ∈ (dims wf).lhsBatch),
        dif_pos (List.mem_singleton.mpr rfl : (⟨0, h0⟩ : Fin 2) ∈ (dims wf).lhsNonContracting)]
      rfl
    | ⟨1, _⟩ => exact ((dims wf).lhsIdx_val_of_single rfl _ _).trans hk)
  have er : (dims wf).rhsIdx (ix2 p q) ((contrEquiv1 (dims wf) K rfl rfl).symm k) = ix2 k q := funext fun a => Fin.ext (by
    match a with
    | ⟨0, _⟩ => exact ((dims wf).rhsIdx_val_of_single rfl _ _).trans hk
    | ⟨1, h1⟩ =>
      unfold DotDims.rhsIdx
      rw [dif_neg (List.not_mem_nil : ¬(⟨1, h1⟩ : Fin 2) ∈ (dims wf).rhsBatch),
        dif_pos (List.mem_singleton.mpr rfl : (⟨1, h1⟩ : Fin 2) ∈ (dims wf).rhsNonContracting)]
      rfl)
  rw [el, er]

end Idealize.ShloMosaic.PlainMatmul

end
-- ==== Proof.LibMatmulNT.lean ====
/-
  A matrix product against a transposed right operand, read at an entry.

  At the exact (extended-real) instance, the matrix unit's product of an [M, K] left operand with an [N, K] right operand,
  both contracted along their second axis, accumulated into zero, is at row `p` and column `q` the sum over `k` of
  `lhs(p, k) · rhs(q, k)`: the textbook `lhs · rhsᵀ`. For any extents, any operand formats, and any witness of the dimension
  numbers' side conditions.
-/
import Idealize.ShloMosaic.PureOps.Ideal.Laws
import Idealize.ShloMosaic.Lib.ValueIdx
import Idealize.ShloMosaic.Lib.Pipeline.Value

noncomputable section

namespace Idealize.ShloMosaic.MatmulNT

open Idealize.ShloMosaic Idealize.ShloMosaic.ValueIdx

variable {M K N : Nat} {φ₁ φ₂ : FTy}

/-- The dimension numbers of `lhs · rhsᵀ`: rows × contraction by columns × contraction, for any witness of their side
    conditions. -/
abbrev dims (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ :=
  ⟨[1], [1], [0], [0], [], [], wf⟩

/-- Over the extended reals `lhs · rhsᵀ` into a zero accumulator is, at row `p` and column `q`, the sum over the contracted
    coordinate `k` of the left operand at `(p, k)` times the right operand at `(q, k)`. -/
theorem matmul_zero_apply (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    FloatOps.matmul (dims wf) prec lhs rhs (constant ⟨2, ![M, N]⟩ .f32 0x00000000#32) (ix2 p q)
      = ∑ k : Fin K, lhs (ix2 p k) * rhs (ix2 q k) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, h0⟩ =>
      unfold DotDims.lhsIdx
      rw [dif_neg (List.not_mem_nil : ¬(⟨0, h0⟩ : Fin 2) ∈ (dims wf).lhsBatch),
        dif_pos (List.mem_singleton.mpr rfl : (⟨0, h0⟩ : Fin 2) ∈ (dims wf).lhsNonContracting)]
      rfl
    | ⟨1, _⟩ => exact ((dims wf).lhsIdx_val_of_single rfl _ _).trans hk)
  have er : (dims wf).rhsIdx (ix2 p q) ((contrEquiv1 (dims wf) K rfl rfl).symm k) = ix2 q k := funext fun a => Fin.ext (by
    match a with
    | ⟨0, h0⟩ =>
      unfold DotDims.rhsIdx
      rw [dif_neg (List.not_mem_nil : ¬(⟨0, h0⟩ : Fin 2) ∈ (dims wf).rhsBatch),
        dif_pos (List.mem_singleton.mpr rfl : (⟨0, h0⟩ : Fin 2) ∈ (dims wf).rhsNonContracting)]
      rfl
    | ⟨1, _⟩ => exact ((dims wf).rhsIdx_val_of_single rfl _ _).trans hk)
  rw [el, er]

end Idealize.ShloMosaic.MatmulNT

end
-- ==== Proof.LibPlainDot.lean ====
/-
  A plain matrix product on the host, read at an index over the extended reals.
-/
import Idealize.ShloMosaic.PureOps.Ideal.Laws
import Idealize.ShloMosaic.Lib.ValueIdx
import Idealize.ShloMosaic.Lib.Pipeline.Value

noncomputable section

namespace Idealize.ShloMosaic.PlainDot

open Idealize.ShloMosaic Idealize.ShloMosaic.ValueIdx

variable {M K N : Nat} {φ₁ φ₂ : FTy}

/-- The dimension numbers of a plain matrix product, rows × contraction by contraction × columns, for any witness of their
    side conditions. -/
abbrev dims (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

/-- Over the extended reals the host's plain matrix product is, at row `p` and column `q`, the sum over the contracted
    coordinate `k` of the left operand at `(p, k)` times the right operand at `(k, q)`, whatever the precision. -/
theorem dotGeneral_apply (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (dims wf) prec lhs rhs (ix2 p q) = ∑ k : Fin K, lhs (ix2 p k) * rhs (ix2 k q) := by
  simp only [Host.dotGeneral]
  rw [Ideal.dotGeneral_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, h0⟩ =>
      unfold DotDims.lhsIdx
      rw [dif_neg (List.not_mem_nil : ¬(⟨0, h0⟩ : Fin 2) ∈ (dims wf).lhsBatch),
        dif_pos (List.mem_singleton.mpr rfl : (⟨0, h0⟩ : Fin 2) ∈ (dims wf).lhsNonContracting)]
      rfl
    | ⟨1, _⟩ => exact ((dims wf).lhsIdx_val_of_single rfl _ _).trans hk)
  have er : (dims wf).rhsIdx (ix2 p q) ((contrEquiv1 (dims wf) K rfl rfl).symm k) = ix2 k q := funext fun a => Fin.ext (by
    match a with
    | ⟨0, _⟩ => exact ((dims wf).rhsIdx_val_of_single rfl _ _).trans hk
    | ⟨1, h1⟩ =>
      unfold DotDims.rhsIdx
      rw [dif_neg (List.not_mem_nil : ¬(⟨1, h1⟩ : Fin 2) ∈ (dims wf).rhsBatch),
        dif_pos (List.mem_singleton.mpr rfl : (⟨1, h1⟩ : Fin 2) ∈ (dims wf).rhsNonContracting)]
      rfl)
  rw [el, er]

end Idealize.ShloMosaic.PlainDot

end
-- ==== Proof.LibLayoutIx.lean ====
/-
  Layout operations of small literal ranks read at an index whose coordinates are named (ValueIdx's ix1, ix2, ix3):
  a scalar broadcast anywhere, a vector as a column or a row, a column or a row repeated, a transposition of two or
  three axes, a one-column array flattened, one column sliced out, two columns set side by side, three equal bands of
  columns set side by side.  Each is the library's read-at-an-index lemma with the operand's index chosen.
-/
import Idealize.ShloMosaic.Lib.Pipeline.Value
import Idealize.ShloMosaic.Lib.ValueIdx

noncomputable section

namespace Idealize.ShloMosaic.LayoutIx

open Idealize.ShloMosaic Idealize.ShloMosaic.ValueIdx

variable {α : Type}

/-- A scalar broadcast to any shape reads the scalar everywhere. -/
theorem bcast_scalar (t : Shape) (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector made a column: entry (n, k) is entry n. -/
theorem bcast_col {N : Nat} (dims : Fin 1 → Fin 2) (hd : dims 0 = 0)
    (h : (⟨1, ![N]⟩ : Shape).BroadcastsInDim ⟨2, ![N, 1]⟩ dims) (x : (⟨1, ![N]⟩ : Shape).Idx → α) (n : Fin N) (k : Fin 1) :
    broadcastInDim ⟨2, ![N, 1]⟩ dims h x (ix2 n k) = x (ix1 n) := by
  refine broadcastInDim_apply (s := ⟨1, ![N]⟩) (t := ⟨2, ![N, 1]⟩) dims h x (ix2 n k) (ix1 n) (fun a => ?_)
  obtain rfl : a = 0 := Subsingleton.elim _ _
  rw [hd]
  show n.val = if N = 1 then 0 else n.val
  split
  · have := n.isLt; omega
  · rfl

/-- A vector made a row: entry (k, n) is entry n. -/
theorem bcast_row {N : Nat} (dims : Fin 1 → Fin 2) (hd : dims 0 = 1)
    (h : (⟨1, ![N]⟩ : Shape).BroadcastsInDim ⟨2, ![1, N]⟩ dims) (x : (⟨1, ![N]⟩ : Shape).Idx → α) (n : Fin N) (k : Fin 1) :
    broadcastInDim ⟨2, ![1, N]⟩ dims h x (ix2 k n) = x (ix1 n) := by
  refine broadcastInDim_apply (s := ⟨1, ![N]⟩) (t := ⟨2, ![1, N]⟩) dims h x (ix2 k n) (ix1 n) (fun a => ?_)
  obtain rfl : a = 0 := Subsingleton.elim _ _
  rw [hd]
  show n.val = if N = 1 then 0 else n.val
  split
  · have := n.isLt; omega
  · rfl

/-- A row repeated down C rows: entry (c, n) is entry (0, n). -/
theorem bcast_rows {C N : Nat} (dims : Fin 2 → Fin 2) (hd0 : dims 0 = 0) (hd1 : dims 1 = 1)
    (h : (⟨2, ![1, N]⟩ : Shape).BroadcastsInDim ⟨2, ![C, N]⟩ dims) (x : (⟨2, ![1, N]⟩ : Shape).Idx → α) (c : Fin C) (n : Fin N) :
    broadcastInDim ⟨2, ![C, N]⟩ dims h x (ix2 c n) = x (ix2 (0 : Fin 1) n) := by
  refine broadcastInDim_apply (s := ⟨2, ![1, N]⟩) (t := ⟨2, ![C, N]⟩) dims h x (ix2 c n) (ix2 (0 : Fin 1) n) (fun a => ?_)
  match a with
  | ⟨0, _⟩ =>
    show (0 : Nat) = if (1 : Nat) = 1 then 0 else _
    rw [if_pos rfl]
  | ⟨1, _⟩ =>
    show n.val = if N = 1 then 0 else ((ix2 c n) (dims 1)).val
    rw [hd1]
    split
    · have := n.isLt; omega
    · rfl

/-- A column repeated across C columns: entry (n, c) is entry (n, 0). -/
theorem bcast_cols {N C : Nat} (dims : Fin 2 → Fin 2) (hd0 : dims 0 = 0) (hd1 : dims 1 = 1)
    (h : (⟨2, ![N, 1]⟩ : Shape).BroadcastsInDim ⟨2, ![N, C]⟩ dims) (x : (⟨2, ![N, 1]⟩ : Shape).Idx → α) (n : Fin N) (c : Fin C) :
    broadcastInDim ⟨2, ![N, C]⟩ dims h x (ix2 n c) = x (ix2 n (0 : Fin 1)) := by
  refine broadcastInDim_apply (s := ⟨2, ![N, 1]⟩) (t := ⟨2, ![N, C]⟩) dims h x (ix2 n c) (ix2 n (0 : Fin 1)) (fun a => ?_)
  match a with
  | ⟨0, _⟩ =>
    show n.val = if N = 1 then 0 else ((ix2 n c) (dims 0)).val
    rw [hd0]
    split
    · have := n.isLt; omega
    · rfl
  | ⟨1, _⟩ =>
    show (0 : Nat) = if (1 : Nat) = 1 then 0 else _
    rw [if_pos rfl]

/-- Two axes exchanged: entry (n, c) of the result is entry (c, n). -/
theorem transpose_two {C N : Nat} (h : (⟨2, ![C, N]⟩ : Shape).Transposes [1, 0] ⟨2, ![N, C]⟩)
    (x : (⟨2, ![C, N]⟩ : Shape).Idx → α) (n : Fin N) (c : Fin C) :
    transpose ⟨2, ![N, C]⟩ [1, 0] x h (ix2 n c) = x (ix2 c n) := by
  refine transpose_apply [1, 0] x h _ (ix2 c n) (fun b => ?_)
  match b with
  | ⟨0, _⟩ => rfl
  | ⟨1, _⟩ => rfl

/-- The first axis moved last: entry (h, w, c) of the result is entry (c, h, w). -/
theorem transpose_first_last {C H W : Nat} (h : (⟨3, ![C, H, W]⟩ : Shape).Transposes [1, 2, 0] ⟨3, ![H, W, C]⟩)
    (x : (⟨3, ![C, H, W]⟩ : Shape).Idx → α) (a : Fin H) (b : Fin W) (c : Fin C) :
    transpose ⟨3, ![H, W, C]⟩ [1, 2, 0] x h (ix3 a b c) = x (ix3 c a b) := by
  refine transpose_apply [1, 2, 0] x h _ (ix3 c a b) (fun d => ?_)
  match d with
  | ⟨0, _⟩ => rfl
  | ⟨1, _⟩ => rfl
  | ⟨2, _⟩ => rfl

/-- The same with the permutation a variable known to be the exchange (the form a rewriting pass can use). -/
theorem transpose_two' {C N : Nat} (perm : List (Fin 2)) (hp : perm = [1, 0])
    (h : (⟨2, ![C, N]⟩ : Shape).Transposes perm ⟨2, ![N, C]⟩)
    (x : (⟨2, ![C, N]⟩ : Shape).Idx → α) (n : Fin N) (c : Fin C) :
    transpose ⟨2, ![N, C]⟩ perm x h (ix2 n c) = x (ix2 c n) := by
  subst hp; exact transpose_two h x n c

/-- The same with the permutation a variable known to be the rotation. -/
theorem transpose_first_last' {C H W : Nat} (perm : List (Fin 3)) (hp : perm = [1, 2, 0])
    (h : (⟨3, ![C, H, W]⟩ : Shape).Transposes perm ⟨3, ![H, W, C]⟩)
    (x : (⟨3, ![C, H, W]⟩ : Shape).Idx → α) (a : Fin H) (b : Fin W) (c : Fin C) :
    transpose ⟨3, ![H, W, C]⟩ perm x h (ix3 a b c) = x (ix3 c a b) := by
  subst hp; exact transpose_first_last h x a b c

/-- A one-column array flattened: entry n is entry (n, 0). -/
theorem flatten_col {N : Nat} (h : (⟨2, ![N, 1]⟩ : Shape).ShapeCasts ⟨1, ![N]⟩)
    (x : (⟨2, ![N, 1]⟩ : Shape).Idx → α) (n : Fin N) :
    shapeCast ⟨1, ![N]⟩ x h (ix1 n) = x (ix2 n (0 : Fin 1)) := by
  refine shapeCast_apply x h _ (ix2 n (0 : Fin 1)) ?_
  rw [Shape.rowMajor_val_two, Shape.rowMajor_val_one]
  show n.val * 1 + 0 = n.val
  omega

/-- One column sliced out of K: entry (n, 0) of the slice at column offset o is entry (n, o). -/
theorem slice_col {N K : Nat} (off : Fin 2 → Nat) (o : Fin K) (h0 : off 0 = 0) (h1 : off 1 = o.val)
    (h : (⟨2, ![N, K]⟩ : Shape).Slices off ⟨2, ![N, 1]⟩) (x : (⟨2, ![N, K]⟩ : Shape).Idx → α) (n : Fin N) (k : Fin 1) :
    extractStridedSlice ⟨2, ![N, 1]⟩ off x h (ix2 n k) = x (ix2 n o) := by
  refine extractStridedSlice_apply off x h _ (ix2 n o) (fun a => ?_)
  match a with
  | ⟨0, _⟩ => show n.val = off 0 + n.val; omega
  | ⟨1, _⟩ => show o.val = off 1 + k.val; have := k.isLt; omega

/-- Two one-column arrays set side by side: column 0 is the first ... -/
theorem concat_cols_left {N : Nat}
    (h : Shape.Concatenates [(⟨2, ![N, 1]⟩ : Shape), ⟨2, ![N, 1]⟩] ⟨2, ![N, 2]⟩ 1)
    (a b : (⟨2, ![N, 1]⟩ : Shape).Idx → α) (n : Fin N) :
    concatenate ⟨2, ![N, 2]⟩ 1 [⟨⟨2, ![N, 1]⟩, a⟩, ⟨⟨2, ![N, 1]⟩, b⟩] h (ix2 n (0 : Fin 2)) = a (ix2 n (0 : Fin 1)) := by
  refine concatenate_pair_apply_left (t := ⟨2, ![N, 2]⟩) (s₁ := ⟨2, ![N, 1]⟩) (s₂ := ⟨2, ![N, 1]⟩) 1 a b h (ix2 n (0 : Fin 2)) rfl
    (ix2 n (0 : Fin 1)) (fun d => ?_)
  match d with
  | ⟨0, _⟩ => rfl
  | ⟨1, _⟩ => rfl

/-- ... and column 1 is the second. -/
theorem concat_cols_right {N : Nat}
    (h : Shape.Concatenates [(⟨2, ![N, 1]⟩ : Shape), ⟨2, ![N, 1]⟩] ⟨2, ![N, 2]⟩ 1)
    (a b : (⟨2, ![N, 1]⟩ : Shape).Idx → α) (n : Fin N) :
    concatenate ⟨2, ![N, 2]⟩ 1 [⟨⟨2, ![N, 1]⟩, a⟩, ⟨⟨2, ![N, 1]⟩, b⟩] h (ix2 n (1 : Fin 2)) = b (ix2 n (0 : Fin 1)) := by
  refine concatenate_pair_apply_right (t := ⟨2, ![N, 2]⟩) (s₁ := ⟨2, ![N, 1]⟩) (s₂ := ⟨2, ![N, 1]⟩) 1 a b h (ix2 n (1 : Fin 2)) rfl rfl
    (ix2 n (0 : Fin 1)) (fun d hd => ?_) rfl
  match d with
  | ⟨0, _⟩ => rfl
  | ⟨1, _⟩ => exact absurd rfl hd

/-- Three arrays of K columns set side by side: column K q + k of the result is column k of the q-th. -/
theorem concat3_apply {N K M : Nat}
    (h : Shape.Concatenates [(⟨2, ![N, K]⟩ : Shape), ⟨2, ![N, K]⟩, ⟨2, ![N, K]⟩] ⟨2, ![N, M]⟩ 1)
    (a b c : (⟨2, ![N, K]⟩ : Shape).Idx → α) (n : Fin N) (j : Fin M) (q : Fin 3) (k : Fin K)
    (hj : j.val = K * q.val + k.val) :
    concatenate ⟨2, ![N, M]⟩ 1 [⟨⟨2, ![N, K]⟩, a⟩, ⟨⟨2, ![N, K]⟩, b⟩, ⟨⟨2, ![N, K]⟩, c⟩] h (ix2 n j)
      = (match q with | 0 => a | 1 => b | 2 => c) (ix2 n k) := by
  have hi : ∀ d : Fin 2, d.cast (rfl : (2 : Nat) = 2) ≠ (1 : Fin 2) → ((ix2 n k) d).val = ((ix2 n j) (d.cast rfl)).val := by
    intro d hd
    match d with
    | ⟨0, _⟩ => rfl
    | ⟨1, _⟩ => exact absurd rfl hd
  match q with
  | 0 =>
    refine concatenate_apply_piece (t := ⟨2, ![N, M]⟩) 1 [⟨⟨2, ![N, K]⟩, a⟩, ⟨⟨2, ![N, K]⟩, b⟩, ⟨⟨2, ![N, K]⟩, c⟩] h (ix2 n j) 0 (by show (0 : Nat) < 3; omega) ⟨2, ![N, K]⟩ a rfl rfl 0 rfl (ix2 n k) hi ?_
    show 0 + k.val = j.val
    simp at hj; omega
  | 1 =>
    refine concatenate_apply_piece (t := ⟨2, ![N, M]⟩) 1 [⟨⟨2, ![N, K]⟩, a⟩, ⟨⟨2, ![N, K]⟩, b⟩, ⟨⟨2, ![N, K]⟩, c⟩] h (ix2 n j) 1 (by show (1 : Nat) < 3; omega) ⟨2, ![N, K]⟩ b rfl rfl K (by simp) (ix2 n k) hi ?_
    show K + k.val = j.val
    simp at hj; omega
  | 2 =>
    refine concatenate_apply_piece (t := ⟨2, ![N, M]⟩) 1 [⟨⟨2, ![N, K]⟩, a⟩, ⟨⟨2, ![N, K]⟩, b⟩, ⟨⟨2, ![N, K]⟩, c⟩] h (ix2 n j) 2 (by show (2 : Nat) < 3; omega) ⟨2, ![N, K]⟩ c rfl rfl (K + K) (by simp) (ix2 n k) hi ?_
    show K + K + k.val = j.val
    simp at hj; omega

/-! ## The elementwise operations on words and the host's rounding, at an index (all by definition) -/

section Pointwise
variable {F : FTy → Type} [FloatOps F] {s : Shape} {φ : FTy} {w : Nat}

theorem cmpi_apply (p : CmpIPredicate) (a b : IVec s w) (i : s.Idx) : cmpi p a b i = IntOp.cmpi p (a i) (b i) := rfl
theorem addi_apply (a b : IVec s w) (i : s.Idx) : addi a b i = IntOp.addi (a i) (b i) := rfl
theorem minsi_apply (a b : IVec s w) (i : s.Idx) : minsi a b i = IntOp.minsi (a i) (b i) := rfl
theorem fptosi_apply (v : Nat) (a : FVec F s φ) (i : s.Idx) : fptosi v a i = FloatOps.fptosi v (a i) := rfl
theorem hostFloor_apply (a : FVec F s φ) (i : s.Idx) : Host.floor a i = FloatOps.hostUnary .floor (a i) := rfl
theorem constantI_apply (b : BitVec w) (i : s.Idx) : constantI s w b i = b := rfl

end Pointwise

end Idealize.ShloMosaic.LayoutIx

end
-- ==== Proof.LibRowReduce.lean ====
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.RowReduce

open Idealize.ShloMosaic Idealize.ShloMosaic.ValueIdx

variable {α : Type} {a b : Nat}

/-! ## A column kept as a unit axis -/

/-- A vector of length `a` cast to an `[a, 1]` column reads, at `(i, u)`, the vector at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast along the rows to `[a, b]` reads, at `(p, c)`, the column at row `p`. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a per-row value kept as a column and broadcast back over the row is, at `(p, c)`, the value of row `p`. -/
theorem keepdims_apply (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-! ## A reduction along the rows of a matrix -/

/-- The index of row `p` with the column `k` put back. -/
theorem lift_ix1 (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- Over the extended reals the sum along each row, at row `p`, is the sum of the row's entries. -/
theorem rowSum_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_ix1 h p k))

/-- Over the extended reals the maximum along each row, at row `p`, is the fold of `max` over the row's entries from the
    value the reduction starts at. -/
theorem rowMax_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans
    (congrArg (Finset.fold max (FloatOps.ofBits φ acc) · (Finset.univ : Finset (Fin b)))
      (funext fun k => congrArg src (lift_ix1 h p k)))

end Idealize.ShloMosaic.RowReduce

end
-- ==== Proof.Stages.lean ====
/-
  The arithmetic stages of the two programs, read at an entry over the extended reals.

  The device side computes, per block of 1024 rows, a matrix product whose every row is then scaled by that row's
  entry of a norm column, and a product of a block of rows against the transpose of another block of rows. The host
  side computes the same products on all 12288 rows at once. Each lemma below says what one such stage is at row and
  column: a finite sum of products, possibly times the row's norm.
-/
import proofs.«157120_j31018253811968_1_alg».proof.Proof.Gen.KernelIdeal.Skeleton
import proofs.«157120_j31018253811968_1_alg».proof.ReferenceIdeal
import Idealize.ShloMosaic.PureOps.Ideal.Laws
import Idealize.ShloMosaic.Lib.ValueIdx
import Idealize.ShloMosaic.Lib.Pipeline.Value
import proofs.«157120_j31018253811968_1_alg».proof.Proof.LibPlainMatmul
import proofs.«157120_j31018253811968_1_alg».proof.Proof.LibMatmulNT
import proofs.«157120_j31018253811968_1_alg».proof.Proof.LibPlainDot
import proofs.«157120_j31018253811968_1_alg».proof.Proof.LibLayoutIx
import proofs.«157120_j31018253811968_1_alg».proof.Proof.LibRowReduce

noncomputable section

namespace Cert.Stages

open Idealize.ShloMosaic Idealize.ShloMosaic.ValueIdx

/-! ## The device side: one block of 1024 rows -/

/-- Entry (p, q) of the first layer's block: the product of the block's 256 features with the weights, scaled by the
    norm of row p. -/
theorem pay0_apply (x0 : Vec Ideal Cert.KernelIdeal.S1024x256 .f32) (x1 : Vec Ideal Cert.KernelIdeal.S256x128 .f32)
    (x2 : Vec Ideal Cert.KernelIdeal.S1024x1 .f32) (p : Fin 1024) (q : Fin 128) :
    Cert.KernelIdeal.Gen.k0_pay1 (F := Ideal) x0 x1 x2 (ix2 p q)
      = (∑ k : Fin 256, x0 (ix2 p k) * x1 (ix2 k q)) * x2 (ix2 p (0 : Fin 1)) := by
  unfold Cert.KernelIdeal.Gen.k0_pay1
  refine (mulf_apply _ _ _).trans ?_
  refine congrArg₂ (· * ·) ?_ ?_
  · exact PlainMatmul.matmul_zero_apply _ none x0 x1 p q
  · refine (RowReduce.broadcastTo_a1_ab_apply _ _ p q).trans ?_
    rw [shapeCast_self]

/-- Entry (p, q) of a second-layer block: the product of the block's 128 hidden features with the weights, scaled by
    the norm of row p. -/
theorem pay1_apply (x0 : Vec Ideal Cert.KernelIdeal.S1024x128 .f32) (x1 : Vec Ideal Cert.KernelIdeal.S128x64 .f32)
    (x2 : Vec Ideal Cert.KernelIdeal.S1024x1 .f32) (p : Fin 1024) (q : Fin 64) :
    Cert.KernelIdeal.Gen.k1_pay1 (F := Ideal) x0 x1 x2 (ix2 p q)
      = (∑ k : Fin 128, x0 (ix2 p k) * x1 (ix2 k q)) * x2 (ix2 p (0 : Fin 1)) := by
  unfold Cert.KernelIdeal.Gen.k1_pay1
  refine (mulf_apply _ _ _).trans ?_
  refine congrArg₂ (· * ·) ?_ ?_
  · refine (PlainMatmul.matmul_zero_apply _ none _ x1 p q).trans ?_
    rw [shapeCast_self]
  · refine (RowReduce.broadcastTo_a1_ab_apply _ _ p q).trans ?_
    rw [shapeCast_self]

/-- The same entry of the other second-layer block (the second head has the same shape of computation). -/
theorem pay2_apply (x0 : Vec Ideal Cert.KernelIdeal.S1024x128 .f32) (x1 : Vec Ideal Cert.KernelIdeal.S128x64 .f32)
    (x2 : Vec Ideal Cert.KernelIdeal.S1024x1 .f32) (p : Fin 1024) (q : Fin 64) :
    Cert.KernelIdeal.Gen.k2_pay1 (F := Ideal) x0 x1 x2 (ix2 p q)
      = (∑ k : Fin 128, x0 (ix2 p k) * x1 (ix2 k q)) * x2 (ix2 p (0 : Fin 1)) := by
  unfold Cert.KernelIdeal.Gen.k2_pay1
  refine (mulf_apply _ _ _).trans ?_
  refine congrArg₂ (· * ·) ?_ ?_
  · refine (PlainMatmul.matmul_zero_apply _ none _ x1 p q).trans ?_
    rw [shapeCast_self]
  · refine (RowReduce.broadcastTo_a1_ab_apply _ _ p q).trans ?_
    rw [shapeCast_self]

/-- Entry (p, q) of a block of the decoder: the inner product of row p of one block of embeddings with row q of the
    other. -/
theorem pay3_apply (x0 x1 : Vec Ideal Cert.KernelIdeal.S1024x64 .f32) (p q : Fin 1024) :
    Cert.KernelIdeal.Gen.k3_pay1 (F := Ideal) x0 x1 (ix2 p q) = ∑ k : Fin 64, x0 (ix2 p k) * x1 (ix2 q k) := by
  unfold Cert.KernelIdeal.Gen.k3_pay1
  refine (MatmulNT.matmul_zero_apply _ none _ _ p q).trans ?_
  rw [shapeCast_self, shapeCast_self]

/-! ## The host side: all 12288 rows at once -/

section Host

variable [Cert.ReferenceIdeal.Facts]

open Cert.ReferenceIdeal.Facts₀ in
/-- Entry (i, j) of the first layer on the host: the product of the 256 features with the weights, scaled by the norm
    of row i. -/
theorem ref_mm0_apply (a : FVec Ideal Cert.ReferenceIdeal.S12288x256 .f32) (b : FVec Ideal Cert.ReferenceIdeal.S256x128 .f32)
    (n : FVec Ideal Cert.ReferenceIdeal.S12288x1 .f32) (i : Fin 12288) (j : Fin 128) :
    mulf (Host.dotGeneral (F := Ideal) Cert.ReferenceIdeal.dot_S12288x256_S256x128_S12288x128_1_0_0_1_n_n none a b)
        (broadcastInDim Cert.ReferenceIdeal.S12288x128 ![0, 1] bcast_S12288x1_S12288x128_0_1 n) (ix2 i j)
      = (∑ k : Fin 256, a (ix2 i k) * b (ix2 k j)) * n (ix2 i (0 : Fin 1)) := by
  refine (mulf_apply _ _ _).trans ?_
  refine congrArg₂ (· * ·) ?_ ?_
  · exact PlainDot.dotGeneral_apply _ none a b i j
  · exact LayoutIx.bcast_cols _ rfl rfl _ n i j

open Cert.ReferenceIdeal.Facts₀ in
/-- Entry (i, j) of a second-layer product on the host: the product of the 128 hidden features with the weights,
    scaled by the norm of row i. -/
theorem ref_mm1_apply (a : FVec Ideal Cert.ReferenceIdeal.S12288x128 .f32) (b : FVec Ideal Cert.ReferenceIdeal.S128x64 .f32)
    (n : FVec Ideal Cert.ReferenceIdeal.S12288x1 .f32) (i : Fin 12288) (j : Fin 64) :
    mulf (Host.dotGeneral (F := Ideal) Cert.ReferenceIdeal.dot_S12288x128_S128x64_S12288x64_1_0_0_1_n_n none a b)
        (broadcastInDim Cert.ReferenceIdeal.S12288x64 ![0, 1] bcast_S12288x1_S12288x64_0_1 n) (ix2 i j)
      = (∑ k : Fin 128, a (ix2 i k) * b (ix2 k j)) * n (ix2 i (0 : Fin 1)) := by
  refine (mulf_apply _ _ _).trans ?_
  refine congrArg₂ (· * ·) ?_ ?_
  · exact PlainDot.dotGeneral_apply _ none a b i j
  · exact LayoutIx.bcast_cols _ rfl rfl _ n i j

open Cert.ReferenceIdeal.Facts₀ in
/-- Entry (i, j) of the decoder on the host: the embeddings times their own transpose is the inner product of rows i
    and j. -/
theorem ref_zzt_apply (z : FVec Ideal Cert.ReferenceIdeal.S12288x64 .f32) (i j : Fin 12288) :
    Host.dotGeneral (F := Ideal) Cert.ReferenceIdeal.dot_S12288x64_S64x12288_S12288x12288_1_0_0_1_n_n none z
        (transpose Cert.ReferenceIdeal.S64x12288 [1, 0] z transposes_S12288x64_S64x12288_1_0) (ix2 i j)
      = ∑ k : Fin 64, z (ix2 i k) * z (ix2 j k) := by
  refine (PlainDot.dotGeneral_apply _ none z _ i j).trans ?_
  exact Finset.sum_congr rfl fun k _ => congrArg (z (ix2 i k) * ·) (LayoutIx.transpose_two _ z k j)

end Host

end Cert.Stages

end
-- ==== Proof.KI.Final0.lean ====
/-
  Kernel call 0 of the program over the extended reals, from blocks to the array: after all 12 write-backs the result array is one
  function of the three operand arrays. Entry (i, j) is row i of the left operand times column j of the right operand,
  scaled by entry i of the norm column. Point t of the grid writes rows 1024 t … 1024 t + 1023, computed from the same
  rows of the left operand and of the norm column and from the whole right operand; the 12 row blocks tile the array.
-/
import proofs.«157120_j31018253811968_1_alg».proof.Proof.KI.Reg0
import proofs.«157120_j31018253811968_1_alg».proof.Proof.Stages
import Idealize.ShloMosaic.Lib.Pipeline.Value
import Idealize.ShloMosaic.Lib.ValueIdx

noncomputable section

namespace Cert.KernelIdeal.GenH

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- Entry (i, j): the i-th row of \`a\` times the j-th column of \`b\`, scaled by the i-th entry of the norm column. -/
def mmn0 (a : Vec Ideal S12288x256 .f32) (b : Vec Ideal S256x128 .f32) (n : Vec Ideal S12288x1 .f32) : Vec Ideal S12288x128 .f32 :=
  fun i => (∑ k : Fin 256, a (ix2 (i 0) k) * b (ix2 k (i 1))) * n (ix2 (i 0) (0 : Fin 1))

theorem mmn0_apply (a : Vec Ideal S12288x256 .f32) (b : Vec Ideal S256x128 .f32) (n : Vec Ideal S12288x1 .f32) (p : Fin 12288) (q : Fin 128) :
    mmn0 a b n (ix2 p q) = (∑ k : Fin 256, a (ix2 p k) * b (ix2 k q)) * n (ix2 p (0 : Fin 1)) := rfl

theorem zero_offsets0 : (![0, 0] : Fin 2 → Nat) = fun _ => 0 := funext fun a => by fin_cases a <;> rfl

/-- The body's one whole-block store leaves the scaled product of its three whole-block loads. -/
theorem out0_3_eq (x0 : Vec Ideal S1024x256 .f32) (x1 : Vec Ideal S256x128 .f32) (x2 : Vec Ideal S1024x1 .f32) :
    out0_3 (F := Ideal) x0 x1 x2 = k0_pay1 x0 x1 x2 := by
  unfold out0_3
  rw [View.canon_unit_zero zero_offsets0]
  simp only [View.ld_unit_zero (S := S1024x256) zero_offsets0, View.ld_unit_zero (S := S256x128) zero_offsets0,
    View.ld_unit_zero (S := S1024x1) zero_offsets0]

/-- The block indices over the grid: the left operand, the norm column and the result move down one block of rows per
    point; the right operand stays whole. -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point \`t\` writes back is block \`t\` of the whole-array product. -/
theorem flushed0_eq (c : Dev nD) (t : Fin cfg0.N) :
    (dat0 (F := Ideal) V c).flushed 3 t
      = ((cfg0.win 3).blk t).view.read (Elt Ideal) (mmn0 (V c main_arg0) (V c main_arg1) (V c main_v12)) := by
  show (cfg0.win 3).cut (grid0.coords t) ((dat0 V c).after 3 t) = _
  rw [after0_3, out0_3_eq]
  obtain ⟨e00, e01, e10, e11, e20, e21, e30, e31⟩ := block_indices0 t
  funext j
  have hp : (j 0).val < 1024 := (j 0).isLt
  have hq : (j 1).val < 128 := (j 1).isLt
  have hj : (cfg0.win 3).xinj (grid0.coords t) j = ix2 (⟨(j 0).val, hp⟩ : Fin 1024) (⟨(j 1).val, hq⟩ : Fin 128) :=
    funext fun a => by match a with | ⟨0, _⟩ => rfl | ⟨1, _⟩ => rfl
  refine (congrArg (k0_pay1 (iblk0 V c 0 t) (iblk0 V c 1 t) (iblk0 V c 2 t)) hj).trans ?_
  refine (Cert.Stages.pay0_apply _ _ _ _ _).trans ?_
  refine congrArg₂ (· * ·) (Finset.sum_congr rfl fun k _ => congrArg₂ (· * ·) ?_ ?_) ?_
  · show V c main_arg0 (((cfg0.win 0).blk t).view.emb (ix2 (⟨(j 0).val, hp⟩ : Fin 1024) k)) = V c main_arg0 _
    refine congrArg (V c main_arg0) (funext fun a => Fin.ext ?_)
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 256 + 1 * k.val = k.val; omega
  · show V c main_arg1 (((cfg0.win 1).blk t).view.emb (ix2 k (⟨(j 1).val, hq⟩ : Fin 128))) = V c main_arg1 _
    refine congrArg (V c main_arg1) (funext fun a => Fin.ext ?_)
    match a with
    | ⟨0, _⟩ => show win0_1.index t (0 : Fin 2) * 256 + 1 * k.val = k.val; omega
    | ⟨1, _⟩ => show win0_1.index t (1 : Fin 2) * 128 + 1 * (j 1).val = win0_3.index t (1 : Fin 2) * 128 + 1 * (j 1).val; omega
  · show V c main_v12 (((cfg0.win 2).blk t).view.emb (ix2 (⟨(j 0).val, hp⟩ : Fin 1024) (0 : Fin 1))) = V c main_v12 _
    refine congrArg (V c main_v12) (funext fun a => Fin.ext ?_)
    match a with
    | ⟨0, _⟩ => show win0_2.index t (0 : Fin 2) * 1024 + 1 * (j 0).val = win0_3.index t (0 : Fin 2) * 1024 + 1 * (j 0).val; omega
    | ⟨1, _⟩ => show win0_2.index t (1 : Fin 2) * 1 + 1 * 0 = 0; omega

/-- An index of the result array is in point \`t\`'s block iff each coordinate is in the block's range on its axis. -/
theorem mem_block0 (t : Fin cfg0.N) (i : S12288x128.Idx) :
    i ∈ ((cfg0.win 3).blk t).view.set
      ↔ ∀ a : Fin 2, win0_3.index t a * S1024x128.size a ≤ (i a).val ∧ (i a).val < win0_3.index t a * S1024x128.size a + S1024x128.size a := by
  show i ∈ ((View.whole main_v13).slice (win0_3.rect t)).set ↔ _
  rw [View.set_slice_whole, Rect.mem_set_unit]
  exact Iff.rfl

/-- Row r of the result is written back by point r / 1024: the 12 blocks of rows tile the array. -/
theorem cover0 (i : S12288x128.Idx) :
    ∃ t : Fin cfg0.N, (cfg0.win 3).flush t = true ∧ i ∈ ((cfg0.win 3).blk t).view.set := by
  have hN : grid0.N = 12 := N_0
  have hi0 : (i 0).val < 12288 := (i 0).isLt
  have hi1 : (i 1).val < 128 := (i 1).isLt
  have ht : (i 0).val / 1024 < cfg0.N := by show (i 0).val / 1024 < grid0.N; omega
  obtain ⟨-, -, -, -, -, -, e30, e31⟩ := block_indices0 ⟨(i 0).val / 1024, ht⟩
  refine ⟨⟨(i 0).val / 1024, ht⟩, flush0_3 _, ?_⟩
  rw [mem_block0]
  intro a
  match a with
  | ⟨0, _⟩ =>
    show win0_3.index ⟨(i 0).val / 1024, ht⟩ (0 : Fin 2) * 1024 ≤ (i 0).val
      ∧ (i 0).val < win0_3.index ⟨(i 0).val / 1024, ht⟩ (0 : Fin 2) * 1024 + 1024
    rw [e30]; show (i 0).val / 1024 * 1024 ≤ (i 0).val ∧ (i 0).val < (i 0).val / 1024 * 1024 + 1024; omega
  | ⟨1, _⟩ =>
    show win0_3.index ⟨(i 0).val / 1024, ht⟩ (1 : Fin 2) * 128 ≤ (i 1).val
      ∧ (i 1).val < win0_3.index ⟨(i 0).val / 1024, ht⟩ (1 : Fin 2) * 128 + 128
    rw [e31]; omega

/-- The result array after the run: the whole-array scaled product of the operand arrays as the call finds them. -/
theorem final0 (c : Dev nD) :
    (dat0 (F := Ideal) V c).arrAt 3 cfg0.N = mmn0 (V c main_arg0) (V c main_arg1) (V c main_v12) :=
  (dat0 (F := Ideal) V c).arrAt_eq_of_cover 3 (mmn0 (V c main_arg0) (V c main_arg1) (V c main_v12))
    (fun t _ => flushed0_eq V c t) (cover0)

end Cert.KernelIdeal.GenH

end
-- ==== Proof.KI.Final1.lean ====
/-
  Kernel call 1 of the program over the extended reals, from blocks to the array: after all 12 write-backs the result array is one
  function of the three operand arrays. Entry (i, j) is row i of the left operand times column j of the right operand,
  scaled by entry i of the norm column. Point t of the grid writes rows 1024 t … 1024 t + 1023, computed from the same
  rows of the left operand and of the norm column and from the whole right operand; the 12 row blocks tile the array.
-/
import proofs.«157120_j31018253811968_1_alg».proof.Proof.KI.Reg1
import proofs.«157120_j31018253811968_1_alg».proof.Proof.Stages
import Idealize.ShloMosaic.Lib.Pipeline.Value
import Idealize.ShloMosaic.Lib.ValueIdx

noncomputable section

namespace Cert.KernelIdeal.GenH

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- Entry (i, j): the i-th row of \`a\` times the j-th column of \`b\`, scaled by the i-th entry of the norm column. -/
def mmn1 (a : Vec Ideal S12288x128 .f32) (b : Vec Ideal S128x64 .f32) (n : Vec Ideal S12288x1 .f32) : Vec Ideal S12288x64 .f32 :=
  fun i => (∑ k : Fin 128, a (ix2 (i 0) k) * b (ix2 k (i 1))) * n (ix2 (i 0) (0 : Fin 1))

theorem mmn1_apply (a : Vec Ideal S12288x128 .f32) (b : Vec Ideal S128x64 .f32) (n : Vec Ideal S12288x1 .f32) (p : Fin 12288) (q : Fin 64) :
    mmn1 a b n (ix2 p q) = (∑ k : Fin 128, a (ix2 p k) * b (ix2 k q)) * n (ix2 p (0 : Fin 1)) := rfl

theorem zero_offsets1 : (![0, 0] : Fin 2 → Nat) = fun _ => 0 := funext fun a => by fin_cases a <;> rfl

/-- The body's one whole-block store leaves the scaled product of its three whole-block loads. -/
theorem out1_3_eq (x0 : Vec Ideal S1024x128 .f32) (x1 : Vec Ideal S128x64 .f32) (x2 : Vec Ideal S1024x1 .f32) :
    out1_3 (F := Ideal) x0 x1 x2 = k1_pay1 x0 x1 x2 := by
  unfold out1_3
  rw [View.canon_unit_zero zero_offsets1]
  simp only [View.ld_unit_zero (S := S1024x128) zero_offsets1, View.ld_unit_zero (S := S128x64) zero_offsets1,
    View.ld_unit_zero (S := S1024x1) zero_offsets1]

/-- The block indices over the grid: the left operand, the norm column and the result move down one block of rows per
    point; the right operand stays whole. -/
theorem block_indices1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point \`t\` writes back is block \`t\` of the whole-array product. -/
theorem flushed1_eq (c : Dev nD) (t : Fin cfg1.N) :
    (dat1 (F := Ideal) V c).flushed 3 t
      = ((cfg1.win 3).blk t).view.read (Elt Ideal) (mmn1 (V c main_v25) (V c main_arg2) (V c main_v12)) := by
  show (cfg1.win 3).cut (grid1.coords t) ((dat1 V c).after 3 t) = _
  rw [after1_3, out1_3_eq]
  obtain ⟨e00, e01, e10, e11, e20, e21, e30, e31⟩ := block_indices1 t
  funext j
  have hp : (j 0).val < 1024 := (j 0).isLt
  have hq : (j 1).val < 64 := (j 1).isLt
  have hj : (cfg1.win 3).xinj (grid1.coords t) j = ix2 (⟨(j 0).val, hp⟩ : Fin 1024) (⟨(j 1).val, hq⟩ : Fin 64) :=
    funext fun a => by match a with | ⟨0, _⟩ => rfl | ⟨1, _⟩ => rfl
  refine (congrArg (k1_pay1 (iblk1 V c 0 t) (iblk1 V c 1 t) (iblk1 V c 2 t)) hj).trans ?_
  refine (Cert.Stages.pay1_apply _ _ _ _ _).trans ?_
  refine congrArg₂ (· * ·) (Finset.sum_congr rfl fun k _ => congrArg₂ (· * ·) ?_ ?_) ?_
  · show V c main_v25 (((cfg1.win 0).blk t).view.emb (ix2 (⟨(j 0).val, hp⟩ : Fin 1024) k)) = V c main_v25 _
    refine congrArg (V c main_v25) (funext fun a => Fin.ext ?_)
    match a with
    | ⟨0, _⟩ => show win1_0.index t (0 : Fin 2) * 1024 + 1 * (j 0).val = win1_3.index t (0 : Fin 2) * 1024 + 1 * (j 0).val; omega
    | ⟨1, _⟩ => show win1_0.index t (1 : Fin 2) * 128 + 1 * k.val = k.val; omega
  · show V c main_arg2 (((cfg1.win 1).blk t).view.emb (ix2 k (⟨(j 1).val, hq⟩ : Fin 64))) = V c main_arg2 _
    refine congrArg (V c main_arg2) (funext fun a => Fin.ext ?_)
    match a with
    | ⟨0, _⟩ => show win1_1.index t (0 : Fin 2) * 128 + 1 * k.val = k.val; omega
    | ⟨1, _⟩ => show win1_1.index t (1 : Fin 2) * 64 + 1 * (j 1).val = win1_3.index t (1 : Fin 2) * 64 + 1 * (j 1).val; omega
  · show V c main_v12 (((cfg1.win 2).blk t).view.emb (ix2 (⟨(j 0).val, hp⟩ : Fin 1024) (0 : Fin 1))) = V c main_v12 _
    refine congrArg (V c main_v12) (funext fun a => Fin.ext ?_)
    match a with
    | ⟨0, _⟩ => show win1_2.index t (0 : Fin 2) * 1024 + 1 * (j 0).val = win1_3.index t (0 : Fin 2) * 1024 + 1 * (j 0).val; omega
    | ⟨1, _⟩ => show win1_2.index t (1 : Fin 2) * 1 + 1 * 0 = 0; omega

/-- An index of the result array is in point \`t\`'s block iff each coordinate is in the block's range on its axis. -/
theorem mem_block1 (t : Fin cfg1.N) (i : S12288x64.Idx) :
    i ∈ ((cfg1.win 3).blk t).view.set
      ↔ ∀ a : Fin 2, win1_3.index t a * S1024x64.size a ≤ (i a).val ∧ (i a).val < win1_3.index t a * S1024x64.size a + S1024x64.size a := by
  show i ∈ ((View.whole main_v26).slice (win1_3.rect t)).set ↔ _
  rw [View.set_slice_whole, Rect.mem_set_unit]
  exact Iff.rfl

/-- Row r of the result is written back by point r / 1024: the 12 blocks of rows tile the array. -/
theorem cover1 (i : S12288x64.Idx) :
    ∃ t : Fin cfg1.N, (cfg1.win 3).flush t = true ∧ i ∈ ((cfg1.win 3).blk t).view.set := by
  have hN : grid1.N = 12 := N_1
  have hi0 : (i 0).val < 12288 := (i 0).isLt
  have hi1 : (i 1).val < 64 := (i 1).isLt
  have ht : (i 0).val / 1024 < cfg1.N := by show (i 0).val / 1024 < grid1.N; omega
  obtain ⟨-, -, -, -, -, -, e30, e31⟩ := block_indices1 ⟨(i 0).val / 1024, ht⟩
  refine ⟨⟨(i 0).val / 1024, ht⟩, flush1_3 _, ?_⟩
  rw [mem_block1]
  intro a
  match a with
  | ⟨0, _⟩ =>
    show win1_3.index ⟨(i 0).val / 1024, ht⟩ (0 : Fin 2) * 1024 ≤ (i 0).val
      ∧ (i 0).val < win1_3.index ⟨(i 0).val / 1024, ht⟩ (0 : Fin 2) * 1024 + 1024
    rw [e30]; show (i 0).val / 1024 * 1024 ≤ (i 0).val ∧ (i 0).val < (i 0).val / 1024 * 1024 + 1024; omega
  | ⟨1, _⟩ =>
    show win1_3.index ⟨(i 0).val / 1024, ht⟩ (1 : Fin 2) * 64 ≤ (i 1).val
      ∧ (i 1).val < win1_3.index ⟨(i 0).val / 1024, ht⟩ (1 : Fin 2) * 64 + 64
    rw [e31]; omega

/-- The result array after the run: the whole-array scaled product of the operand arrays as the call finds them. -/
theorem final1 (c : Dev nD) :
    (dat1 (F := Ideal) V c).arrAt 3 cfg1.N = mmn1 (V c main_v25) (V c main_arg2) (V c main_v12) :=
  (dat1 (F := Ideal) V c).arrAt_eq_of_cover 3 (mmn1 (V c main_v25) (V c main_arg2) (V c main_v12))
    (fun t _ => flushed1_eq V c t) (cover1)

end Cert.KernelIdeal.GenH

end
-- ==== Proof.KI.Final2.lean ====
/-
  Kernel call 2 of the program over the extended reals, from blocks to the array: after all 12 write-backs the result array is one
  function of the three operand arrays. Entry (i, j) is row i of the left operand times column j of the right operand,
  scaled by entry i of the norm column. Point t of the grid writes rows 1024 t … 1024 t + 1023, computed from the same
  rows of the left operand and of the norm column and from the whole right operand; the 12 row blocks tile the array.
-/
import proofs.«157120_j31018253811968_1_alg».proof.Proof.KI.Reg2
import proofs.«157120_j31018253811968_1_alg».proof.Proof.Stages
import Idealize.ShloMosaic.Lib.Pipeline.Value
import Idealize.ShloMosaic.Lib.ValueIdx

noncomputable section

namespace Cert.KernelIdeal.GenH

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- Entry (i, j): the i-th row of \`a\` times the j-th column of \`b\`, scaled by the i-th entry of the norm column. -/
def mmn2 (a : Vec Ideal S12288x128 .f32) (b : Vec Ideal S128x64 .f32) (n : Vec Ideal S12288x1 .f32) : Vec Ideal S12288x64 .f32 :=
  fun i => (∑ k : Fin 128, a (ix2 (i 0) k) * b (ix2 k (i 1))) * n (ix2 (i 0) (0 : Fin 1))

theorem mmn2_apply (a : Vec Ideal S12288x128 .f32) (b : Vec Ideal S128x64 .f32) (n : Vec Ideal S12288x1 .f32) (p : Fin 12288) (q : Fin 64) :
    mmn2 a b n (ix2 p q) = (∑ k : Fin 128, a (ix2 p k) * b (ix2 k q)) * n (ix2 p (0 : Fin 1)) := rfl

theorem zero_offsets2 : (![0, 0] : Fin 2 → Nat) = fun _ => 0 := funext fun a => by fin_cases a <;> rfl

/-- The body's one whole-block store leaves the scaled product of its three whole-block loads. -/
theorem out2_3_eq (x0 : Vec Ideal S1024x128 .f32) (x1 : Vec Ideal S128x64 .f32) (x2 : Vec Ideal S1024x1 .f32) :
    out2_3 (F := Ideal) x0 x1 x2 = k2_pay1 x0 x1 x2 := by
  unfold out2_3
  rw [View.canon_unit_zero zero_offsets2]
  simp only [View.ld_unit_zero (S := S1024x128) zero_offsets2, View.ld_unit_zero (S := S128x64) zero_offsets2,
    View.ld_unit_zero (S := S1024x1) zero_offsets2]

/-- The block indices over the grid: the left operand, the norm column and the result move down one block of rows per
    point; the right operand stays whole. -/
theorem block_indices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What point \`t\` writes back is block \`t\` of the whole-array product. -/
theorem flushed2_eq (c : Dev nD) (t : Fin cfg2.N) :
    (dat2 (F := Ideal) V c).flushed 3 t
      = ((cfg2.win 3).blk t).view.read (Elt Ideal) (mmn2 (V c main_v25) (V c main_arg3) (V c main_v12)) := by
  show (cfg2.win 3).cut (grid2.coords t) ((dat2 V c).after 3 t) = _
  rw [after2_3, out2_3_eq]
  obtain ⟨e00, e01, e10, e11, e20, e21, e30, e31⟩ := block_indices2 t
  funext j
  have hp : (j 0).val < 1024 := (j 0).isLt
  have hq : (j 1).val < 64 := (j 1).isLt
  have hj : (cfg2.win 3).xinj (grid2.coords t) j = ix2 (⟨(j 0).val, hp⟩ : Fin 1024) (⟨(j 1).val, hq⟩ : Fin 64) :=
    funext fun a => by match a with | ⟨0, _⟩ => rfl | ⟨1, _⟩ => rfl
  refine (congrArg (k2_pay1 (iblk2 V c 0 t) (iblk2 V c 1 t) (iblk2 V c 2 t)) hj).trans ?_
  refine (Cert.Stages.pay2_apply _ _ _ _ _).trans ?_
  refine congrArg₂ (· * ·) (Finset.sum_congr rfl fun k _ => congrArg₂ (· * ·) ?_ ?_) ?_
  · show V c main_v25 (((cfg2.win 0).blk t).view.emb (ix2 (⟨(j 0).val, hp⟩ : Fin 1024) k)) = V c main_v25 _
    refine congrArg (V c main_v25) (funext fun a => Fin.ext ?_)
    match a with
    | ⟨0, _⟩ => show win2_0.index t (0 : Fin 2) * 1024 + 1 * (j 0).val = win2_3.index t (0 : Fin 2) * 1024 + 1 * (j 0).val; omega
    | ⟨1, _⟩ => show win2_0.index t (1 : Fin 2) * 128 + 1 * k.val = k.val; omega
  · show V c main_arg3 (((cfg2.win 1).blk t).view.emb (ix2 k (⟨(j 1).val, hq⟩ : Fin 64))) = V c main_arg3 _
    refine congrArg (V c main_arg3) (funext fun a => Fin.ext ?_)
    match a with
    | ⟨0, _⟩ => show win2_1.index t (0 : Fin 2) * 128 + 1 * k.val = k.val; omega
    | ⟨1, _⟩ => show win2_1.index t (1 : Fin 2) * 64 + 1 * (j 1).val = win2_3.index t (1 : Fin 2) * 64 + 1 * (j 1).val; omega
  · show V c main_v12 (((cfg2.win 2).blk t).view.emb (ix2 (⟨(j 0).val, hp⟩ : Fin 1024) (0 : Fin 1))) = V c main_v12 _
    refine congrArg (V c main_v12) (funext fun a => Fin.ext ?_)
    match a with
    | ⟨0, _⟩ => show win2_2.index t (0 : Fin 2) * 1024 + 1 * (j 0).val = win2_3.index t (0 : Fin 2) * 1024 + 1 * (j 0).val; omega
    | ⟨1, _⟩ => show win2_2.index t (1 : Fin 2) * 1 + 1 * 0 = 0; omega

/-- An index of the result array is in point \`t\`'s block iff each coordinate is in the block's range on its axis. -/
theorem mem_block2 (t : Fin cfg2.N) (i : S12288x64.Idx) :
    i ∈ ((cfg2.win 3).blk t).view.set
      ↔ ∀ a : Fin 2, win2_3.index t a * S1024x64.size a ≤ (i a).val ∧ (i a).val < win2_3.index t a * S1024x64.size a + S1024x64.size a := by
  show i ∈ ((View.whole main_v40).slice (win2_3.rect t)).set ↔ _
  rw [View.set_slice_whole, Rect.mem_set_unit]
  exact Iff.rfl

/-- Row r of the result is written back by point r / 1024: the 12 blocks of rows tile the array. -/
theorem cover2 (i : S12288x64.Idx) :
    ∃ t : Fin cfg2.N, (cfg2.win 3).flush t = true ∧ i ∈ ((cfg2.win 3).blk t).view.set := by
  have hN : grid2.N = 12 := N_2
  have hi0 : (i 0).val < 12288 := (i 0).isLt
  have hi1 : (i 1).val < 64 := (i 1).isLt
  have ht : (i 0).val / 1024 < cfg2.N := by show (i 0).val / 1024 < grid2.N; omega
  obtain ⟨-, -, -, -, -, -, e30, e31⟩ := block_indices2 ⟨(i 0).val / 1024, ht⟩
  refine ⟨⟨(i 0).val / 1024, ht⟩, flush2_3 _, ?_⟩
  rw [mem_block2]
  intro a
  match a with
  | ⟨0, _⟩ =>
    show win2_3.index ⟨(i 0).val / 1024, ht⟩ (0 : Fin 2) * 1024 ≤ (i 0).val
      ∧ (i 0).val < win2_3.index ⟨(i 0).val / 1024, ht⟩ (0 : Fin 2) * 1024 + 1024
    rw [e30]; show (i 0).val / 1024 * 1024 ≤ (i 0).val ∧ (i 0).val < (i 0).val / 1024 * 1024 + 1024; omega
  | ⟨1, _⟩ =>
    show win2_3.index ⟨(i 0).val / 1024, ht⟩ (1 : Fin 2) * 64 ≤ (i 1).val
      ∧ (i 1).val < win2_3.index ⟨(i 0).val / 1024, ht⟩ (1 : Fin 2) * 64 + 64
    rw [e31]; omega

/-- The result array after the run: the whole-array scaled product of the operand arrays as the call finds them. -/
theorem final2 (c : Dev nD) :
    (dat2 (F := Ideal) V c).arrAt 3 cfg2.N = mmn2 (V c main_v25) (V c main_arg3) (V c main_v12) :=
  (dat2 (F := Ideal) V c).arrAt_eq_of_cover 3 (mmn2 (V c main_v25) (V c main_arg3) (V c main_v12))
    (fun t _ => flushed2_eq V c t) (cover2)

end Cert.KernelIdeal.GenH

end
-- ==== Proof.KI.Final3.lean ====
/-
  Kernel call 3 of the program over the extended reals, from blocks to the array: after all 144 write-backs the result
  array is one function of the latent matrix z. Entry (i, j) is the inner product of rows i and j of z. Point t of the
  12 × 12 grid, at block coordinates (t / 12, t % 12), writes the 1024 × 1024 block of rows 1024 (t / 12) … and columns
  1024 (t % 12) …, computed from those two blocks of rows of z; the 144 blocks tile the array.
-/
import proofs.«157120_j31018253811968_1_alg».proof.Proof.KI.Reg3
import proofs.«157120_j31018253811968_1_alg».proof.Proof.Stages
import Idealize.ShloMosaic.Lib.Pipeline.Value
import Idealize.ShloMosaic.Lib.ValueIdx

noncomputable section

namespace Cert.KernelIdeal.GenH

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- Entry (i, j): the inner product of rows i and j of \`z\`. -/
def zzt (z : Vec Ideal S12288x64 .f32) : Vec Ideal S12288x12288 .f32 :=
  fun i => ∑ k : Fin 64, z (ix2 (i 0) k) * z (ix2 (i 1) k)

theorem zzt_apply (z : Vec Ideal S12288x64 .f32) (p q : Fin 12288) :
    zzt z (ix2 p q) = ∑ k : Fin 64, z (ix2 p k) * z (ix2 q k) := rfl

theorem zzt_at (z : Vec Ideal S12288x64 .f32) (i : S12288x12288.Idx) :
    zzt z i = ∑ k : Fin 64, z (ix2 (i 0) k) * z (ix2 (i 1) k) := rfl

theorem zero_offsets3 : (![0, 0] : Fin 2 → Nat) = fun _ => 0 := funext fun a => by fin_cases a <;> rfl

/-- The body's one whole-block store leaves the product of its two whole-block loads. -/
theorem out3_2_eq (x0 x1 : Vec Ideal S1024x64 .f32) : out3_2 (F := Ideal) x0 x1 = k3_pay1 x0 x1 := by
  unfold out3_2
  rw [View.canon_unit_zero zero_offsets3]
  simp only [View.ld_unit_zero (S := S1024x64) zero_offsets3]

/-- The block indices over the grid, in row-major order of its points: the first operand's block of rows follows the
    first grid coordinate, the second operand's the second, and the result's block has both. -/
theorem block_indices3 : ∀ t : Fin cfg3.N, win3_0.index t (0 : Fin 2) = t.val / 12 ∧ win3_0.index t (1 : Fin 2) = 0
    ∧ win3_1.index t (0 : Fin 2) = t.val % 12 ∧ win3_1.index t (1 : Fin 2) = 0
    ∧ win3_2.index t (0 : Fin 2) = t.val / 12 ∧ win3_2.index t (1 : Fin 2) = t.val % 12 :=
  (by decide +kernel : ∀ t : Fin grid3.N, _)

/-- What point \`t\` writes back is block \`t\` of the whole-array product. -/
theorem flushed3_eq (c : Dev nD) (t : Fin cfg3.N) :
    (dat3 (F := Ideal) V c).flushed 2 t = ((cfg3.win 2).blk t).view.read (Elt Ideal) (zzt (V c main_v56)) := by
  show (cfg3.win 2).cut (grid3.coords t) ((dat3 V c).after 2 t) = _
  rw [after3_2, out3_2_eq]
  obtain ⟨e00, e01, e10, e11, e20, e21⟩ := block_indices3 t
  funext j
  have hp : (j 0).val < 1024 := (j 0).isLt
  have hq : (j 1).val < 1024 := (j 1).isLt
  have hj : (cfg3.win 2).xinj (grid3.coords t) j = ix2 (⟨(j 0).val, hp⟩ : Fin 1024) (⟨(j 1).val, hq⟩ : Fin 1024) :=
    funext fun a => by match a with | ⟨0, _⟩ => rfl | ⟨1, _⟩ => rfl
  refine (congrArg (k3_pay1 (iblk3 V c 0 t) (iblk3 V c 1 t)) hj).trans ?_
  refine (Cert.Stages.pay3_apply _ _ _ _).trans ?_
  refine Eq.trans ?_ (zzt_at (V c main_v56) (((cfg3.win 2).blk t).view.emb j)).symm
  refine Finset.sum_congr rfl fun k _ => congrArg₂ (· * ·) ?_ ?_
  · show V c main_v56 (((cfg3.win 0).blk t).view.emb (ix2 (⟨(j 0).val, hp⟩ : Fin 1024) k)) = V c main_v56 _
    refine congrArg (V c main_v56) (funext fun a => Fin.ext ?_)
    match a with
    | ⟨0, _⟩ => show win3_0.index t (0 : Fin 2) * 1024 + 1 * (j 0).val = win3_2.index t (0 : Fin 2) * 1024 + 1 * (j 0).val; omega
    | ⟨1, _⟩ => show win3_0.index t (1 : Fin 2) * 64 + 1 * k.val = k.val; omega
  · show V c main_v56 (((cfg3.win 1).blk t).view.emb (ix2 (⟨(j 1).val, hq⟩ : Fin 1024) k)) = V c main_v56 _
    refine congrArg (V c main_v56) (funext fun a => Fin.ext ?_)
    match a with
    | ⟨0, _⟩ => show win3_1.index t (0 : Fin 2) * 1024 + 1 * (j 1).val = win3_2.index t (1 : Fin 2) * 1024 + 1 * (j 1).val; omega
    | ⟨1, _⟩ => show win3_1.index t (1 : Fin 2) * 64 + 1 * k.val = k.val; omega

/-- An index of the result array is in point \`t\`'s block iff each coordinate is in the block's range on its axis. -/
theorem mem_block3 (t : Fin cfg3.N) (i : S12288x12288.Idx) :
    i ∈ ((cfg3.win 2).blk t).view.set
      ↔ ∀ a : Fin 2, win3_2.index t a * S1024x1024.size a ≤ (i a).val ∧ (i a).val < win3_2.index t a * S1024x1024.size a + S1024x1024.size a := by
  show i ∈ ((View.whole main_v57).slice (win3_2.rect t)).set ↔ _
  rw [View.set_slice_whole, Rect.mem_set_unit]
  exact Iff.rfl

/-- Entry (r, s) of the result is written back by the point at block coordinates (r / 1024, s / 1024): the 144 blocks
    tile the array. -/
theorem cover3 (i : S12288x12288.Idx) :
    ∃ t : Fin cfg3.N, (cfg3.win 2).flush t = true ∧ i ∈ ((cfg3.win 2).blk t).view.set := by
  have hN : grid3.N = 144 := N_3
  have hi0 : (i 0).val < 12288 := (i 0).isLt
  have hi1 : (i 1).val < 12288 := (i 1).isLt
  have ht : (i 0).val / 1024 * 12 + (i 1).val / 1024 < cfg3.N := by
    show (i 0).val / 1024 * 12 + (i 1).val / 1024 < grid3.N; omega
  obtain ⟨-, -, -, -, e20, e21⟩ := block_indices3 ⟨(i 0).val / 1024 * 12 + (i 1).val / 1024, ht⟩
  refine ⟨⟨(i 0).val / 1024 * 12 + (i 1).val / 1024, ht⟩, flush3_2 _, ?_⟩
  rw [mem_block3]
  intro a
  match a with
  | ⟨0, _⟩ =>
    show win3_2.index ⟨(i 0).val / 1024 * 12 + (i 1).val / 1024, ht⟩ (0 : Fin 2) * 1024 ≤ (i 0).val
      ∧ (i 0).val < win3_2.index ⟨(i 0).val / 1024 * 12 + (i 1).val / 1024, ht⟩ (0 : Fin 2) * 1024 + 1024
    rw [e20]
    show ((i 0).val / 1024 * 12 + (i 1).val / 1024) / 12 * 1024 ≤ (i 0).val
      ∧ (i 0).val < ((i 0).val / 1024 * 12 + (i 1).val / 1024) / 12 * 1024 + 1024
    omega
  | ⟨1, _⟩ =>
    show win3_2.index ⟨(i 0).val / 1024 * 12 + (i 1).val / 1024, ht⟩ (1 : Fin 2) * 1024 ≤ (i 1).val
      ∧ (i 1).val < win3_2.index ⟨(i 0).val / 1024 * 12 + (i 1).val / 1024, ht⟩ (1 : Fin 2) * 1024 + 1024
    rw [e21]
    show ((i 0).val / 1024 * 12 + (i 1).val / 1024) % 12 * 1024 ≤ (i 1).val
      ∧ (i 1).val < ((i 0).val / 1024 * 12 + (i 1).val / 1024) % 12 * 1024 + 1024
    omega

/-- The result array after the run: the latent matrix, as the call finds it, times its own transpose. -/
theorem final3 (c : Dev nD) : (dat3 (F := Ideal) V c).arrAt 2 cfg3.N = zzt (V c main_v56) :=
  (dat3 (F := Ideal) V c).arrAt_eq_of_cover 2 (zzt (V c main_v56)) (fun t _ => flushed3_eq V c t) (cover3)

end Cert.KernelIdeal.GenH

end
-- ==== Proof.KI.Value.lean ====
/-
  What the idealized kernel program computes, as ONE function of its six argument arrays. With e the edge list, s and d
  the edges' source and destination nodes, deg the number of edges into each node and n = 1 / sqrt(max(1, deg)) as a column:
    x  = aggregate (features · W0 scaled by n)                    (a row of the aggregate sums the rows of its operand
    μ  = max(0, aggregate ((x · Wm) scaled by n))                   over the edges into that node, then is scaled by n)
    λ  = max(0, aggregate ((x · Ws) scaled by n))
    z  = noise * exp λ + μ
  and the result is z · zᵀ. The contents of the unscoped buffers are followed through the thirteen items of @main: each
  stretch of host operations is read back as the composition of its operations, each Pallas call as the whole-array
  function its write-backs make.
-/
import proofs.«157120_j31018253811968_1_alg».proof.Proof.KI.Run
import proofs.«157120_j31018253811968_1_alg».proof.Proof.KI.Final0
import proofs.«157120_j31018253811968_1_alg».proof.Proof.KI.Final1
import proofs.«157120_j31018253811968_1_alg».proof.Proof.KI.Final2
import proofs.«157120_j31018253811968_1_alg».proof.Proof.KI.Final3
import Idealize.ShloMosaic.Lib.StableHlo.Run

set_option maxRecDepth 16384

noncomputable section

namespace Cert.KernelIdeal.GenH

open Cert.KernelIdeal Cert.KernelIdeal.Gen
open Idealize.ShloMosaic Idealize.ShloMosaic.TcCoe Idealize.SL.Sem Idealize.ShloMosaic.StableHlo

section Stages

variable {F : FTy → Type} [FloatOps F]

/-- The source node of every edge: row 0 of the edge list. -/
def srcIx (e : (⟨S2x393216, .i32⟩ : BufTy).Contents (Elt F)) : (⟨S393216, .i32⟩ : BufTy).Contents (Elt F) :=
  shapeCast _ (extractStridedSlice S1x393216 ![0, 0] e slices_S2x393216_S1x393216_0_0) shapeCasts_S1x393216_S393216
/-- The destination node of every edge: row 1 of the edge list. -/
def dstIx (e : (⟨S2x393216, .i32⟩ : BufTy).Contents (Elt F)) : (⟨S393216, .i32⟩ : BufTy).Contents (Elt F) :=
  shapeCast _ (extractStridedSlice S1x393216 ![1, 0] e slices_S2x393216_S1x393216_1_0) shapeCasts_S1x393216_S393216
/-- A negative node index counted from the end, as jnp indexing reads it. -/
def wrapIx (s : (⟨S393216, .i32⟩ : BufTy).Contents (Elt F)) : (⟨S393216, .i32⟩ : BufTy).Contents (Elt F) :=
  select (cmpi .slt s (broadcastInDim S393216 ![] bcast_S_S393216 (constantI S_ 32 0#32))) (addi s (broadcastInDim S393216 ![] bcast_S_S393216 (constantI S_ 32 12288#32))) s
/-- The norm column: 1 / sqrt(max(1, number of edges into the node)). -/
def normcol (e : (⟨S2x393216, .i32⟩ : BufTy).Contents (Elt F)) : (⟨S12288x1, .f32⟩ : BufTy).Contents (Elt F) :=
  broadcastInDim S12288x1 ![0] bcast_S12288_S12288x1_0 (Host.divf (broadcastInDim S12288 ![] bcast_S_S12288 (constant S_ .f32 0x3F800000#32)) (Host.sqrt (maximumf (broadcastInDim S12288 ![] bcast_S_S12288 (id (constant S_ .f32 0x3F800000#32))) (Host.scatterAdd scatter_S12288_S393216x1_S393216_n_0_0_1 (broadcastInDim S12288 ![] bcast_S_S12288 (constant S_ .f32 0x00000000#32)) (broadcastInDim S393216x1 ![0] bcast_S393216_S393216x1_0 (dstIx e)) (broadcastInDim S393216 ![] bcast_S_S393216 (constant S_ .f32 0x3F800000#32))))))
/-- Neighbour aggregation of a [12288,128] array: gather the source rows, add them into the destination rows, scale by the norm. -/
def agg128 (h : (⟨S12288x128, .f32⟩ : BufTy).Contents (Elt F)) (s d : (⟨S393216, .i32⟩ : BufTy).Contents (Elt F)) (n : (⟨S12288x1, .f32⟩ : BufTy).Contents (Elt F)) : (⟨S12288x128, .f32⟩ : BufTy).Contents (Elt F) :=
  mulf (Host.scatterAdd scatter_S12288x128_S393216x1_S393216x128_1_0_0_1 (broadcastInDim S12288x128 ![] bcast_S_S12288x128 (constant S_ .f32 0x00000000#32)) (broadcastInDim S393216x1 ![0] bcast_S393216_S393216x1_0 d) (Host.gather gather_S12288x128_S393216x1_S393216x128_1_0_n_n_0_1_1128 h (broadcastInDim S393216x1 ![0] bcast_S393216_S393216x1_0 (wrapIx s)))) (broadcastInDim S12288x128 ![0, 1] bcast_S12288x1_S12288x128_0_1 n)
/-- The same for a [12288,64] array. -/
def agg64 (h : (⟨S12288x64, .f32⟩ : BufTy).Contents (Elt F)) (s d : (⟨S393216, .i32⟩ : BufTy).Contents (Elt F)) (n : (⟨S12288x1, .f32⟩ : BufTy).Contents (Elt F)) : (⟨S12288x64, .f32⟩ : BufTy).Contents (Elt F) :=
  mulf (Host.scatterAdd scatter_S12288x64_S393216x1_S393216x64_1_0_0_1 (broadcastInDim S12288x64 ![] bcast_S_S12288x64 (constant S_ .f32 0x00000000#32)) (broadcastInDim S393216x1 ![0] bcast_S393216_S393216x1_0 d) (Host.gather gather_S12288x64_S393216x1_S393216x64_1_0_n_n_0_1_164 h (broadcastInDim S393216x1 ![0] bcast_S393216_S393216x1_0 (wrapIx s)))) (broadcastInDim S12288x64 ![0, 1] bcast_S12288x1_S12288x64_0_1 n)
/-- The rectifier max(x, 0). -/
def relu64 (x : (⟨S12288x64, .f32⟩ : BufTy).Contents (Elt F)) : (⟨S12288x64, .f32⟩ : BufTy).Contents (Elt F) :=
  maximumf x (broadcastInDim S12288x64 ![] bcast_S_S12288x64 (constant S_ .f32 0x00000000#32))
/-- The latent matrix: noise * exp λ + μ. -/
def latent (a4 ls mu : (⟨S12288x64, .f32⟩ : BufTy).Contents (Elt F)) : (⟨S12288x64, .f32⟩ : BufTy).Contents (Elt F) :=
  addf (mulf a4 (Host.exp ls)) mu

variable (V : Valuation τ sig (Elt F))

/-! ### The host stretches read back, from any contents `V` -/

set_option maxHeartbeats 4000000 in
theorem rd_v12 : StableHlo.after hostOps0_2 (StableHlo.after hostOps0_1 (StableHlo.after hostOps0 V)) (Proc.devRef .tc main_v12) = normcol (V (Proc.devRef .tc main_arg5)) := by
  after_results_simp <;> rfl
set_option maxHeartbeats 4000000 in
theorem rd_v1 : StableHlo.after hostOps0_2 (StableHlo.after hostOps0_1 (StableHlo.after hostOps0 V)) (Proc.devRef .tc main_v1) = srcIx (V (Proc.devRef .tc main_arg5)) := by
  after_results_simp <;> rfl
set_option maxHeartbeats 4000000 in
theorem rd_v3 : StableHlo.after hostOps0_2 (StableHlo.after hostOps0_1 (StableHlo.after hostOps0 V)) (Proc.devRef .tc main_v3) = dstIx (V (Proc.devRef .tc main_arg5)) := by
  after_results_simp <;> rfl
set_option maxHeartbeats 4000000 in
theorem rd_v25 : StableHlo.after hostOps1 V (Proc.devRef .tc main_v25) = agg128 (V (Proc.devRef .tc main_v13)) (V (Proc.devRef .tc main_v1)) (V (Proc.devRef .tc main_v3)) (V (Proc.devRef .tc main_v12)) := by
  after_results_simp <;> rfl
set_option maxHeartbeats 4000000 in
theorem rd_v39 : StableHlo.after hostOps2_1 (StableHlo.after hostOps2 V) (Proc.devRef .tc main_v39) = relu64 (agg64 (V (Proc.devRef .tc main_v26)) (V (Proc.devRef .tc main_v1)) (V (Proc.devRef .tc main_v3)) (V (Proc.devRef .tc main_v12))) := by
  after_results_simp <;> rfl
set_option maxHeartbeats 4000000 in
theorem rd_v56 : StableHlo.after hostOps3_2 (StableHlo.after hostOps3_1 (StableHlo.after hostOps3 V)) (Proc.devRef .tc main_v56)
    = latent (V (Proc.devRef .tc main_arg4)) (relu64 (agg64 (V (Proc.devRef .tc main_v40)) (V (Proc.devRef .tc main_v1)) (V (Proc.devRef .tc main_v3)) (V (Proc.devRef .tc main_v12)))) (V (Proc.devRef .tc main_v39)) := by
  after_results_simp <;> rfl

end Stages

section Chain

variable (m : (ℓ : Loc nD τ sig) → Buf (Elt Ideal) ℓ) (ρ : Dev nD → PrngReg) (c : Dev nD)

/-- The aggregated first layer x, the mean head μ, the log-deviation head λ and the latent matrix z, from the arguments. -/
def layer1 (a0 : (⟨S12288x256, .f32⟩ : BufTy).Contents (Elt Ideal)) (a1 : (⟨S256x128, .f32⟩ : BufTy).Contents (Elt Ideal)) (e : (⟨S2x393216, .i32⟩ : BufTy).Contents (Elt Ideal)) : (⟨S12288x128, .f32⟩ : BufTy).Contents (Elt Ideal) :=
  agg128 (mmn0 a0 a1 (normcol e)) (srcIx e) (dstIx e) (normcol e)
def headMu (x : (⟨S12288x128, .f32⟩ : BufTy).Contents (Elt Ideal)) (a2 : (⟨S128x64, .f32⟩ : BufTy).Contents (Elt Ideal)) (e : (⟨S2x393216, .i32⟩ : BufTy).Contents (Elt Ideal)) : (⟨S12288x64, .f32⟩ : BufTy).Contents (Elt Ideal) :=
  relu64 (agg64 (mmn1 x a2 (normcol e)) (srcIx e) (dstIx e) (normcol e))
def headLs (x : (⟨S12288x128, .f32⟩ : BufTy).Contents (Elt Ideal)) (a3 : (⟨S128x64, .f32⟩ : BufTy).Contents (Elt Ideal)) (e : (⟨S2x393216, .i32⟩ : BufTy).Contents (Elt Ideal)) : (⟨S12288x64, .f32⟩ : BufTy).Contents (Elt Ideal) :=
  relu64 (agg64 (mmn2 x a3 (normcol e)) (srcIx e) (dstIx e) (normcol e))
/-- The program's result as one function of its six argument arrays. -/
def kval (a0 : (⟨S12288x256, .f32⟩ : BufTy).Contents (Elt Ideal)) (a1 : (⟨S256x128, .f32⟩ : BufTy).Contents (Elt Ideal)) (a2 a3 : (⟨S128x64, .f32⟩ : BufTy).Contents (Elt Ideal)) (a4 : (⟨S12288x64, .f32⟩ : BufTy).Contents (Elt Ideal))
    (e : (⟨S2x393216, .i32⟩ : BufTy).Contents (Elt Ideal)) : (⟨S12288x12288, .f32⟩ : BufTy).Contents (Elt Ideal) :=
  zzt (latent a4 (headLs (layer1 a0 a1 e) a3 e) (headMu (layer1 a0 a1 e) a2 e))

/-! ### A buffer no item in between writes keeps its contents -/

theorem k03 (r : Ref sig .tc) (h0 : r ∉ hostOps0_W) (h1 : r ∉ hostOps0_1_W) (h2 : r ∉ hostOps0_2_W) :
    W3 m ρ c (Proc.devRef .tc r) = m ((c : Thread nD τ).loc r) :=
  (StableHlo.after_of_writes_sub hostOps0_2 _ hostOps0_2_writes h2).trans
    ((StableHlo.after_of_writes_sub hostOps0_1 _ hostOps0_1_writes h1).trans
      ((StableHlo.after_of_writes_sub hostOps0 _ hostOps0_writes h0).trans rfl))
theorem k34 (r : Ref sig .tc) (ha : r ≠ main_v13) : W4 m ρ c (Proc.devRef .tc r) = W3 m ρ c (Proc.devRef .tc r) :=
  W4_keeps m ρ c r ha
theorem k35 (r : Ref sig .tc) (ha : r ≠ main_v13) (hb : r ∉ hostOps1_W) : W5 m ρ c (Proc.devRef .tc r) = W3 m ρ c (Proc.devRef .tc r) :=
  (StableHlo.after_of_writes_sub hostOps1 _ hostOps1_writes hb).trans (k34 m ρ c r ha)
theorem k36 (r : Ref sig .tc) (ha : r ≠ main_v13) (hb : r ∉ hostOps1_W) (hc : r ≠ main_v26) :
    W6 m ρ c (Proc.devRef .tc r) = W3 m ρ c (Proc.devRef .tc r) :=
  (W6_keeps m ρ c r hc).trans (k35 m ρ c r ha hb)
theorem k68 (r : Ref sig .tc) (hd : r ∉ hostOps2_W) (he : r ∉ hostOps2_1_W) : W8 m ρ c (Proc.devRef .tc r) = W6 m ρ c (Proc.devRef .tc r) :=
  (StableHlo.after_of_writes_sub hostOps2_1 _ hostOps2_1_writes he).trans (StableHlo.after_of_writes_sub hostOps2 _ hostOps2_writes hd)
theorem k38 (r : Ref sig .tc) (ha : r ≠ main_v13) (hb : r ∉ hostOps1_W) (hc : r ≠ main_v26) (hd : r ∉ hostOps2_W) (he : r ∉ hostOps2_1_W) :
    W8 m ρ c (Proc.devRef .tc r) = W3 m ρ c (Proc.devRef .tc r) :=
  (k68 m ρ c r hd he).trans (k36 m ρ c r ha hb hc)
theorem k39 (r : Ref sig .tc) (ha : r ≠ main_v13) (hb : r ∉ hostOps1_W) (hc : r ≠ main_v26) (hd : r ∉ hostOps2_W) (he : r ∉ hostOps2_1_W)
    (hf : r ≠ main_v40) : W9 m ρ c (Proc.devRef .tc r) = W3 m ρ c (Proc.devRef .tc r) :=
  (W9_keeps m ρ c r hf).trans (k38 m ρ c r ha hb hc hd he)

/-! ### The contents at each boundary, from the arguments -/

theorem n3 : W3 m ρ c (Proc.devRef .tc main_v12) = normcol (m ((c : Thread nD τ).loc main_arg5)) := rd_v12 (W0 m ρ c)
theorem s3 : W3 m ρ c (Proc.devRef .tc main_v1) = srcIx (m ((c : Thread nD τ).loc main_arg5)) := rd_v1 (W0 m ρ c)
theorem d3 : W3 m ρ c (Proc.devRef .tc main_v3) = dstIx (m ((c : Thread nD τ).loc main_arg5)) := rd_v3 (W0 m ρ c)

/-- After call 0: the scaled product of the features and the first weight matrix. -/
theorem h4 : W4 m ρ c (Proc.devRef .tc main_v13) = mmn0 (m ((c : Thread nD τ).loc main_arg0)) (m ((c : Thread nD τ).loc main_arg1)) (normcol (m ((c : Thread nD τ).loc main_arg5))) := by
  refine (W4_arr m ρ c 3).trans ((final0 (W3r m ρ) c).trans ?_)
  rw [show W3r m ρ c main_arg0 = (m ((c : Thread nD τ).loc main_arg0)) from k03 m ρ c main_arg0 (by decide) (by decide) (by decide),
    show W3r m ρ c main_arg1 = (m ((c : Thread nD τ).loc main_arg1)) from k03 m ρ c main_arg1 (by decide) (by decide) (by decide),
    show W3r m ρ c main_v12 = normcol (m ((c : Thread nD τ).loc main_arg5)) from n3 m ρ c]

/-- After the first aggregation: x. -/
theorem x5 : W5 m ρ c (Proc.devRef .tc main_v25) = layer1 (m ((c : Thread nD τ).loc main_arg0)) (m ((c : Thread nD τ).loc main_arg1)) (m ((c : Thread nD τ).loc main_arg5)) := by
  refine (rd_v25 (W4 m ρ c)).trans ?_
  rw [h4 m ρ c, (k34 m ρ c main_v1 (by decide)).trans (s3 m ρ c), (k34 m ρ c main_v3 (by decide)).trans (d3 m ρ c),
    (k34 m ρ c main_v12 (by decide)).trans (n3 m ρ c)]
  rfl

/-- After call 1: the scaled product of x and the mean head's weights. -/
theorem h6 : W6 m ρ c (Proc.devRef .tc main_v26) = mmn1 (layer1 (m ((c : Thread nD τ).loc main_arg0)) (m ((c : Thread nD τ).loc main_arg1)) (m ((c : Thread nD τ).loc main_arg5))) (m ((c : Thread nD τ).loc main_arg2)) (normcol (m ((c : Thread nD τ).loc main_arg5))) := by
  refine (W6_arr m ρ c 3).trans ((final1 (W5r m ρ) c).trans ?_)
  rw [show W5r m ρ c main_v25 = layer1 (m ((c : Thread nD τ).loc main_arg0)) (m ((c : Thread nD τ).loc main_arg1)) (m ((c : Thread nD τ).loc main_arg5)) from x5 m ρ c,
    show W5r m ρ c main_arg2 = (m ((c : Thread nD τ).loc main_arg2)) from (k35 m ρ c main_arg2 (by decide) (by decide)).trans (k03 m ρ c main_arg2 (by decide) (by decide) (by decide)),
    show W5r m ρ c main_v12 = normcol (m ((c : Thread nD τ).loc main_arg5)) from (k35 m ρ c main_v12 (by decide) (by decide)).trans (n3 m ρ c)]

/-- After the mean head's aggregation and rectifier: μ. -/
theorem mu8 : W8 m ρ c (Proc.devRef .tc main_v39) = headMu (layer1 (m ((c : Thread nD τ).loc main_arg0)) (m ((c : Thread nD τ).loc main_arg1)) (m ((c : Thread nD τ).loc main_arg5))) (m ((c : Thread nD τ).loc main_arg2)) (m ((c : Thread nD τ).loc main_arg5)) := by
  refine (rd_v39 (W6 m ρ c)).trans ?_
  rw [h6 m ρ c, (k36 m ρ c main_v1 (by decide) (by decide) (by decide)).trans (s3 m ρ c),
    (k36 m ρ c main_v3 (by decide) (by decide) (by decide)).trans (d3 m ρ c),
    (k36 m ρ c main_v12 (by decide) (by decide) (by decide)).trans (n3 m ρ c)]
  rfl

/-- After call 2: the scaled product of x and the log-deviation head's weights. -/
theorem h9 : W9 m ρ c (Proc.devRef .tc main_v40) = mmn2 (layer1 (m ((c : Thread nD τ).loc main_arg0)) (m ((c : Thread nD τ).loc main_arg1)) (m ((c : Thread nD τ).loc main_arg5))) (m ((c : Thread nD τ).loc main_arg3)) (normcol (m ((c : Thread nD τ).loc main_arg5))) := by
  refine (W9_arr m ρ c 3).trans ((final2 (W8r m ρ) c).trans ?_)
  rw [show W8r m ρ c main_v25 = layer1 (m ((c : Thread nD τ).loc main_arg0)) (m ((c : Thread nD τ).loc main_arg1)) (m ((c : Thread nD τ).loc main_arg5)) from (k68 m ρ c main_v25 (by decide) (by decide)).trans ((W6_keeps m ρ c main_v25 (by decide)).trans (x5 m ρ c)),
    show W8r m ρ c main_arg3 = (m ((c : Thread nD τ).loc main_arg3)) from (k38 m ρ c main_arg3 (by decide) (by decide) (by decide) (by decide) (by decide)).trans (k03 m ρ c main_arg3 (by decide) (by decide) (by decide)),
    show W8r m ρ c main_v12 = normcol (m ((c : Thread nD τ).loc main_arg5)) from (k38 m ρ c main_v12 (by decide) (by decide) (by decide) (by decide) (by decide)).trans (n3 m ρ c)]

/-- When the last call is entered: the latent matrix z. -/
theorem z12 : W12 m ρ c (Proc.devRef .tc main_v56) = latent (m ((c : Thread nD τ).loc main_arg4)) (headLs (layer1 (m ((c : Thread nD τ).loc main_arg0)) (m ((c : Thread nD τ).loc main_arg1)) (m ((c : Thread nD τ).loc main_arg5))) (m ((c : Thread nD τ).loc main_arg3)) (m ((c : Thread nD τ).loc main_arg5))) (headMu (layer1 (m ((c : Thread nD τ).loc main_arg0)) (m ((c : Thread nD τ).loc main_arg1)) (m ((c : Thread nD τ).loc main_arg5))) (m ((c : Thread nD τ).loc main_arg2)) (m ((c : Thread nD τ).loc main_arg5))) := by
  refine (rd_v56 (W9 m ρ c)).trans ?_
  rw [h9 m ρ c,
    (k39 m ρ c main_arg4 (by decide) (by decide) (by decide) (by decide) (by decide) (by decide)).trans (k03 m ρ c main_arg4 (by decide) (by decide) (by decide)),
    (k39 m ρ c main_v1 (by decide) (by decide) (by decide) (by decide) (by decide) (by decide)).trans (s3 m ρ c),
    (k39 m ρ c main_v3 (by decide) (by decide) (by decide) (by decide) (by decide) (by decide)).trans (d3 m ρ c),
    (k39 m ρ c main_v12 (by decide) (by decide) (by decide) (by decide) (by decide) (by decide)).trans (n3 m ρ c),
    (W9_keeps m ρ c main_v39 (by decide)).trans (mu8 m ρ c)]
  rfl

/-- THE KERNEL'S VALUE: the last result array after the run is `kval` of the argument arrays. -/
theorem result_eq : W13 m ρ c (Proc.devRef .tc main_v57) = kval (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W13_res m ρ c).trans ((final3 (W12r m ρ) c).trans ?_)
  rw [show W12r m ρ c main_v56 = _ from z12 m ρ c]
  rfl

end Chain

end Cert.KernelIdeal.GenH

end
-- ==== Proof.KI.RefStages.lean ====
/-
  The host side's stages as whole arrays over the extended reals: each is the same function of its operands as the
  device side's result array. The scaled matrix products are the row-by-column sums times the row's norm; the
  decoder is the matrix of inner products of the rows.
-/
import proofs.«157120_j31018253811968_1_alg».proof.Proof.KI.Final0
import proofs.«157120_j31018253811968_1_alg».proof.Proof.KI.Final1
import proofs.«157120_j31018253811968_1_alg».proof.Proof.KI.Final2
import proofs.«157120_j31018253811968_1_alg».proof.Proof.KI.Final3
import proofs.«157120_j31018253811968_1_alg».proof.Proof.Stages

noncomputable section

namespace Cert.Stages

open Idealize.ShloMosaic Idealize.ShloMosaic.ValueIdx
open Cert.KernelIdeal.GenH (mmn0 mmn1 mmn2 zzt mmn0_apply mmn1_apply mmn2_apply zzt_apply)

variable [Cert.ReferenceIdeal.Facts]

open Cert.ReferenceIdeal.Facts₀ in
/-- The first layer on the host is the whole-array scaled product. -/
theorem ref_mm0_eq (a : FVec Ideal Cert.ReferenceIdeal.S12288x256 .f32) (b : FVec Ideal Cert.ReferenceIdeal.S256x128 .f32)
    (n : FVec Ideal Cert.ReferenceIdeal.S12288x1 .f32) :
    mulf (Host.dotGeneral (F := Ideal) Cert.ReferenceIdeal.dot_S12288x256_S256x128_S12288x128_1_0_0_1_n_n none a b)
        (broadcastInDim Cert.ReferenceIdeal.S12288x128 ![0, 1] bcast_S12288x1_S12288x128_0_1 n)
      = mmn0 a b n := by
  funext i
  obtain ⟨p, q, rfl⟩ : ∃ (p : Fin 12288) (q : Fin 128), i = ix2 p q := ⟨i 0, i 1, eq_ix2 i⟩
  exact (ref_mm0_apply a b n p q).trans (mmn0_apply a b n p q).symm

open Cert.ReferenceIdeal.Facts₀ in
/-- A second-layer product on the host is the whole-array scaled product (the first head's function). -/
theorem ref_mm1_eq (a : FVec Ideal Cert.ReferenceIdeal.S12288x128 .f32) (b : FVec Ideal Cert.ReferenceIdeal.S128x64 .f32)
    (n : FVec Ideal Cert.ReferenceIdeal.S12288x1 .f32) :
    mulf (Host.dotGeneral (F := Ideal) Cert.ReferenceIdeal.dot_S12288x128_S128x64_S12288x64_1_0_0_1_n_n none a b)
        (broadcastInDim Cert.ReferenceIdeal.S12288x64 ![0, 1] bcast_S12288x1_S12288x64_0_1 n)
      = mmn1 a b n := by
  funext i
  obtain ⟨p, q, rfl⟩ : ∃ (p : Fin 12288) (q : Fin 64), i = ix2 p q := ⟨i 0, i 1, eq_ix2 i⟩
  exact (ref_mm1_apply a b n p q).trans (mmn1_apply a b n p q).symm

open Cert.ReferenceIdeal.Facts₀ in
/-- The same, as the second head's function. -/
theorem ref_mm2_eq (a : FVec Ideal Cert.ReferenceIdeal.S12288x128 .f32) (b : FVec Ideal Cert.ReferenceIdeal.S128x64 .f32)
    (n : FVec Ideal Cert.ReferenceIdeal.S12288x1 .f32) :
    mulf (Host.dotGeneral (F := Ideal) Cert.ReferenceIdeal.dot_S12288x128_S128x64_S12288x64_1_0_0_1_n_n none a b)
        (broadcastInDim Cert.ReferenceIdeal.S12288x64 ![0, 1] bcast_S12288x1_S12288x64_0_1 n)
      = mmn2 a b n := by
  funext i
  obtain ⟨p, q, rfl⟩ : ∃ (p : Fin 12288) (q : Fin 64), i = ix2 p q := ⟨i 0, i 1, eq_ix2 i⟩
  exact (ref_mm1_apply a b n p q).trans (mmn2_apply a b n p q).symm

open Cert.ReferenceIdeal.Facts₀ in
/-- The decoder on the host is the matrix of inner products of the rows. -/
theorem ref_zzt_eq (z : FVec Ideal Cert.ReferenceIdeal.S12288x64 .f32) :
    Host.dotGeneral (F := Ideal) Cert.ReferenceIdeal.dot_S12288x64_S64x12288_S12288x12288_1_0_0_1_n_n none z
        (transpose Cert.ReferenceIdeal.S64x12288 [1, 0] z transposes_S12288x64_S64x12288_1_0)
      = zzt z := by
  funext i
  obtain ⟨p, q, rfl⟩ : ∃ (p q : Fin 12288), i = ix2 p q := ⟨i 0, i 1, eq_ix2 i⟩
  exact (ref_zzt_apply z p q).trans (zzt_apply z p q).symm

end Cert.Stages

end
-- ==== Proof.RefValue.lean ====
/-
  The reference program's result is the same function of the argument arrays as the kernel program's. The reference
  applies, operation for operation, the same host operations — the edges' source and destination rows, the degree norm,
  the three neighbour aggregations, the two rectifiers, noise * exp λ + μ — and differs only where the kernel program
  launches a Pallas call: there the reference multiplies whole arrays on the host and scales by the broadcast norm column,
  and for the last product it transposes the latent matrix first. At the extended reals each such stage is, entry by entry,
  the same sum of products, so the two composed terms are equal.
-/
import proofs.«157120_j31018253811968_1_alg».proof.Proof.Gen.ReferenceIdeal.Run
import proofs.«157120_j31018253811968_1_alg».proof.Proof.KI.Value
import proofs.«157120_j31018253811968_1_alg».proof.Proof.KI.RefStages

set_option maxRecDepth 16384

noncomputable section

namespace Cert.Bridge

open Idealize.ShloMosaic Idealize.ShloMosaic.TcCoe Idealize.SL.Sem
open Cert.KernelIdeal.GenH (kval layer1 headMu headLs latent relu64 agg64 agg128 normcol wrapIx srcIx dstIx mmn0 mmn1 mmn2 zzt)

set_option maxHeartbeats 4000000 in
/-- The reference run's result term is `kval` of the reference's argument arrays. -/
theorem ref_result_eq (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v64 (F := Ideal) m' c
      = kval (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5)) := by
  unfold kval layer1 headMu headLs
  rw [← Cert.Stages.ref_zzt_eq, ← Cert.Stages.ref_mm2_eq, ← Cert.Stages.ref_mm1_eq, ← Cert.Stages.ref_mm0_eq]
  rfl

end Cert.Bridge

end
-- ==== Proof.lean ====
/-
  The five claims. Each program's frame — it runs to the end, faults nowhere and leaves its argument arrays as launched —
  is its run through the thirteen items of @main (the word-level kernel program and its idealization have the same text,
  read at two float instances); the reference, which launches no kernel, has its run read back operation by operation.
  The idealization rewrote nothing, so there is nothing to preserve. At the extended reals the kernel program's result
  and the reference's are one function of the six argument arrays: the host operations are the same on both sides, and
  each Pallas call — a matrix product over 1024-row blocks scaled by the degree norm, and the latent matrix times its
  transpose block by block — computes, entry by entry, the same sum of products as the reference's whole-array
  dot_general (addition and multiplication of extended reals being those of the reference, no law is used that needs
  finiteness).
-/
import proofs.«157120_j31018253811968_1_alg».proof.Defs
import proofs.«157120_j31018253811968_1_alg».proof.Proof.Gen.Kernel
import proofs.«157120_j31018253811968_1_alg».proof.Proof.Gen.KernelIdeal
import proofs.«157120_j31018253811968_1_alg».proof.Proof.Gen.ReferenceIdeal
import proofs.«157120_j31018253811968_1_alg».proof.Proof.Gen.Pre_finite_inputs
import proofs.«157120_j31018253811968_1_alg».proof.Proof.Gen.ReferenceIdeal.Run
import proofs.«157120_j31018253811968_1_alg».proof.Proof.Gen.ReferenceIdeal.Read
import proofs.«157120_j31018253811968_1_alg».proof.Proof.K.Run
import proofs.«157120_j31018253811968_1_alg».proof.Proof.KI.Run
import proofs.«157120_j31018253811968_1_alg».proof.Proof.KI.Value
import proofs.«157120_j31018253811968_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenH.frame m ρ
theorem frame_kernelIdeal : Cert.frame_KernelIdeal := fun m ρ _ => Cert.KernelIdeal.GenH.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with their result at `kval` of the argument arrays, which agree. -/
theorem algebraic : Cert.algebraic_KernelIdeal_ReferenceIdeal := by
  intro m ρ m' ρ' _ hagree
  refine ⟨fun c => Cert.KernelIdeal.GenH.kval
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.GenH.result_eq m ρ c), (h c).2⟩) (Cert.KernelIdeal.GenH.run_main m ρ)
  · refine (θ_run Cert.ReferenceIdeal.defs _ _).mono (fun _ h c => ⟨(h c).1.trans ?_, (h c).2⟩)
      (Cert.ReferenceIdeal.Value.run (F := Ideal) m' ρ')
    rw [Cert.Bridge.ref_result_eq m' c, (hagree c).1, (hagree c).2.1, (hagree c).2.2.1, (hagree c).2.2.2.1, (hagree c).2.2.2.2.1,
      (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
